-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v77_0)) (v1 : (c : Dev Cert.KernelIdeal.nD) → Buf (Elt Ideal) ((c.tc : Thread Cert.KernelIdeal.nD Cert.KernelIdeal.τ).loc Cert.KernelIdeal.main_v77_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v77_0) = v0 c
          ∧ r.2.mem ((c.tc : Thread Cert.KernelIdeal.nD Cert.KernelIdeal.τ).loc Cert.KernelIdeal.main_v77_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v110) = v0 c
          ∧ r.2.mem ((c.tc : Thread Cert.ReferenceIdeal.nD Cert.ReferenceIdeal.τ).loc Cert.ReferenceIdeal.main_v111) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S50000x16 : Shape := ⟨2, ![50000, 16]⟩
abbrev S2x800000 : Shape := ⟨2, ![2, 800000]⟩
abbrev S16x64 : Shape := ⟨2, ![16, 64]⟩
abbrev S64 : Shape := ⟨1, ![64]⟩
abbrev S128x64 : Shape := ⟨2, ![128, 64]⟩
abbrev S3x64x64 : Shape := ⟨3, ![3, 64, 64]⟩
abbrev S3x64 : Shape := ⟨2, ![3, 64]⟩
abbrev S64x40 : Shape := ⟨2, ![64, 40]⟩
abbrev S40 : Shape := ⟨1, ![40]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S50000x16 : S_.BroadcastsInDim S50000x16 (![] : Fin 0 → Fin S50000x16.rank)
  reducesTo_S50000x16_S_d0_1 : S50000x16.ReducesTo [0, 1] S_
  bcast_S_S16x64 : S_.BroadcastsInDim S16x64 (![] : Fin 0 → Fin S16x64.rank)
  reducesTo_S16x64_S_d0_1 : S16x64.ReducesTo [0, 1] S_
  bcast_S_S64 : S_.BroadcastsInDim S64 (![] : Fin 0 → Fin S64.rank)
  reducesTo_S64_S_d0 : S64.ReducesTo [0] S_
  bcast_S_S128x64 : S_.BroadcastsInDim S128x64 (![] : Fin 0 → Fin S128x64.rank)
  reducesTo_S128x64_S_d0_1 : S128x64.ReducesTo [0, 1] S_
  bcast_S_S3x64x64 : S_.BroadcastsInDim S3x64x64 (![] : Fin 0 → Fin S3x64x64.rank)
  reducesTo_S3x64x64_S_d0_1_2 : S3x64x64.ReducesTo [0, 1, 2] S_
  bcast_S_S3x64 : S_.BroadcastsInDim S3x64 (![] : Fin 0 → Fin S3x64.rank)
  reducesTo_S3x64_S_d0_1 : S3x64.ReducesTo [0, 1] S_
  bcast_S_S64x40 : S_.BroadcastsInDim S64x40 (![] : Fin 0 → Fin S64x40.rank)
  reducesTo_S64x40_S_d0_1 : S64x40.ReducesTo [0, 1] S_
  bcast_S_S40 : S_.BroadcastsInDim S40 (![] : Fin 0 → Fin S40.rank)
  reducesTo_S40_S_d0 : S40.ReducesTo [0] S_

variable [Facts]

def fn_part3 {F : FTy → Type} [FloatOps F] (main_v48 : IVec S_ 1) (main_v49 : FVec F S40 .f32) (main_v50 : FVec F S40 .f32) : IVec S_ 1 :=
  let main_v51 : IVec S40 1 := cmpf .olt main_v49 main_v50
  let main_c_19 : IVec S_ 1 := constantI S_ 1 1#1
  let main_v52 : IVec S_ 1 := (fun x v => Host.reduce IntOp.andi x v reducesTo_S40_S_d0 h_S_) main_v51 main_c_19
  let main_v53 : IVec S_ 1 := andi main_v48 main_v52
  main_v53

def fn_part2 {F : FTy → Type} [FloatOps F] (main_arg8 : FVec F S3x64x64 .f32) (main_arg9 : FVec F S3x64 .f32) (main_arg10 : FVec F S64x40 .f32) (main_arg11 : FVec F S40 .f32) (main_v33 : IVec S_ 1) : IVec S_ 1 :=
  let main_v34 : FVec F S3x64x64 .f32 := Host.absf main_arg8
  let main_cst_12 : FVec F S_ .f32 := constant S_ .f32 0x7F800000#32
  let main_v35 : FVec F S3x64x64 .f32 := broadcastInDim S3x64x64 ![] bcast_S_S3x64x64 main_cst_12
  let main_v36 : IVec S3x64x64 1 := cmpf .olt main_v34 main_v35
  let main_c_13 : IVec S_ 1 := constantI S_ 1 1#1
  let main_v37 : IVec S_ 1 := (fun x v => Host.reduce IntOp.andi x v reducesTo_S3x64x64_S_d0_1_2 h_S_) main_v36 main_c_13
  let main_v38 : IVec S_ 1 := andi main_v33 main_v37
  let main_v39 : FVec F S3x64 .f32 := Host.absf main_arg9
  let main_cst_14 : FVec F S_ .f32 := constant S_ .f32 0x7F800000#32
  let main_v40 : FVec F S3x64 .f32 := broadcastInDim S3x64 ![] bcast_S_S3x64 main_cst_14
  let main_v41 : IVec S3x64 1 := cmpf .olt main_v39 main_v40
  let main_c_15 : IVec S_ 1 := constantI S_ 1 1#1
  let main_v42 : IVec S_ 1 := (fun x v => Host.reduce IntOp.andi x v reducesTo_S3x64_S_d0_1 h_S_) main_v41 main_c_15
  let main_v43 : IVec S_ 1 := andi main_v38 main_v42
  let main_v44 : FVec F S64x40 .f32 := Host.absf main_arg10
  let main_cst_16 : FVec F S_ .f32 := constant S_ .f32 0x7F800000#32
  let main_v45 : FVec F S64x40 .f32 := broadcastInDim S64x40 ![] bcast_S_S64x40 main_cst_16
  let main_v46 : IVec S64x40 1 := cmpf .olt main_v44 main_v45
  let main_c_17 : IVec S_ 1 := constantI S_ 1 1#1
  let main_v47 : IVec S_ 1 := (fun x v => Host.reduce IntOp.andi x v reducesTo_S64x40_S_d0_1 h_S_) main_v46 main_c_17
  let main_v48 : IVec S_ 1 := andi main_v43 main_v47
  let main_v49 : FVec F S40 .f32 := Host.absf main_arg11
  let main_cst_18 : FVec F S_ .f32 := constant S_ .f32 0x7F800000#32
  let main_v50 : FVec F S40 .f32 := broadcastInDim S40 ![] bcast_S_S40 main_cst_18
  fn_part3 (F := F) main_v48 main_v49 main_v50

def fn_part1 {F : FTy → Type} [FloatOps F] (main_arg5 : FVec F S128x64 .f32) (main_arg6 : FVec F S64 .f32) (main_arg7 : FVec F S3x64x64 .f32) (main_arg8 : FVec F S3x64x64 .f32) (main_arg9 : FVec F S3x64 .f32) (main_arg10 : FVec F S64x40 .f32) (main_arg11 : FVec F S40 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S128x64 .f32 := Host.absf main_arg5
  let main_cst_6 : FVec F S_ .f32 := constant S_ .f32 0x7F800000#32
  let main_v20 : FVec F S128x64 .f32 := broadcastInDim S128x64 ![] bcast_S_S128x64 main_cst_6
  let main_v21 : IVec S128x64 1 := cmpf .olt main_v19 main_v20
  let main_c_7 : IVec S_ 1 := constantI S_ 1 1#1
  let main_v22 : IVec S_ 1 := (fun x v => Host.reduce IntOp.andi x v reducesTo_S128x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S3x64x64 .f32 := Host.absf main_arg7
  let main_cst_10 : FVec F S_ .f32 := constant S_ .f32 0x7F800000#32
  let main_v30 : FVec F S3x64x64 .f32 := broadcastInDim S3x64x64 ![] bcast_S_S3x64x64 main_cst_10
  let main_v31 : IVec S3x64x64 1 := cmpf .olt main_v29 main_v30
  let main_c_11 : IVec S_ 1 := constantI S_ 1 1#1
  let main_v32 : IVec S_ 1 := (fun x v => Host.reduce IntOp.andi x v reducesTo_S3x64x64_S_d0_1_2 h_S_) main_v31 main_c_11
  let main_v33 : IVec S_ 1 := andi main_v28 main_v32
  fn_part2 (F := F) main_arg8 main_arg9 main_arg10 main_arg11 main_v33

def fn {F : FTy → Type} [FloatOps F] (main_arg0 : FVec F S50000x128 .f32) (main_arg1 : FVec F S50000x16 .f32) (main_arg2 : IVec S2x800000 32) (main_arg3 : FVec F S16x64 .f32) (main_arg4 : FVec F S64 .f32) (main_arg5 : FVec F S128x64 .f32) (main_arg6 : FVec F S64 .f32) (main_arg7 : FVec F S3x64x64 .f32) (main_arg8 : FVec F S3x64x64 .f32) (main_arg9 : FVec F S3x64 .f32) (main_arg10 : FVec F S64x40 .f32) (main_arg11 : FVec F S40 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S50000x16 .f32 := Host.absf main_arg1
  let main_cst_0 : FVec F S_ .f32 := constant S_ .f32 0x7F800000#32
  let main_v5 : FVec F S50000x16 .f32 := broadcastInDim S50000x16 ![] bcast_S_S50000x16 main_cst_0
  let main_v6 : IVec S50000x16 1 := cmpf .olt main_v4 main_v5
  let main_c_1 : IVec S_ 1 := constantI S_ 1 1#1
  let main_v7 : IVec S_ 1 := (fun x v => Host.reduce IntOp.andi x v reducesTo_S50000x16_S_d0_1 h_S_) main_v6 main_c_1
  let main_v8 : IVec S_ 1 := andi main_v3 main_v7
  let main_v9 : FVec F S16x64 .f32 := Host.absf main_arg3
  let main_cst_2 : FVec F S_ .f32 := constant S_ .f32 0x7F800000#32
  let main_v10 : FVec F S16x64 .f32 := broadcastInDim S16x64 ![] bcast_S_S16x64 main_cst_2
  let main_v11 : IVec S16x64 1 := cmpf .olt main_v9 main_v10
  let main_c_3 : IVec S_ 1 := constantI S_ 1 1#1
  let main_v12 : IVec S_ 1 := (fun x v => Host.reduce IntOp.andi x v reducesTo_S16x64_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_arg6 main_arg7 main_arg8 main_arg9 main_arg10 main_arg11 main_v13 main_v16
-- ==== Kernel.lean ====
abbrev S50000x128 : Shape := ⟨2, ![50000, 128]⟩
abbrev S50000x16 : Shape := ⟨2, ![50000, 16]⟩
abbrev S2x800000 : Shape := ⟨2, ![2, 800000]⟩
abbrev S16x64 : Shape := ⟨2, ![16, 64]⟩
abbrev S64 : Shape := ⟨1, ![64]⟩
abbrev S128x64 : Shape := ⟨2, ![128, 64]⟩
abbrev S3x64x64 : Shape := ⟨3, ![3, 64, 64]⟩
abbrev S3x64 : Shape := ⟨2, ![3, 64]⟩
abbrev S64x40 : Shape := ⟨2, ![64, 40]⟩
abbrev S40 : Shape := ⟨1, ![40]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x64 : Shape := ⟨2, ![50000, 64]⟩
abbrev S5000x128 : Shape := ⟨2, ![5000, 128]⟩
abbrev S5000x16 : Shape := ⟨2, ![5000, 16]⟩
abbrev S5000x64 : Shape := ⟨2, ![5000, 64]⟩
abbrev S1x64 : Shape := ⟨2, ![1, 64]⟩
abbrev S800000x64 : Shape := ⟨2, ![800000, 64]⟩
abbrev S50000x1 : Shape := ⟨2, ![50000, 1]⟩
abbrev S1x64x64 : Shape := ⟨3, ![1, 64, 64]⟩
abbrev S64x64 : Shape := ⟨2, ![64, 64]⟩
abbrev S50000x40 : Shape := ⟨2, ![50000, 40]⟩
abbrev S5000x40 : Shape := ⟨2, ![5000, 40]⟩
abbrev S1x40 : Shape := ⟨2, ![1, 40]⟩
abbrev S5000 : Shape := ⟨1, ![5000]⟩
abbrev S5000x1 : Shape := ⟨2, ![5000, 1]⟩

abbrev nBuf : Space → Nat
  | .hbm => 107
  | .vmem => 47
  | .smem => 0
  | _ => 0

abbrev bufTy : (tb : Table) → Fin (tcTables nBuf tb) → BufTy
  | .hbm, ⟨0, _⟩ => ⟨S50000x128, .f32⟩
  | .hbm, ⟨1, _⟩ => ⟨S50000x16, .f32⟩
  | .hbm, ⟨2, _⟩ => ⟨S2x800000, .i32⟩
  | .hbm, ⟨3, _⟩ => ⟨S16x64, .f32⟩
  | .hbm, ⟨4, _⟩ => ⟨S64, .f32⟩
  | .hbm, ⟨5, _⟩ => ⟨S128x64, .f32⟩
  | .hbm, ⟨6, _⟩ => ⟨S64, .f32⟩
  | .hbm, ⟨7, _⟩ => ⟨S3x64x64, .f32⟩
  | .hbm, ⟨8, _⟩ => ⟨S3x64x64, .f32⟩
  | .hbm, ⟨9, _⟩ => ⟨S3x64, .f32⟩
  | .hbm, ⟨10, _⟩ => ⟨S64x40, .f32⟩
  | .hbm, ⟨11, _⟩ => ⟨S40, .f32⟩
  | .hbm, ⟨12, _⟩ => ⟨S1x800000, .i32⟩
  | .hbm, ⟨13, _⟩ => ⟨S800000, .i32⟩
  | .hbm, ⟨14, _⟩ => ⟨S1x800000, .i32⟩
  | .hbm, ⟨15, _⟩ => ⟨S800000, .i32⟩
  | .hbm, ⟨16, _⟩ => ⟨S_, .f32⟩
  | .hbm, ⟨17, _⟩ => ⟨S800000, .f32⟩
  | .hbm, ⟨18, _⟩ => ⟨S_, .f32⟩
  | .hbm, ⟨19, _⟩ => ⟨S50000, .f32⟩
  | .hbm, ⟨20, _⟩ => ⟨S800000x1, .i32⟩
  | .hbm, ⟨21, _⟩ => ⟨S50000, .f32⟩
  | .hbm, ⟨22, _⟩ => ⟨S_, .f32⟩
  | .hbm, ⟨23, _⟩ => ⟨S_, .f32⟩
  | .hbm, ⟨24, _⟩ => ⟨S50000, .f32⟩
  | .hbm, ⟨25, _⟩ => ⟨S50000, .f32⟩
  | .hbm, ⟨26, _⟩ => ⟨S_, .f32⟩
  | .hbm, ⟨27, _⟩ => ⟨S50000, .f32⟩
  | .hbm, ⟨28, _⟩ => ⟨S50000, .f32⟩
  | .hbm, ⟨29, _⟩ => ⟨S50000x64, .f32⟩
  | .hbm, ⟨30, _⟩ => ⟨S50000x64, .f32⟩
  | .hbm, ⟨31, _⟩ => ⟨S50000x64, .bf16⟩
  | .hbm, ⟨32, _⟩ => ⟨S_, .i32⟩
  | .hbm, ⟨33, _⟩ => ⟨S800000, .i32⟩
  | .hbm, ⟨34, _⟩ => ⟨S800000, .i1⟩
  | .hbm, ⟨35, _⟩ => ⟨S_, .i32⟩
  | .hbm, ⟨36, _⟩ => ⟨S800000, .i32⟩
  | .hbm, ⟨37, _⟩ => ⟨S800000, .i32⟩
  | .hbm, ⟨38, _⟩ => ⟨S800000, .i32⟩
  | .hbm, ⟨39, _⟩ => ⟨S800000x1, .i32⟩
  | .hbm, ⟨40, _⟩ => ⟨S800000x64, .bf16⟩
  | .hbm, ⟨41, _⟩ => ⟨S800000x64, .f32⟩
  | .hbm, ⟨42, _⟩ => ⟨S_, .f32⟩
  | .hbm, ⟨43, _⟩ => ⟨S50000x64, .f32⟩
  | .hbm, ⟨44, _⟩ => ⟨S800000x1, .i32⟩
  | .hbm, ⟨45, _⟩ => ⟨S50000x64, .f32⟩
  | .hbm, ⟨46, _⟩ => ⟨S50000x1, .f32⟩
  | .hbm, ⟨47, _⟩ => ⟨S50000x64, .f32⟩
  | .hbm, ⟨48, _⟩ => ⟨S50000x64, .f32⟩
  | .hbm, ⟨49, _⟩ => ⟨S1x64x64, .f32⟩
  | .hbm, ⟨50, _⟩ => ⟨S64x64, .f32⟩
  | .hbm, ⟨51, _⟩ => ⟨S1x64x64, .f32⟩
  | .hbm, ⟨52, _⟩ => ⟨S64x64, .f32⟩
  | .hbm, ⟨53, _⟩ => ⟨S1x64, .f32⟩
  | .hbm, ⟨54, _⟩ => ⟨S64, .f32⟩
  | .hbm, ⟨55, _⟩ => ⟨S50000x64, .f32⟩
  | .hbm, ⟨56, _⟩ => ⟨S50000x64, .bf16⟩
  | .hbm, ⟨57, _⟩ => ⟨S_, .i32⟩
  | .hbm, ⟨58, _⟩ => ⟨S800000, .i32⟩
  | .hbm, ⟨59, _⟩ => ⟨S800000, .i1⟩
  | .hbm, ⟨60, _⟩ => ⟨S_, .i32⟩
  | .hbm, ⟨61, _⟩ => ⟨S800000, .i32⟩
  | .hbm, ⟨62, _⟩ => ⟨S800000, .i32⟩
  | .hbm, ⟨63, _⟩ => ⟨S800000, .i32⟩
  | .hbm, ⟨64, _⟩ => ⟨S800000x1, .i32⟩
  | .hbm, ⟨65, _⟩ => ⟨S800000x64, .bf16⟩
  | .hbm, ⟨66, _⟩ => ⟨S800000x64, .f32⟩
  | .hbm, ⟨67, _⟩ => ⟨S_, .f32⟩
  | .hbm, ⟨68, _⟩ => ⟨S50000x64, .f32⟩
  | .hbm, ⟨69, _⟩ => ⟨S800000x1, .i32⟩
  | .hbm, ⟨70, _⟩ => ⟨S50000x64, .f32⟩
  | .hbm, ⟨71, _⟩ => ⟨S50000x1, .f32⟩
  | .hbm, ⟨72, _⟩ => ⟨S50000x64, .f32⟩
  | .hbm, ⟨73, _⟩ => ⟨S50000x64, .f32⟩
  | .hbm, ⟨74, _⟩ => ⟨S1x64x64, .f32⟩
  | .hbm, ⟨75, _⟩ => ⟨S64x64, .f32⟩
  | .hbm, ⟨76, _⟩ => ⟨S1x64x64, .f32⟩
  | .hbm, ⟨77, _⟩ => ⟨S64x64, .f32⟩
  | .hbm, ⟨78, _⟩ => ⟨S1x64, .f32⟩
  | .hbm, ⟨79, _⟩ => ⟨S64, .f32⟩
  | .hbm, ⟨80, _⟩ => ⟨S50000x64, .f32⟩
  | .hbm, ⟨81, _⟩ => ⟨S50000x64, .bf16⟩
  | .hbm, ⟨82, _⟩ => ⟨S_, .i32⟩
  | .hbm, ⟨83, _⟩ => ⟨S800000, .i32⟩
  | .hbm, ⟨84, _⟩ => ⟨S800000, .i1⟩
  | .hbm, ⟨85, _⟩ => ⟨S_, .i32⟩
  | .hbm, ⟨86, _⟩ => ⟨S800000, .i32⟩
  | .hbm, ⟨87, _⟩ => ⟨S800000, .i32⟩
  | .hbm, ⟨88, _⟩ => ⟨S800000, .i32⟩
  | .hbm, ⟨89, _⟩ => ⟨S800000x1, .i32⟩
  | .hbm, ⟨90, _⟩ => ⟨S800000x64, .bf16⟩
  | .hbm, ⟨91, _⟩ => ⟨S800000x64, .f32⟩
  | .hbm, ⟨92, _⟩ => ⟨S_, .f32⟩
  | .hbm, ⟨93, _⟩ => ⟨S50000x64, .f32⟩
  | .hbm, ⟨94, _⟩ => ⟨S800000x1, .i32⟩
  | .hbm, ⟨95, _⟩ => ⟨S50000x64, .f32⟩
  | .hbm, ⟨96, _⟩ => ⟨S50000x1, .f32⟩
  | .hbm, ⟨97, _⟩ => ⟨S50000x64, .f32⟩
  | .hbm, ⟨98, _⟩ => ⟨S50000x64, .f32⟩
  | .hbm, ⟨99, _⟩ => ⟨S1x64x64, .f32⟩
  | .hbm, ⟨100, _⟩ => ⟨S64x64, .f32⟩
  | .hbm, ⟨101, _⟩ => ⟨S1x64x64, .f32⟩
  | .hbm, ⟨102, _⟩ => ⟨S64x64, .f32⟩
  | .hbm, ⟨103, _⟩ => ⟨S1x64, .f32⟩
  | .hbm, ⟨104, _⟩ => ⟨S64, .f32⟩
  | .hbm, ⟨105, _⟩ => ⟨S50000x40, .f32⟩
  | .hbm, ⟨106, _⟩ => ⟨S50000x40, .f32⟩
  | .local _ .vmem, ⟨0, _⟩ => ⟨S5000x128, .f32⟩
  | .local _ .vmem, ⟨1, _⟩ => ⟨S5000x128, .f32⟩
  | .local _ .vmem, ⟨2, _⟩ => ⟨S5000x16, .f32⟩
  | .local _ .vmem, ⟨3, _⟩ => ⟨S5000x16, .f32⟩
  | .local _ .vmem, ⟨4, _⟩ => ⟨S16x64, .f32⟩
  | .local _ .vmem, ⟨5, _⟩ => ⟨S64, .f32⟩
  | .local _ .vmem, ⟨6, _⟩ => ⟨S128x64, .f32⟩
  | .local _ .vmem, ⟨7, _⟩ => ⟨S64, .f32⟩
  | .local _ .vmem, ⟨8, _⟩ => ⟨S5000x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S5000x64, .f32⟩
  | .local _ .vmem, ⟨13, _⟩ => ⟨S5000x64, .f32⟩
  | .local _ .vmem, ⟨14, _⟩ => ⟨S5000x64, .f32⟩
  | .local _ .vmem, ⟨15, _⟩ => ⟨S5000x64, .f32⟩
  | .local _ .vmem, ⟨16, _⟩ => ⟨S64x64, .f32⟩
  | .local _ .vmem, ⟨17, _⟩ => ⟨S64x64, .f32⟩
  | .local _ .vmem, ⟨18, _⟩ => ⟨S64, .f32⟩
  | .local _ .vmem, ⟨19, _⟩ => ⟨S5000x64, .f32⟩
  | .local _ .vmem, ⟨20, _⟩ => ⟨S5000x64, .f32⟩
  | .local _ .vmem, ⟨21, _⟩ => ⟨S5000x64, .f32⟩
  | .local _ .vmem, ⟨22, _⟩ => ⟨S5000x64, .f32⟩
  | .local _ .vmem, ⟨23, _⟩ => ⟨S5000x64, .f32⟩
  | .local _ .vmem, ⟨24, _⟩ => ⟨S5000x64, .f32⟩
  | .local _ .vmem, ⟨25, _⟩ => ⟨S5000x64, .f32⟩
  | .local _ .vmem, ⟨26, _⟩ => ⟨S5000x64, .f32⟩
  | .local _ .vmem, ⟨27, _⟩ => ⟨S64x64, .f32⟩
  | .local _ .vmem, ⟨28, _⟩ => ⟨S64x64, .f32⟩
  | .local _ .vmem, ⟨29, _⟩ => ⟨S64, .f32⟩
  | .local _ .vmem, ⟨30, _⟩ => ⟨S5000x64, .f32⟩
  | .local _ .vmem, ⟨31, _⟩ => ⟨S5000x64, .f32⟩
  | .local _ .vmem, ⟨32, _⟩ => ⟨S5000x64, .f32⟩
  | .local _ .vmem, ⟨33, _⟩ => ⟨S5000x64, .f32⟩
  | .local _ .vmem, ⟨34, _⟩ => ⟨S5000x64, .f32⟩
  | .local _ .vmem, ⟨35, _⟩ => ⟨S5000x64, .f32⟩
  | .local _ .vmem, ⟨36, _⟩ => ⟨S5000x64, .f32⟩
  | .local _ .vmem, ⟨37, _⟩ => ⟨S5000x64, .f32⟩
  | .local _ .vmem, ⟨38, _⟩ => ⟨S64x64, .f32⟩
  | .local _ .vmem, ⟨39, _⟩ => ⟨S64x64, .f32⟩
  | .local _ .vmem, ⟨40, _⟩ => ⟨S64, .f32⟩
  | .local _ .vmem, ⟨41, _⟩ => ⟨S64x40, .f32⟩
  | .local _ .vmem, ⟨42, _⟩ => ⟨S40, .f32⟩
  | .local _ .vmem, ⟨43, _⟩ => ⟨S5000x40, .f32⟩
  | .local _ .vmem, ⟨44, _⟩ => ⟨S5000x40, .f32⟩
  | .local _ .vmem, ⟨45, _⟩ => ⟨S5000x40, .f32⟩
  | .local _ .vmem, ⟨46, _⟩ => ⟨S5000x40, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | _, _ => false

abbrev semScoped : Fin 0 → Bool
  | ⟨_, h⟩ => absurd h (Nat.not_lt_zero _)

abbrev dmaSemScoped : Fin 47 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | _ => false

abbrev sig : RefSig :=
  ofTc nBuf bufTy 0 47 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst : Ref sig .tc := ⟨.hbm, 16, rfl⟩
abbrev main_v4 : Ref sig .tc := ⟨.hbm, 17, rfl⟩
abbrev main_cst_0 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_cst_1 : Ref sig .tc := ⟨.hbm, 22, rfl⟩
abbrev main_call0_v0 : Ref sig .tc := ⟨.hbm, 23, rfl⟩
abbrev main_call0_v1 : Ref sig .tc := ⟨.hbm, 24, rfl⟩
abbrev main_v8 : Ref sig .tc := ⟨.hbm, 25, rfl⟩
abbrev main_cst_2 : Ref sig .tc := ⟨.hbm, 26, rfl⟩
abbrev main_v9 : Ref sig .tc := ⟨.hbm, 27, rfl⟩
abbrev main_v10 : Ref sig .tc := ⟨.hbm, 28, rfl⟩
abbrev main_v11_0 : Ref sig .tc := ⟨.hbm, 29, rfl⟩
abbrev main_v11_1 : Ref sig .tc := ⟨.hbm, 30, rfl⟩
abbrev main_v12 : Ref sig .tc := ⟨.hbm, 31, rfl⟩
abbrev main_c : Ref sig .tc := ⟨.hbm, 32, rfl⟩
abbrev main_v13 : Ref sig .tc := ⟨.hbm, 33, rfl⟩
abbrev main_v14 : Ref sig .tc := ⟨.hbm, 34, rfl⟩
abbrev main_c_3 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_cst_4 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_c_5 : Ref sig .tc := ⟨.hbm, 57, rfl⟩
abbrev main_v35 : Ref sig .tc := ⟨.hbm, 58, rfl⟩
abbrev main_v36 : Ref sig .tc := ⟨.hbm, 59, rfl⟩
abbrev main_c_6 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_cst_7 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_c_8 : Ref sig .tc := ⟨.hbm, 82, rfl⟩
abbrev main_v57 : Ref sig .tc := ⟨.hbm, 83, rfl⟩
abbrev main_v58 : Ref sig .tc := ⟨.hbm, 84, rfl⟩
abbrev main_c_9 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_cst_10 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77_0 : Ref sig .tc := ⟨.hbm, 105, rfl⟩
abbrev main_v77_1 : Ref sig .tc := ⟨.hbm, 106, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg5_1 : Ref sig .tc := ⟨.vmem, 20, rfl⟩
abbrev cc1_stg6_0 : Ref sig .tc := ⟨.vmem, 21, rfl⟩
abbrev cc1_stg6_1 : Ref sig .tc := ⟨.vmem, 22, rfl⟩
abbrev cc2_stg0_0 : Ref sig .tc := ⟨.vmem, 23, rfl⟩
abbrev cc2_stg0_1 : Ref sig .tc := ⟨.vmem, 24, rfl⟩
abbrev cc2_stg1_0 : Ref sig .tc := ⟨.vmem, 25, rfl⟩
abbrev cc2_stg1_1 : Ref sig .tc := ⟨.vmem, 26, rfl⟩
abbrev cc2_stg2_0 : Ref sig .tc := ⟨.vmem, 27, rfl⟩
abbrev cc2_stg3_0 : Ref sig .tc := ⟨.vmem, 28, rfl⟩
abbrev cc2_stg4_0 : Ref sig .tc := ⟨.vmem, 29, rfl⟩
abbrev cc2_stg5_0 : Ref sig .tc := ⟨.vmem, 30, rfl⟩
abbrev cc2_stg5_1 : Ref sig .tc := ⟨.vmem, 31, rfl⟩
abbrev cc2_stg6_0 : Ref sig .tc := ⟨.vmem, 32, rfl⟩
abbrev cc2_stg6_1 : Ref sig .tc := ⟨.vmem, 33, rfl⟩
abbrev cc3_stg0_0 : Ref sig .tc := ⟨.vmem, 34, rfl⟩
abbrev cc3_stg0_1 : Ref sig .tc := ⟨.vmem, 35, rfl⟩
abbrev cc3_stg1_0 : Ref sig .tc := ⟨.vmem, 36, rfl⟩
abbrev cc3_stg1_1 : Ref sig .tc := ⟨.vmem, 37, rfl⟩
abbrev cc3_stg2_0 : Ref sig .tc := ⟨.vmem, 38, rfl⟩
abbrev cc3_stg3_0 : Ref sig .tc := ⟨.vmem, 39, rfl⟩
abbrev cc3_stg4_0 : Ref sig .tc := ⟨.vmem, 40, rfl⟩
abbrev cc3_stg5_0 : Ref sig .tc := ⟨.vmem, 41, rfl⟩
abbrev cc3_stg6_0 : Ref sig .tc := ⟨.vmem, 42, rfl⟩
abbrev cc3_stg7_0 : Ref sig .tc := ⟨.vmem, 43, rfl⟩
abbrev cc3_stg7_1 : Ref sig .tc := ⟨.vmem, 44, rfl⟩
abbrev cc3_stg8_0 : Ref sig .tc := ⟨.vmem, 45, rfl⟩
abbrev cc3_stg8_1 : Ref sig .tc := ⟨.vmem, 46, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem3_0 : DmaSem sig := 17
abbrev cc1_sem4_0 : DmaSem sig := 18
abbrev cc1_sem5_0 : DmaSem sig := 19
abbrev cc1_sem5_1 : DmaSem sig := 20
abbrev cc1_sem6_0 : DmaSem sig := 21
abbrev cc1_sem6_1 : DmaSem sig := 22
abbrev cc2_sem0_0 : DmaSem sig := 23
abbrev cc2_sem0_1 : DmaSem sig := 24
abbrev cc2_sem1_0 : DmaSem sig := 25
abbrev cc2_sem1_1 : DmaSem sig := 26
abbrev cc2_sem2_0 : DmaSem sig := 27
abbrev cc2_sem3_0 : DmaSem sig := 28
abbrev cc2_sem4_0 : DmaSem sig := 29
abbrev cc2_sem5_0 : DmaSem sig := 30
abbrev cc2_sem5_1 : DmaSem sig := 31
abbrev cc2_sem6_0 : DmaSem sig := 32
abbrev cc2_sem6_1 : DmaSem sig := 33
abbrev cc3_sem0_0 : DmaSem sig := 34
abbrev cc3_sem0_1 : DmaSem sig := 35
abbrev cc3_sem1_0 : DmaSem sig := 36
abbrev cc3_sem1_1 : DmaSem sig := 37
abbrev cc3_sem2_0 : DmaSem sig := 38
abbrev cc3_sem3_0 : DmaSem sig := 39
abbrev cc3_sem4_0 : DmaSem sig := 40
abbrev cc3_sem5_0 : DmaSem sig := 41
abbrev cc3_sem6_0 : DmaSem sig := 42
abbrev cc3_sem7_0 : DmaSem sig := 43
abbrev cc3_sem7_1 : DmaSem sig := 44
abbrev cc3_sem8_0 : DmaSem sig := 45
abbrev cc3_sem8_1 : DmaSem sig := 46

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x16 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S16x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S5000x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S5000x64 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S64x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S64x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x64 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 2 → Memref sig .tc .vmem S5000x64 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_7 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_8 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S64x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S64x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S64x40 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S40 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 2 → Memref sig .tc .vmem S5000x40 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true]

abbrev stage3_8 : Fin 2 → Memref sig .tc .vmem S5000x40 .f32 := fun | 0 => Memref.whole cc3_stg8_0 | 1 => Memref.whole cc3_stg8_1 | ⟨_ + 2, h⟩ => absurd h (Nat.not_lt.2 (Nat.le_add_left _ _))
abbrev sem3_8 : Fin 2 → DmaSem sig := fun | 0 => cc3_sem8_0 | 1 => cc3_sem8_1 | ⟨_ + 2, h⟩ => absurd h (Nat.not_lt.2 (Nat.le_add_left _ _))
abbrev reads3_8 : Fin grid3.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  inb_S5000x128_S5000x128_0_0 : ∀ a, (![0, 0] : Fin 2 → Nat) a + S5000x128.size a ≤ S5000x128.size a
  h_S5000x128 : 0 < S5000x128.numel
  inb_S5000x16_S5000x16_0_0 : ∀ a, (![0, 0] : Fin 2 → Nat) a + S5000x16.size a ≤ S5000x16.size a
  h_S5000x16 : 0 < S5000x16.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S64_S64_0 : ∀ a, (![0] : Fin 1 → Nat) a + S64.size a ≤ S64.size a
  h_S64 : 0 < S64.numel
  shapeCasts_S64_S1x64 : S64.ShapeCasts S1x64
  broadcasts_S1x64_S5000x64 : S1x64.Broadcasts S5000x64
  inb_S16x64_S16x64_0_0 : ∀ a, (![0, 0] : Fin 2 → Nat) a + S16x64.size a ≤ S16x64.size a
  h_S16x64 : 0 < S16x64.numel
  inb_S5000x64_S5000x64_0_0 : ∀ a, (![0, 0] : Fin 2 → Nat) a + S5000x64.size a ≤ S5000x64.size a
  h_S5000x64 : 0 < S5000x64.numel
  bcast_S_S50000x64 : S_.BroadcastsInDim S50000x64 (![] : Fin 0 → Fin S50000x64.rank)
  bcast_S50000_S50000x1_0 : S50000.BroadcastsInDim S50000x1 (![0] : Fin 1 → Fin S50000x1.rank)
  bcast_S50000x1_S50000x64_0_1 : S50000x1.BroadcastsInDim S50000x64 (![0, 1] : Fin 2 → Fin S50000x64.rank)
  slices_S3x64x64_S1x64x64_0_0_0 : S3x64x64.Slices ![0, 0, 0] S1x64x64
  shapeCasts_S1x64x64_S64x64 : S1x64x64.ShapeCasts S64x64
  slices_S3x64_S1x64_0_0 : S3x64.Slices ![0, 0] S1x64
  shapeCasts_S1x64_S64 : S1x64.ShapeCasts S64
  shapeCasts_S5000x64_S5000x64 : S5000x64.ShapeCasts S5000x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  shapeCasts_S64_S64 : S64.ShapeCasts S64
  slices_S3x64x64_S1x64x64_1_0_0 : S3x64x64.Slices ![1, 0, 0] S1x64x64
  slices_S3x64_S1x64_1_0 : S3x64.Slices ![1, 0] S1x64
  slices_S3x64x64_S1x64x64_2_0_0 : S3x64x64.Slices ![2, 0, 0] S1x64x64
  slices_S3x64_S1x64_2_0 : S3x64.Slices ![2, 0] S1x64
  inb_S64x40_S64x40_0_0 : ∀ a, (![0, 0] : Fin 2 → Nat) a + S64x40.size a ≤ S64x40.size a
  h_S64x40 : 0 < S64x40.numel
  inb_S40_S40_0 : ∀ a, (![0] : Fin 1 → Nat) a + S40.size a ≤ S40.size a
  h_S40 : 0 < S40.numel
  shapeCasts_S40_S1x40 : S40.ShapeCasts S1x40
  broadcasts_S1x40_S5000x40 : S1x40.Broadcasts S5000x40
  reduces_S5000x40_S5000 : S5000x40.Reduces [1] S5000
  shapeCasts_S5000_S5000x1 : S5000.ShapeCasts S5000x1
  broadcasts_S5000x1_S5000x40 : S5000x1.Broadcasts S5000x40
  inb_S5000x40_S5000x40_0_0 : ∀ a, (![0, 0] : Fin 2 → Nat) a + S5000x40.size a ≤ S5000x40.size a
  h_S5000x40 : 0 < S5000x40.numel
  scatter_S50000_S800000x1_S800000_n_0_0_1_wf : ScatterDims.WF S50000 S800000x1 S800000 [] [0] [0] 1
  dot_S5000x128_S128x64_S5000x64_1_0_0_1_n_n_wf : DotDims.WF S5000x128 S128x64 S5000x64 [1] [0] [0] [1] [] []
  dot_S5000x16_S16x64_S5000x64_1_0_0_1_n_n_wf : DotDims.WF S5000x16 S16x64 S5000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S5000x64_S64x64_S5000x64_1_0_0_1_n_n_wf : DotDims.WF S5000x64 S64x64 S5000x64 [1] [0] [0] [1] [] []
  dot_S5000x64_S64x40_S5000x40_1_0_0_1_n_n_wf : DotDims.WF S5000x64 S64x40 S5000x40 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x16.size a ≤ S50000x16.size a
  hwx0_1 : ∀ i : grid0.Coords, EltTy.bits .f32 = 32 ∨ (Rect.block (s := S50000x16) S5000x16.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S16x64.size a ≤ S16x64.size a
  hwx0_2 : ∀ i : grid0.Coords, EltTy.bits .f32 = 32 ∨ (Rect.block (s := S16x64) S16x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64.size a ≤ S64.size a
  hwx0_3 : ∀ i : grid0.Coords, EltTy.bits .f32 = 32 ∨ (Rect.block (s := S64) S64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x64.size a ≤ S128x64.size a
  hwx0_4 : ∀ i : grid0.Coords, EltTy.bits .f32 = 32 ∨ (Rect.block (s := S128x64) S128x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64.size a ≤ S64.size a
  hwx0_5 : ∀ i : grid0.Coords, EltTy.bits .f32 = 32 ∨ (Rect.block (s := S64) S64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x64.size a ≤ S50000x64.size a
  hwx0_6 : ∀ i : grid0.Coords, EltTy.bits .f32 = 32 ∨ (Rect.block (s := S50000x64) S5000x64.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S5000x64.size a ≤ S50000x64.size a
  hwx0_7 : ∀ i : grid0.Coords, EltTy.bits .f32 = 32 ∨ (Rect.block (s := S50000x64) S5000x64.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S50000x64.size a
  hwx1_0 : ∀ i : grid1.Coords, EltTy.bits .f32 = 32 ∨ (Rect.block (s := S50000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S50000x64.size a
  hwx1_1 : ∀ i : grid1.Coords, EltTy.bits .f32 = 32 ∨ (Rect.block (s := S50000x64) S5000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x64.size a ≤ S64x64.size a
  hwx1_3 : ∀ i : grid1.Coords, EltTy.bits .f32 = 32 ∨ (Rect.block (s := S64x64) S64x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64.size a ≤ S64.size a
  hwx1_4 : ∀ i : grid1.Coords, EltTy.bits .f32 = 32 ∨ (Rect.block (s := S64) S64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x64.size a ≤ S50000x64.size a
  hwx1_5 : ∀ i : grid1.Coords, EltTy.bits .f32 = 32 ∨ (Rect.block (s := S50000x64) S5000x64.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x64.size a ≤ S50000x64.size a
  hwx1_6 : ∀ i : grid1.Coords, EltTy.bits .f32 = 32 ∨ (Rect.block (s := S50000x64) S5000x64.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S50000x64.size a
  hwx2_0 : ∀ i : grid2.Coords, EltTy.bits .f32 = 32 ∨ (Rect.block (s := S50000x64) S5000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x64.size a ≤ S50000x64.size a
  hwx2_1 : ∀ i : grid2.Coords, EltTy.bits .f32 = 32 ∨ (Rect.block (s := S50000x64) S5000x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x64.size a ≤ S64x64.size a
  hwx2_2 : ∀ i : grid2.Coords, EltTy.bits .f32 = 32 ∨ (Rect.block (s := S64x64) S64x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64x64.size a ≤ S64x64.size a
  hwx2_3 : ∀ i : grid2.Coords, EltTy.bits .f32 = 32 ∨ (Rect.block (s := S64x64) S64x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S64.size a ≤ S64.size a
  hwx2_4 : ∀ i : grid2.Coords, EltTy.bits .f32 = 32 ∨ (Rect.block (s := S64) S64.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x64.size a ≤ S50000x64.size a
  hwx2_5 : ∀ i : grid2.Coords, EltTy.bits .f32 = 32 ∨ (Rect.block (s := S50000x64) S5000x64.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S5000x64.size a ≤ S50000x64.size a
  hwx2_6 : ∀ i : grid2.Coords, EltTy.bits .f32 = 32 ∨ (Rect.block (s := S50000x64) S5000x64.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S50000x64.size a
  hwx3_0 : ∀ i : grid3.Coords, EltTy.bits .f32 = 32 ∨ (Rect.block (s := S50000x64) S5000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x64.size a ≤ S50000x64.size a
  hwx3_1 : ∀ i : grid3.Coords, EltTy.bits .f32 = 32 ∨ (Rect.block (s := S50000x64) S5000x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S64x64.size a ≤ S64x64.size a
  hwx3_2 : ∀ i : grid3.Coords, EltTy.bits .f32 = 32 ∨ (Rect.block (s := S64x64) S64x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S64x64.size a ≤ S64x64.size a
  hwx3_3 : ∀ i : grid3.Coords, EltTy.bits .f32 = 32 ∨ (Rect.block (s := S64x64) S64x64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S64.size a ≤ S64.size a
  hwx3_4 : ∀ i : grid3.Coords, EltTy.bits .f32 = 32 ∨ (Rect.block (s := S64) S64.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S64x40.size a ≤ S64x40.size a
  hwx3_5 : ∀ i : grid3.Coords, EltTy.bits .f32 = 32 ∨ (Rect.block (s := S64x40) S64x40.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S40.size a ≤ S40.size a
  hwx3_6 : ∀ i : grid3.Coords, EltTy.bits .f32 = 32 ∨ (Rect.block (s := S40) S40.size (cc3_transform_6 i) (hinb3_6 i)).WholeWords (EltTy.packing .f32)
  hstage3_7 : ∀ j, (stage3_7 j).IsWhole
  nbuf3_7 : grid3.bufCount reads3_7 false = 2
  hreads3_7 : ∀ i i' : grid3.Coords, (∀ a, reads3_7 a = true → i a = i' a) → cc3_transform_7 i = cc3_transform_7 i'
  hinb3_7 : ∀ (i : grid3.Coords) a, (cc3_transform_7 i a + 1) * S5000x40.size a ≤ S50000x40.size a
  hwx3_7 : ∀ i : grid3.Coords, EltTy.bits .f32 = 32 ∨ (Rect.block (s := S50000x40) S5000x40.size (cc3_transform_7 i) (hinb3_7 i)).WholeWords (EltTy.packing .f32)
  hstage3_8 : ∀ j, (stage3_8 j).IsWhole
  nbuf3_8 : grid3.bufCount reads3_8 false = 2
  hreads3_8 : ∀ i i' : grid3.Coords, (∀ a, reads3_8 a = true → i a = i' a) → cc3_transform_8 i = cc3_transform_8 i'
  hinb3_8 : ∀ (i : grid3.Coords) a, (cc3_transform_8 i a + 1) * S5000x40.size a ≤ S50000x40.size a
  hwx3_8 : ∀ i : grid3.Coords, EltTy.bits .f32 = 32 ∨ (Rect.block (s := S50000x40) S5000x40.size (cc3_transform_8 i) (hinb3_8 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def dot_S5000x16_S16x64_S5000x64_1_0_0_1_n_n : DotDims S5000x16 S16x64 S5000x64 where
  lhsContracting := [1]
  rhsContracting := [0]
  lhsNonContracting := [0]
  rhsNonContracting := [1]
  lhsBatch := []
  rhsBatch := []
  wf := dot_S5000x16_S16x64_S5000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def dot_S5000x64_S64x40_S5000x40_1_0_0_1_n_n : DotDims S5000x64 S64x40 S5000x40 where
  lhsContracting := [1]
  rhsContracting := [0]
  lhsNonContracting := [0]
  rhsNonContracting := [1]
  lhsBatch := []
  rhsBatch := []
  wf := dot_S5000x64_S64x40_S5000x40_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S5000x16.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S16x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S128x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg6) S64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v11_0) S5000x64.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v11_1) S5000x64.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v26) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v11_0) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v28) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v30) S64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v32) S64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v11_1) S5000x64.size cc1_transform_5 reads1_5 false false 2 stage1_5 sem1_5
    hrank1 hreads1_5 hinb1_5 nbuf1_5 (Memref.isWhole_whole _) hwx1_5 hstage1_5

abbrev win1_6 : Pipeline.Window sig grid1 :=
  Pipeline.Window.ofSpec (Memref.whole main_v33) S5000x64.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v48) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v33) S5000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v50) S64x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v52) S64x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v54) S64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v11_1) S5000x64.size cc2_transform_5 reads2_5 false false 2 stage2_5 sem2_5
    hrank2 hreads2_5 hinb2_5 nbuf2_5 (Memref.isWhole_whole _) hwx2_5 hstage2_5

abbrev win2_6 : Pipeline.Window sig grid2 :=
  Pipeline.Window.ofSpec (Memref.whole main_v55) S5000x64.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v70) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v55) S5000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v72) S64x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v74) S64x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v76) S64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_arg10) S64x40.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_arg11) S40.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v77_0) S5000x40.size cc3_transform_7 reads3_7 true false 2 stage3_7 sem3_7
    hrank3 hreads3_7 hinb3_7 nbuf3_7 (Memref.isWhole_whole _) hwx3_7 hstage3_7

abbrev win3_8 : Pipeline.Window sig grid3 :=
  Pipeline.Window.ofSpec (Memref.whole main_v77_1) S5000x40.size cc3_transform_8 reads3_8 true false 2 stage3_8 sem3_8
    hrank3 hreads3_8 hinb3_8 nbuf3_8 (Memref.isWhole_whole _) hwx3_8 hstage3_8

abbrev win3 : Fin 9 → Pipeline.Window sig grid3 := fun | 0 => win3_0 | 1 => win3_1 | 2 => win3_2 | 3 => win3_3 | 4 => win3_4 | 5 => win3_5 | 6 => win3_6 | 7 => win3_7 | 8 => win3_8 | ⟨_ + 9, h⟩ => absurd h (Nat.not_lt.2 (Nat.le_add_left _ _))
abbrev spec3 : Fin 9 → Pipeline.WinSpec sig grid3.rank := fun w => (win3 w).toWinSpec

class Facts : Prop extends Facts₀ where

variable [Facts]
-- ==== ReferenceIdeal.lean ====
abbrev S50000x128 : Shape := ⟨2, ![50000, 128]⟩
abbrev S50000x16 : Shape := ⟨2, ![50000, 16]⟩
abbrev S2x800000 : Shape := ⟨2, ![2, 800000]⟩
abbrev S16x64 : Shape := ⟨2, ![16, 64]⟩
abbrev S64 : Shape := ⟨1, ![64]⟩
abbrev S128x64 : Shape := ⟨2, ![128, 64]⟩
abbrev S3x64x64 : Shape := ⟨3, ![3, 64, 64]⟩
abbrev S3x64 : Shape := ⟨2, ![3, 64]⟩
abbrev S64x40 : Shape := ⟨2, ![64, 40]⟩
abbrev S40 : Shape := ⟨1, ![40]⟩
abbrev S1x800000 : Shape := ⟨2, ![1, 800000]⟩
abbrev S800000 : Shape := ⟨1, ![800000]⟩
abbrev S50000x64 : Shape := ⟨2, ![50000, 64]⟩
abbrev S1x64 : Shape := ⟨2, ![1, 64]⟩
abbrev S1x64x64 : Shape := ⟨3, ![1, 64, 64]⟩
abbrev S64x64 : Shape := ⟨2, ![64, 64]⟩
abbrev S_ : Shape := ⟨0, ![]⟩
abbrev S800000x1 : Shape := ⟨2, ![800000, 1]⟩
abbrev S800000x64 : Shape := ⟨2, ![800000, 64]⟩
abbrev S50000 : Shape := ⟨1, ![50000]⟩
abbrev S50000x1 : Shape := ⟨2, ![50000, 1]⟩
abbrev S50000x40 : Shape := ⟨2, ![50000, 40]⟩
abbrev S1x40 : Shape := ⟨2, ![1, 40]⟩

abbrev nBuf : Space → Nat
  | .hbm => 166
  | .vmem => 0
  | .smem => 0
  | _ => 0

abbrev hbmTy0_0 (i : Nat) : BufTy := match i % 128 with
  | 0 => ⟨S50000x128, .f32⟩
  | 1 => ⟨S50000x16, .f32⟩
  | 2 => ⟨S2x800000, .i32⟩
  | 3 => ⟨S16x64, .f32⟩
  | 4 => ⟨S64, .f32⟩
  | 5 => ⟨S128x64, .f32⟩
  | 6 => ⟨S64, .f32⟩
  | 7 => ⟨S3x64x64, .f32⟩
  | 8 => ⟨S3x64x64, .f32⟩
  | 9 => ⟨S3x64, .f32⟩
  | 10 => ⟨S64x40, .f32⟩
  | 11 => ⟨S40, .f32⟩
  | 12 => ⟨S1x800000, .i32⟩
  | 13 => ⟨S800000, .i32⟩
  | 14 => ⟨S1x800000, .i32⟩
  | 15 => ⟨S800000, .i32⟩
  | 16 => ⟨S50000x64, .f32⟩
  | 17 => ⟨S1x64, .f32⟩
  | 18 => ⟨S50000x64, .f32⟩
  | 19 => ⟨S50000x64, .f32⟩
  | 20 => ⟨S50000x64, .f32⟩
  | 21 => ⟨S50000x64, .f32⟩
  | 22 => ⟨S1x64, .f32⟩
  | 23 => ⟨S50000x64, .f32⟩
  | 24 => ⟨S50000x64, .f32⟩
  | 25 => ⟨S1x64x64, .f32⟩
  | 26 => ⟨S64x64, .f32⟩
  | 27 => ⟨S1x64x64, .f32⟩
  | 28 => ⟨S64x64, .f32⟩
  | 29 => ⟨S1x64, .f32⟩
  | 30 => ⟨S64, .f32⟩
  | 31 => ⟨S_, .i32⟩
  | 32 => ⟨S800000, .i32⟩
  | 33 => ⟨S800000, .i1⟩
  | 34 => ⟨S_, .i32⟩
  | 35 => ⟨S800000, .i32⟩
  | 36 => ⟨S800000, .i32⟩
  | 37 => ⟨S800000, .i32⟩
  | 38 => ⟨S800000x1, .i32⟩
  | 39 => ⟨S800000x64, .f32⟩
  | 40 => ⟨S_, .f32⟩
  | 41 => ⟨S50000x64, .f32⟩
  | 42 => ⟨S800000x1, .i32⟩
  | 43 => ⟨S50000x64, .f32⟩
  | 44 => ⟨S_, .f32⟩
  | 45 => ⟨S800000, .f32⟩
  | 46 => ⟨S_, .f32⟩
  | 47 => ⟨S50000, .f32⟩
  | 48 => ⟨S800000x1, .i32⟩
  | 49 => ⟨S50000, .f32⟩
  | 50 => ⟨S_, .f32⟩
  | 51 => ⟨S_, .f32⟩
  | 52 => ⟨S50000, .f32⟩
  | 53 => ⟨S50000, .f32⟩
  | 54 => ⟨S50000x1, .f32⟩
  | 55 => ⟨S50000x64, .f32⟩
  | 56 => ⟨S50000x64, .f32⟩
  | 57 => ⟨S50000x64, .f32⟩
  | 58 => ⟨S50000x64, .f32⟩
  | 59 => ⟨S50000x64, .f32⟩
  | 60 => ⟨S1x64, .f32⟩
  | 61 => ⟨S50000x64, .f32⟩
  | 62 => ⟨S50000x64, .f32⟩
  | 63 => ⟨S50000x64, .f32⟩
  | 64 => ⟨S_, .f32⟩
  | 65 => ⟨S50000x64, .f32⟩
  | 66 => ⟨S50000x64, .f32⟩
  | 67 => ⟨S1x64x64, .f32⟩
  | 68 => ⟨S64x64, .f32⟩
  | 69 => ⟨S1x64x64, .f32⟩
  | 70 => ⟨S64x64, .f32⟩
  | 71 => ⟨S1x64, .f32⟩
  | 72 => ⟨S64, .f32⟩
  | 73 => ⟨S_, .i32⟩
  | 74 => ⟨S800000, .i32⟩
  | 75 => ⟨S800000, .i1⟩
  | 76 => ⟨S_, .i32⟩
  | 77 => ⟨S800000, .i32⟩
  | 78 => ⟨S800000, .i32⟩
  | 79 => ⟨S800000, .i32⟩
  | 80 => ⟨S800000x1, .i32⟩
  | 81 => ⟨S800000x64, .f32⟩
  | 82 => ⟨S_, .f32⟩
  | 83 => ⟨S50000x64, .f32⟩
  | 84 => ⟨S800000x1, .i32⟩
  | 85 => ⟨S50000x64, .f32⟩
  | 86 => ⟨S_, .f32⟩
  | 87 => ⟨S800000, .f32⟩
  | 88 => ⟨S_, .f32⟩
  | 89 => ⟨S50000, .f32⟩
  | 90 => ⟨S800000x1, .i32⟩
  | 91 => ⟨S50000, .f32⟩
  | 92 => ⟨S_, .f32⟩
  | 93 => ⟨S_, .f32⟩
  | 94 => ⟨S50000, .f32⟩
  | 95 => ⟨S50000, .f32⟩
  | 96 => ⟨S50000x1, .f32⟩
  | 97 => ⟨S50000x64, .f32⟩
  | 98 => ⟨S50000x64, .f32⟩
  | 99 => ⟨S50000x64, .f32⟩
  | 100 => ⟨S50000x64, .f32⟩
  | 101 => ⟨S50000x64, .f32⟩
  | 102 => ⟨S1x64, .f32⟩
  | 103 => ⟨S50000x64, .f32⟩
  | 104 => ⟨S50000x64, .f32⟩
  | 105 => ⟨S50000x64, .f32⟩
  | 106 => ⟨S_, .f32⟩
  | 107 => ⟨S50000x64, .f32⟩
  | 108 => ⟨S50000x64, .f32⟩
  | 109 => ⟨S1x64x64, .f32⟩
  | 110 => ⟨S64x64, .f32⟩
  | 111 => ⟨S1x64x64, .f32⟩
  | 112 => ⟨S64x64, .f32⟩
  | 113 => ⟨S1x64, .f32⟩
  | 114 => ⟨S64, .f32⟩
  | 115 => ⟨S_, .i32⟩
  | 116 => ⟨S800000, .i32⟩
  | 117 => ⟨S800000, .i1⟩
  | 118 => ⟨S_, .i32⟩
  | 119 => ⟨S800000, .i32⟩
  | 120 => ⟨S800000, .i32⟩
  | 121 => ⟨S800000, .i32⟩
  | 122 => ⟨S800000x1, .i32⟩
  | 123 => ⟨S800000x64, .f32⟩
  | 124 => ⟨S_, .f32⟩
  | 125 => ⟨S50000x64, .f32⟩
  | 126 => ⟨S800000x1, .i32⟩
  | 127 => ⟨S50000x64, .f32⟩
  | _ => ⟨S50000x128, .f32⟩

abbrev hbmTy0_1 (i : Nat) : BufTy := match i % 128 with
  | 0 => ⟨S_, .f32⟩
  | 1 => ⟨S800000, .f32⟩
  | 2 => ⟨S_, .f32⟩
  | 3 => ⟨S50000, .f32⟩
  | 4 => ⟨S800000x1, .i32⟩
  | 5 => ⟨S50000, .f32⟩
  | 6 => ⟨S_, .f32⟩
  | 7 => ⟨S_, .f32⟩
  | 8 => ⟨S50000, .f32⟩
  | 9 => ⟨S50000, .f32⟩
  | 10 => ⟨S50000x1, .f32⟩
  | 11 => ⟨S50000x64, .f32⟩
  | 12 => ⟨S50000x64, .f32⟩
  | 13 => ⟨S50000x64, .f32⟩
  | 14 => ⟨S50000x64, .f32⟩
  | 15 => ⟨S50000x64, .f32⟩
  | 16 => ⟨S1x64, .f32⟩
  | 17 => ⟨S50000x64, .f32⟩
  | 18 => ⟨S50000x64, .f32⟩
  | 19 => ⟨S50000x40, .f32⟩
  | 20 => ⟨S1x40, .f32⟩
  | 21 => ⟨S50000x40, .f32⟩
  | 22 => ⟨S50000x40, .f32⟩
  | 23 => ⟨S_, .f32⟩
  | 24 => ⟨S50000, .f32⟩
  | 25 => ⟨S_, .f32⟩
  | 26 => ⟨S50000, .f32⟩
  | 27 => ⟨S50000, .f32⟩
  | 28 => ⟨S50000x1, .f32⟩
  | 29 => ⟨S50000x40, .f32⟩
  | 30 => ⟨S50000x40, .f32⟩
  | 31 => ⟨S50000x40, .f32⟩
  | 32 => ⟨S_, .f32⟩
  | 33 => ⟨S50000, .f32⟩
  | 34 => ⟨S50000x1, .f32⟩
  | 35 => ⟨S50000x1, .f32⟩
  | 36 => ⟨S50000x40, .f32⟩
  | 37 => ⟨S50000x40, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_c : Ref sig .tc := ⟨.hbm, 31, rfl⟩
abbrev main_v19 : Ref sig .tc := ⟨.hbm, 32, rfl⟩
abbrev main_v20 : Ref sig .tc := ⟨.hbm, 33, rfl⟩
abbrev main_c_0 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_1 : Ref sig .tc := ⟨.hbm, 44, rfl⟩
abbrev main_v29 : Ref sig .tc := ⟨.hbm, 45, rfl⟩
abbrev main_cst_2 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_cst_3 : Ref sig .tc := ⟨.hbm, 50, rfl⟩
abbrev main_call0_v0 : Ref sig .tc := ⟨.hbm, 51, rfl⟩
abbrev main_call0_v1 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_call1_cst : Ref sig .tc := ⟨.hbm, 64, rfl⟩
abbrev main_call1_v0 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_c_4 : Ref sig .tc := ⟨.hbm, 73, rfl⟩
abbrev main_v51 : Ref sig .tc := ⟨.hbm, 74, rfl⟩
abbrev main_v52 : Ref sig .tc := ⟨.hbm, 75, rfl⟩
abbrev main_c_5 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_cst_6 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_cst_7 : Ref sig .tc := ⟨.hbm, 86, rfl⟩
abbrev main_v61 : Ref sig .tc := ⟨.hbm, 87, rfl⟩
abbrev main_cst_8 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_cst_9 : Ref sig .tc := ⟨.hbm, 92, rfl⟩
abbrev main_call2_v0 : Ref sig .tc := ⟨.hbm, 93, rfl⟩
abbrev main_call2_v1 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_call3_cst : Ref sig .tc := ⟨.hbm, 106, rfl⟩
abbrev main_call3_v0 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_c_10 : Ref sig .tc := ⟨.hbm, 115, rfl⟩
abbrev main_v83 : Ref sig .tc := ⟨.hbm, 116, rfl⟩
abbrev main_v84 : Ref sig .tc := ⟨.hbm, 117, rfl⟩
abbrev main_c_11 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_cst_12 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_cst_13 : Ref sig .tc := ⟨.hbm, 128, rfl⟩
abbrev main_v93 : Ref sig .tc := ⟨.hbm, 129, rfl⟩
abbrev main_cst_14 : Ref sig .tc := ⟨.hbm, 130, rfl⟩
abbrev main_v94 : Ref sig .tc := ⟨.hbm, 131, rfl⟩
abbrev main_v95 : Ref sig .tc := ⟨.hbm, 132, rfl⟩
abbrev main_v96 : Ref sig .tc := ⟨.hbm, 133, rfl⟩
abbrev main_cst_15 : Ref sig .tc := ⟨.hbm, 134, rfl⟩
abbrev main_call4_v0 : Ref sig .tc := ⟨.hbm, 135, rfl⟩
abbrev main_call4_v1 : Ref sig .tc := ⟨.hbm, 136, rfl⟩
abbrev main_v97 : Ref sig .tc := ⟨.hbm, 137, rfl⟩
abbrev main_v98 : Ref sig .tc := ⟨.hbm, 138, rfl⟩
abbrev main_v99 : Ref sig .tc := ⟨.hbm, 139, rfl⟩
abbrev main_v100 : Ref sig .tc := ⟨.hbm, 140, rfl⟩
abbrev main_v101 : Ref sig .tc := ⟨.hbm, 141, rfl⟩
abbrev main_v102 : Ref sig .tc := ⟨.hbm, 142, rfl⟩
abbrev main_v103 : Ref sig .tc := ⟨.hbm, 143, rfl⟩
abbrev main_v104 : Ref sig .tc := ⟨.hbm, 144, rfl⟩
abbrev main_v105 : Ref sig .tc := ⟨.hbm, 145, rfl⟩
abbrev main_v106 : Ref sig .tc := ⟨.hbm, 146, rfl⟩
abbrev main_v107 : Ref sig .tc := ⟨.hbm, 147, rfl⟩
abbrev main_v108 : Ref sig .tc := ⟨.hbm, 148, rfl⟩
abbrev main_v109 : Ref sig .tc := ⟨.hbm, 149, rfl⟩
abbrev main_v110 : Ref sig .tc := ⟨.hbm, 150, rfl⟩
abbrev main_call5_cst : Ref sig .tc := ⟨.hbm, 151, rfl⟩
abbrev main_call5_v0 : Ref sig .tc := ⟨.hbm, 152, rfl⟩
abbrev main_call5_cst_0 : Ref sig .tc := ⟨.hbm, 153, rfl⟩
abbrev main_call5_v1 : Ref sig .tc := ⟨.hbm, 154, rfl⟩
abbrev main_call5_v2 : Ref sig .tc := ⟨.hbm, 155, rfl⟩
abbrev main_call5_v3 : Ref sig .tc := ⟨.hbm, 156, rfl⟩
abbrev main_call5_v4 : Ref sig .tc := ⟨.hbm, 157, rfl⟩
abbrev main_call5_v5 : Ref sig .tc := ⟨.hbm, 158, rfl⟩
abbrev main_call5_v6 : Ref sig .tc := ⟨.hbm, 159, rfl⟩
abbrev main_call5_cst_1 : Ref sig .tc := ⟨.hbm, 160, rfl⟩
abbrev main_call5_v7 : Ref sig .tc := ⟨.hbm, 161, rfl⟩
abbrev main_call5_v8 : Ref sig .tc := ⟨.hbm, 162, rfl⟩
abbrev main_call5_v9 : Ref sig .tc := ⟨.hbm, 163, rfl⟩
abbrev main_call5_v10 : Ref sig .tc := ⟨.hbm, 164, rfl⟩
abbrev main_v111 : Ref sig .tc := ⟨.hbm, 165, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  slices_S3x64x64_S1x64x64_0_0_0 : S3x64x64.Slices ![0, 0, 0] S1x64x64
  shapeCasts_S1x64x64_S64x64 : S1x64x64.ShapeCasts S64x64
  slices_S3x64_S1x64_0_0 : S3x64.Slices ![0, 0] S1x64
  shapeCasts_S1x64_S64 : S1x64.ShapeCasts S64
  bcast_S_S800000 : S_.BroadcastsInDim S800000 (![] : Fin 0 → Fin S800000.rank)
  bcast_S800000_S800000x1_0 : S800000.BroadcastsInDim S800000x1 (![0] : Fin 1 → Fin S800000x1.rank)
  bcast_S_S50000x64 : S_.BroadcastsInDim S50000x64 (![] : Fin 0 → Fin S50000x64.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x64_0_1 : S50000x1.BroadcastsInDim S50000x64 (![0, 1] : Fin 2 → Fin S50000x64.rank)
  slices_S3x64x64_S1x64x64_1_0_0 : S3x64x64.Slices ![1, 0, 0] S1x64x64
  slices_S3x64_S1x64_1_0 : S3x64.Slices ![1, 0] S1x64
  slices_S3x64x64_S1x64x64_2_0_0 : S3x64x64.Slices ![2, 0, 0] S1x64x64
  slices_S3x64_S1x64_2_0 : S3x64.Slices ![2, 0] S1x64
  bcast_S40_S1x40_1 : S40.BroadcastsInDim S1x40 (![1] : Fin 1 → Fin S1x40.rank)
  bcast_S1x40_S50000x40_0_1 : S1x40.BroadcastsInDim S50000x40 (![0, 1] : Fin 2 → Fin S50000x40.rank)
  reducesTo_S50000x40_S50000_d1 : S50000x40.ReducesTo [1] S50000
  h_S_ : 0 < S_.numel
  bcast_S50000x1_S50000x40_0_1 : S50000x1.BroadcastsInDim S50000x40 (![0, 1] : Fin 2 → Fin S50000x40.rank)
  dot_S50000x16_S16x64_S50000x64_1_0_0_1_n_n_wf : DotDims.WF S50000x16 S16x64 S50000x64 [1] [0] [0] [1] [] []
  dot_S50000x128_S128x64_S50000x64_1_0_0_1_n_n_wf : DotDims.WF S50000x128 S128x64 S50000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  scatter_S50000_S800000x1_S800000_n_0_0_1_wf : ScatterDims.WF S50000 S800000x1 S800000 [] [0] [0] 1
  dot_S50000x64_S64x64_S50000x64_1_0_0_1_n_n_wf : DotDims.WF S50000x64 S64x64 S50000x64 [1] [0] [0] [1] [] []
  dot_S50000x64_S64x40_S50000x40_1_0_0_1_n_n_wf : DotDims.WF S50000x64 S64x40 S50000x40 [1] [0] [0] [1] [] []

variable [Facts₀]

def dot_S50000x16_S16x64_S50000x64_1_0_0_1_n_n : DotDims S50000x16 S16x64 S50000x64 where
  lhsContracting := [1]
  rhsContracting := [0]
  lhsNonContracting := [0]
  rhsNonContracting := [1]
  lhsBatch := []
  rhsBatch := []
  wf := dot_S50000x16_S16x64_S50000x64_1_0_0_1_n_n_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def dot_S50000x64_S64x40_S50000x40_1_0_0_1_n_n : DotDims S50000x64 S64x40 S50000x40 where
  lhsContracting := [1]
  rhsContracting := [0]
  lhsNonContracting := [0]
  rhsNonContracting := [1]
  lhsBatch := []
  rhsBatch := []
  wf := dot_S50000x64_S64x40_S50000x40_1_0_0_1_n_n_wf

class Facts : Prop extends Facts₀ where

variable [Facts]
-- ==== Proof.KRun.lean ====
/-
  The idealized kernel's run with its two results NAMED. The program is four pipelined regions among stretches of
  host operations; the buffer contents at each boundary are a fold from the launch memory, and after the last region
  every buffer holds the last boundary's contents. So each result array ends at that fold read at its own buffer, and
  every argument array ends as launched.
-/
import proofs.«121452_j11587821765290_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates without a fault; the two result arrays end at the last boundary's
    contents and the twelve argument arrays end as launched. -/
theorem run_values : θ_run defs (onTc (τ := τ) (main (F := F))) ⟨m, fun _ => 0, ρ⟩ (fun r => ∀ c : Dev nD,
      r.2.mem ((c.tc : Thread nD τ).loc main_v77_0) = W10 m ρ c (Proc.devRef .tc main_v77_0)
      ∧ r.2.mem ((c.tc : Thread nD τ).loc main_v77_1) = W10 m ρ c (Proc.devRef .tc main_v77_1)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c =>
      ⟨h c _ (mem_uc main_v77_0 (by decide)),
       h c _ (mem_uc main_v77_1 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c),
       (h c _ (mem_uc main_arg6 (by decide))).trans (W10_main_arg6 m ρ c),
       (h c _ (mem_uc main_arg7 (by decide))).trans (W10_main_arg7 m ρ c),
       (h c _ (mem_uc main_arg8 (by decide))).trans (W10_main_arg8 m ρ c),
       (h c _ (mem_uc main_arg9 (by decide))).trans (W10_main_arg9 m ρ c),
       (h c _ (mem_uc main_arg10 (by decide))).trans (W10_main_arg10 m ρ c),
       (h c _ (mem_uc main_arg11 (by decide))).trans (W10_main_arg11 m ρ c)⟩)

end Cert.KernelIdeal.RunValue

end
-- ==== Proof.Spec.lean ====
/-
  The mathematics both programs compute, stated once over the extended reals with no program in sight.

  A graph has 50000 nodes. Every node carries a feature row; one layer replaces each node's row by
  `mean_in · Wl + row · Wr + b`, where `mean_in` is the mean of the rows of the node's in-neighbours. The
  neighbourhood mean is left ABSTRACT here (`agg`): the two programs spell it differently (a product with a
  reciprocal against a quotient), and `aggMul_eq_aggDiv` below is the one law that joins the two spellings.
  Everything else is row-local: entry `(r, c)` of a result depends only on row `r` of its operands.
-/
import Idealize.ShloMosaic.PureOps.Ideal
import Idealize.ShloMosaic.Lib.ValueIdx

noncomputable section

namespace Cert.Sage

open Idealize.ShloMosaic Idealize.ShloMosaic.ValueIdx
open scoped BigOperators

/-- A matrix of extended reals with `r` rows and `c` columns, as a function of its index. -/
abbrev Mat (r c : ℕ) : Type := (⟨2, ![r, c]⟩ : Shape).Idx → EReal
/-- A vector of extended reals of length `n`. -/
abbrev Vc (n : ℕ) : Type := (⟨1, ![n]⟩ : Shape).Idx → EReal

/-! ## One affine map, row by row -/

/-- Entry `(r, c)` of `x · w + b`: the row `r` of `x` against the column `c` of `w`, plus `b c`. -/
def affineAt {K N : ℕ} (x : Mat 50000 K) (w : Mat K N) (b : Vc N) (r : Fin 50000) (c : Fin N) : EReal :=
  (∑ k : Fin K, x (ix2 r k) * w (ix2 k c)) + b (ix1 c)

/-- `x · w + b`. -/
def affine {K N : ℕ} (x : Mat 50000 K) (w : Mat K N) (b : Vc N) : Mat 50000 N :=
  fun i => affineAt x w b (i 0) (i 1)

/-- The positional encoding: `tanh (pos · w + b)`, entry by entry. -/
def posEnc {K N : ℕ} (pos : Mat 50000 K) (w : Mat K N) (b : Vc N) : Mat 50000 N :=
  fun i => Ideal.tanh (affineAt pos w b (i 0) (i 1))

/-! ## One graph layer, given the neighbourhood means -/

/-- Entry `(r, c)` of `a · wl + h · wr + b` (`a` the neighbourhood means, `h` the nodes' own rows). -/
def convAt (a h : Mat 50000 64) (wl wr : Mat 64 64) (b : Vc 64) (r : Fin 50000) (c : Fin 64) : EReal :=
  (∑ k : Fin 64, a (ix2 r k) * wl (ix2 k c)) + (∑ k : Fin 64, h (ix2 r k) * wr (ix2 k c)) + b (ix1 c)

/-- `a · wl + h · wr + b`. -/
def conv (a h : Mat 50000 64) (wl wr : Mat 64 64) (b : Vc 64) : Mat 50000 64 :=
  fun i => convAt a h wl wr b (i 0) (i 1)

/-- A hidden layer: the layer's affine part plus the positional encoding `p`, clipped below at zero. -/
def convRelu (a h : Mat 50000 64) (wl wr : Mat 64 64) (b : Vc 64) (p : Mat 50000 64) : Mat 50000 64 :=
  fun i => max (convAt a h wl wr b (i 0) (i 1) + p (ix2 (i 0) (i 1))) 0

/-! ## The classifier and its log-softmax -/

/-- Entry `(r, c)` of `(a · wl + h · wr + b) · wlast + blast`: the last layer (no positional term, no clipping)
    followed by the classifier. -/
def embAt (a h : Mat 50000 64) (wl wr : Mat 64 64) (b : Vc 64) (wlast : Mat 64 40) (blast : Vc 40)
    (r : Fin 50000) (c : Fin 40) : EReal :=
  (∑ k : Fin 64, convAt a h wl wr b r k * wlast (ix2 k c)) + blast (ix1 c)

/-- The class scores of every node. -/
def emb (a h : Mat 50000 64) (wl wr : Mat 64 64) (b : Vc 64) (wlast : Mat 64 40) (blast : Vc 40) : Mat 50000 40 :=
  fun i => embAt a h wl wr b wlast blast (i 0) (i 1)

/-- The largest of row `r`'s 40 scores (the fold of `max` from `⊥`). -/
def rowMax (e : Mat 50000 40) (r : Fin 50000) : EReal :=
  (Finset.univ : Finset (Fin 40)).fold max (⊥ : EReal) (fun c => e (ix2 r c))

/-- Entry `(r, c)` of the row-wise log-softmax: the score shifted by its row's maximum, minus the logarithm of the
    row's sum of exponentials of the shifted scores. -/
def logSoftmaxAt (e : Mat 50000 40) (r : Fin 50000) (c : Fin 40) : EReal :=
  (e (ix2 r c) - rowMax e r) - Ideal.log (∑ c' : Fin 40, Ideal.exp (e (ix2 r c') - rowMax e r))

/-- The row-wise log-softmax. -/
def logSoftmax (e : Mat 50000 40) : Mat 50000 40 :=
  fun i => logSoftmaxAt e (i 0) (i 1)

/-! ## The neighbourhood mean, in its two spellings -/

/-- The neighbourhood SUMS `s` times the reciprocal of the clipped in-degree `d`. -/
def aggMul (s : Mat 50000 64) (d : Vc 50000) : Mat 50000 64 :=
  fun i => s i * Ideal.div 1 (d (ix1 (i 0)))

/-- The neighbourhood sums divided by the clipped in-degree. -/
def aggDiv (s : Mat 50000 64) (d : Vc 50000) : Mat 50000 64 :=
  fun i => Ideal.div (s i) (d (ix1 (i 0)))

/-- Off zero a quotient is the product with the divisor's inverse, and so is the reciprocal: `x · (1 / y) = x / y`
    for every extended real `x` and every `y ≠ 0`, infinite or not. -/
theorem mul_div_one (x y : EReal) (hy : y ≠ 0) : x * Ideal.div 1 y = Ideal.div x y := by
  unfold Ideal.div
  rw [if_neg hy, if_neg hy, one_mul]

/-- The two spellings of the mean agree wherever no clipped degree is zero. -/
theorem aggMul_eq_aggDiv (s : Mat 50000 64) (d : Vc 50000) (hd : ∀ j, d j ≠ 0) : aggMul s d = aggDiv s d :=
  funext fun i => mul_div_one _ _ (hd _)

/-- A degree clipped below at one is never zero. -/
theorem max_one_ne_zero (x : EReal) : max (1 : EReal) x ≠ 0 := by
  intro h
  have h1 : (1 : EReal) ≤ max 1 x := le_max_left _ _
  rw [h] at h1
  exact absurd h1 (by norm_num)

/-! ## The whole network, over an abstract neighbourhood mean -/

/-- The class scores of every node after the two hidden layers and the last one; `agg h` is the matrix of
    neighbourhood means of the rows `h`. The layer weights arrive already separated (`wl0 … b2`). -/
def scores (agg : Mat 50000 64 → Mat 50000 64)
    (x : Mat 50000 128) (pos : Mat 50000 16) (wpos : Mat 16 64) (bpos : Vc 64) (winit : Mat 128 64) (binit : Vc 64)
    (wl0 wr0 : Mat 64 64) (b0 : Vc 64) (wl1 wr1 : Mat 64 64) (b1 : Vc 64) (wl2 wr2 : Mat 64 64) (b2 : Vc 64)
    (wlast : Mat 64 40) (blast : Vc 40) : Mat 50000 40 :=
  let p := posEnc pos wpos bpos
  let h0 := affine x winit binit
  let h1 := convRelu (agg h0) h0 wl0 wr0 b0 p
  let h2 := convRelu (agg h1) h1 wl1 wr1 b1 p
  emb (agg h2) h2 wl2 wr2 b2 wlast blast

end Cert.Sage

end
-- ==== Proof.KHost1.lean ====
/-
  The host side of the idealized kernel, read as values. Between its four pipelined regions the program runs
  stretches of host operations: it cuts the edge list into its source and destination rows, counts each node's
  in-edges once, and before every layer gathers the source nodes' rows, adds them up per destination node and scales
  each node's sum by the reciprocal of its clipped count. Here each of those results is named as a function of what
  the stretch reads, and every buffer a later stretch reads is followed back, unchanged, to where it was written.
-/
import proofs.«121452_j11587821765290_2_alg».proof.Proof.Gen.KernelIdeal.Frame
import proofs.«121452_j11587821765290_2_alg».proof.Proof.Spec
import Idealize.ShloMosaic.Lib.StableHlo.Run
import Idealize.ShloMosaic.PureOps.Ideal

set_option maxRecDepth 16384

noncomputable section

namespace Cert.KernelIdeal.HostValue

open Cert.KernelIdeal Cert.KernelIdeal.Gen Idealize.ShloMosaic Idealize.ShloMosaic.TcCoe Idealize.ShloMosaic.Tactic
open Idealize.SL.Sem Idealize.ShloMosaic.StableHlo

/-- A buffer no operation of the stretch writes holds after the stretch what it held before. -/
macro "host_unwritten" ops:ident b:ident : tactic => `(tactic|
  exact StableHlo.after_of_forall_not_mem (b := Proc.devRef .tc $b) _ _ (List.forall_iff_forall_mem.mp (by
    simp only [$ops:ident, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide))))

/-! ## The host terms -/

/-- Row `j` of the [2, 800000] edge list as a vector of 800000 node numbers (row 0: sources, row 1: destinations). -/
def edgeSrc (e : IVec S2x800000 32) : IVec S800000 32 :=
  shapeCast S800000 (extractStridedSlice S1x800000 ![0, 0] e slices_S2x800000_S1x800000_0_0) shapeCasts_S1x800000_S800000
def edgeDst (e : IVec S2x800000 32) : IVec S800000 32 :=
  shapeCast S800000 (extractStridedSlice S1x800000 ![1, 0] e slices_S2x800000_S1x800000_1_0) shapeCasts_S1x800000_S800000

/-- Each node's in-degree, clipped below at one: one is added at the destination of every edge, from zero. -/
def clippedDeg (d : IVec S800000 32) : FVec Ideal S50000 .f32 :=
  maximumf (broadcastInDim S50000 ![] bcast_S_S50000 (id (constant S_ .f32 0x3F800000#32)))
    (Host.scatterAdd scatter_S50000_S800000x1_S800000_n_0_0_1 (broadcastInDim S50000 ![] bcast_S_S50000 (constant S_ .f32 0x00000000#32))
      (broadcastInDim S800000x1 ![0] bcast_S800000_S800000x1_0 d) (broadcastInDim S800000 ![] bcast_S_S800000 (constant S_ .f32 0x3F800000#32)))

/-- The reciprocal of the clipped in-degree. -/
def recipDeg (d : IVec S800000 32) : FVec Ideal S50000 .f32 :=
  Host.divf (broadcastInDim S50000 ![] bcast_S_S50000 (constant S_ .f32 0x3F800000#32)) (clippedDeg d)

/-- The neighbourhood sums: the rows of `h` at the (wrapped) source of every edge, added up at the edge's
    destination, from zero. -/
def nbSum (s d : IVec S800000 32) (h : FVec Ideal S50000x64 .f32) :
    FVec Ideal S50000x64 .f32 :=
  Host.scatterAdd scatter_S50000x64_S800000x1_S800000x64_1_0_0_1
    (broadcastInDim S50000x64 ![] bcast_S_S50000x64 (constant S_ .f32 0x00000000#32))
    (broadcastInDim S800000x1 ![0] bcast_S800000_S800000x1_0 d)
    (extf .f32
      (Host.gather gather_S50000x64_S800000x1_S800000x64_1_0_n_n_0_1_164 (truncf .bf16 h bitsLt_bf16_f32)
        (broadcastInDim S800000x1 ![0] bcast_S800000_S800000x1_0
          (select (cmpi .slt s (broadcastInDim S800000 ![] bcast_S_S800000 (constantI S_ 32 0#32)))
            (addi s (broadcastInDim S800000 ![] bcast_S_S800000 (constantI S_ 32 50000#32))) s)))
      bitsLt_bf16_f32)

/-- The neighbourhood means as the kernel's program spells them: the sums times the broadcast reciprocal `inv`. -/
def meanTerm (s d : IVec S800000 32) (inv : FVec Ideal S50000 .f32)
    (h : FVec Ideal S50000x64 .f32) : FVec Ideal S50000x64 .f32 :=
  mulf (nbSum s d h)
    (broadcastInDim S50000x64 ![0, 1] bcast_S50000x1_S50000x64_0_1 (broadcastInDim S50000x1 ![0] bcast_S50000_S50000x1_0 inv))

/-- Layer 0's square weight matrix: slab 0 of a stack of three, its unit axis dropped. -/
def wLayer0 (w : FVec Ideal S3x64x64 .f32) : FVec Ideal S64x64 .f32 :=
  shapeCast S64x64 (extractStridedSlice S1x64x64 ![0, 0, 0] w slices_S3x64x64_S1x64x64_0_0_0) shapeCasts_S1x64x64_S64x64
/-- Layer 0's bias: row 0 of a stack of three, its unit axis dropped. -/
def bLayer0 (b : FVec Ideal S3x64 .f32) : FVec Ideal S64 .f32 :=
  shapeCast S64 (extractStridedSlice S1x64 ![0, 0] b slices_S3x64_S1x64_0_0) shapeCasts_S1x64_S64
/-- Layer 1's square weight matrix: slab 1 of a stack of three, its unit axis dropped. -/
def wLayer1 (w : FVec Ideal S3x64x64 .f32) : FVec Ideal S64x64 .f32 :=
  shapeCast S64x64 (extractStridedSlice S1x64x64 ![1, 0, 0] w slices_S3x64x64_S1x64x64_1_0_0) shapeCasts_S1x64x64_S64x64
/-- Layer 1's bias: row 1 of a stack of three, its unit axis dropped. -/
def bLayer1 (b : FVec Ideal S3x64 .f32) : FVec Ideal S64 .f32 :=
  shapeCast S64 (extractStridedSlice S1x64 ![1, 0] b slices_S3x64_S1x64_1_0) shapeCasts_S1x64_S64
/-- Layer 2's square weight matrix: slab 2 of a stack of three, its unit axis dropped. -/
def wLayer2 (w : FVec Ideal S3x64x64 .f32) : FVec Ideal S64x64 .f32 :=
  shapeCast S64x64 (extractStridedSlice S1x64x64 ![2, 0, 0] w slices_S3x64x64_S1x64x64_2_0_0) shapeCasts_S1x64x64_S64x64
/-- Layer 2's bias: row 2 of a stack of three, its unit axis dropped. -/
def bLayer2 (b : FVec Ideal S3x64 .f32) : FVec Ideal S64 .f32 :=
  shapeCast S64 (extractStridedSlice S1x64 ![2, 0] b slices_S3x64_S1x64_2_0) shapeCasts_S1x64_S64

/-! ## The three opening stretches, each over the contents it starts from -/

section Stretches
variable (W : Valuation τ sig (Elt Ideal))

theorem s1_v1 : StableHlo.after hostOps0 W (Proc.devRef .tc main_v1) = edgeSrc (W (Proc.devRef .tc main_arg2)) := by
  after_results_simp
  rfl
theorem s1_v3 : StableHlo.after hostOps0 W (Proc.devRef .tc main_v3) = edgeDst (W (Proc.devRef .tc main_arg2)) := by
  after_results_simp
  rfl
/-- The in-degree counts, before clipping: one added at every edge's destination, from zero. -/
theorem s1_v7 : StableHlo.after hostOps0 W (Proc.devRef .tc main_v7)
    = (Host.scatterAdd scatter_S50000_S800000x1_S800000_n_0_0_1 (broadcastInDim S50000 ![] bcast_S_S50000 (constant S_ .f32 0x00000000#32))
        (broadcastInDim S800000x1 ![0] bcast_S800000_S800000x1_0 (StableHlo.after hostOps0 W (Proc.devRef .tc main_v3) : IVec S800000 32))
        (broadcastInDim S800000 ![] bcast_S_S800000 (constant S_ .f32 0x3F800000#32)) : FVec Ideal S50000 .f32) := by
  after_results_simp
theorem s1_cst1 : StableHlo.after hostOps0 W (Proc.devRef .tc main_cst_1) = (constant S_ .f32 0x3F800000#32 : FVec Ideal S_ .f32) := by
  after_results_simp
theorem s2_v8 : StableHlo.after hostOps0_1 W (Proc.devRef .tc main_v8)
    = (maximumf (broadcastInDim S50000 ![] bcast_S_S50000 (id (W (Proc.devRef .tc main_cst_1) : FVec Ideal S_ .f32)))
        (W (Proc.devRef .tc main_v7) : FVec Ideal S50000 .f32) : FVec Ideal S50000 .f32) := by
  after_results_simp
  simp only [TRef.toBuf, TRef.ofBuf, cast_eq]
theorem s3_v10 : StableHlo.after hostOps0_2 W (Proc.devRef .tc main_v10)
    = (Host.divf (broadcastInDim S50000 ![] bcast_S_S50000 (constant S_ .f32 0x3F800000#32)) (W (Proc.devRef .tc main_v8) : FVec Ideal S50000 .f32)
        : FVec Ideal S50000 .f32) := by
  after_results_simp

end Stretches

variable (m : (ℓ : Loc nD τ sig) → Buf (Elt Ideal) ℓ) (ρ : Dev nD → PrngReg) (c : Dev nD)

/-! ## What the first region finds: the edge rows, the reciprocal degrees, the arguments -/

theorem l3_v1 : W3 m ρ c (Proc.devRef .tc main_v1) = edgeSrc (m ((c : Thread nD τ).loc main_arg2)) :=
  calc W3 m ρ c (Proc.devRef .tc main_v1)
    _ = W2 m ρ c (Proc.devRef .tc main_v1) := by host_unwritten hostOps0_2 main_v1
    _ = W1 m ρ c (Proc.devRef .tc main_v1) := by host_unwritten hostOps0_1 main_v1
    _ = edgeSrc (W0 m ρ c (Proc.devRef .tc main_arg2)) := s1_v1 (W0 m ρ c)
    _ = edgeSrc (m ((c : Thread nD τ).loc main_arg2)) := rfl
theorem l1_v3 : W1 m ρ c (Proc.devRef .tc main_v3) = edgeDst (m ((c : Thread nD τ).loc main_arg2)) :=
  (s1_v3 (W0 m ρ c)).trans rfl
theorem l3_v3 : W3 m ρ c (Proc.devRef .tc main_v3) = edgeDst (m ((c : Thread nD τ).loc main_arg2)) :=
  calc W3 m ρ c (Proc.devRef .tc main_v3)
    _ = W2 m ρ c (Proc.devRef .tc main_v3) := by host_unwritten hostOps0_2 main_v3
    _ = W1 m ρ c (Proc.devRef .tc main_v3) := by host_unwritten hostOps0_1 main_v3
    _ = edgeDst (m ((c : Thread nD τ).loc main_arg2)) := l1_v3 m ρ c
theorem l3_v10 : W3 m ρ c (Proc.devRef .tc main_v10) = recipDeg (edgeDst (m ((c : Thread nD τ).loc main_arg2))) := by
  have h10 : W3 m ρ c (Proc.devRef .tc main_v10) = _ := s3_v10 (W2 m ρ c)
  have h8 : W2 m ρ c (Proc.devRef .tc main_v8) = _ := s2_v8 (W1 m ρ c)
  have hc : W1 m ρ c (Proc.devRef .tc main_cst_1) = _ := s1_cst1 (W0 m ρ c)
  have h7 : W1 m ρ c (Proc.devRef .tc main_v7) = _ := s1_v7 (W0 m ρ c)
  have h3 : StableHlo.after hostOps0 (W0 m ρ c) (Proc.devRef .tc main_v3) = _ := l1_v3 m ρ c
  rw [h10, h8, hc, h7, h3]
  rfl

theorem l3_arg0 : W3 m ρ c (Proc.devRef .tc main_arg0) = m ((c : Thread nD τ).loc main_arg0) :=
  calc W3 m ρ c (Proc.devRef .tc main_arg0)
    _ = W2 m ρ c (Proc.devRef .tc main_arg0) := by host_unwritten hostOps0_2 main_arg0
    _ = W1 m ρ c (Proc.devRef .tc main_arg0) := by host_unwritten hostOps0_1 main_arg0
    _ = W0 m ρ c (Proc.devRef .tc main_arg0) := by host_unwritten hostOps0 main_arg0
    _ = m ((c : Thread nD τ).loc main_arg0) := rfl
theorem l3_arg1 : W3 m ρ c (Proc.devRef .tc main_arg1) = m ((c : Thread nD τ).loc main_arg1) :=
  calc W3 m ρ c (Proc.devRef .tc main_arg1)
    _ = W2 m ρ c (Proc.devRef .tc main_arg1) := by host_unwritten hostOps0_2 main_arg1
    _ = W1 m ρ c (Proc.devRef .tc main_arg1) := by host_unwritten hostOps0_1 main_arg1
    _ = W0 m ρ c (Proc.devRef .tc main_arg1) := by host_unwritten hostOps0 main_arg1
    _ = m ((c : Thread nD τ).loc main_arg1) := rfl
theorem l3_arg3 : W3 m ρ c (Proc.devRef .tc main_arg3) = m ((c : Thread nD τ).loc main_arg3) :=
  calc W3 m ρ c (Proc.devRef .tc main_arg3)
    _ = W2 m ρ c (Proc.devRef .tc main_arg3) := by host_unwritten hostOps0_2 main_arg3
    _ = W1 m ρ c (Proc.devRef .tc main_arg3) := by host_unwritten hostOps0_1 main_arg3
    _ = W0 m ρ c (Proc.devRef .tc main_arg3) := by host_unwritten hostOps0 main_arg3
    _ = m ((c : Thread nD τ).loc main_arg3) := rfl
theorem l3_arg4 : W3 m ρ c (Proc.devRef .tc main_arg4) = m ((c : Thread nD τ).loc main_arg4) :=
  calc W3 m ρ c (Proc.devRef .tc main_arg4)
    _ = W2 m ρ c (Proc.devRef .tc main_arg4) := by host_unwritten hostOps0_2 main_arg4
    _ = W1 m ρ c (Proc.devRef .tc main_arg4) := by host_unwritten hostOps0_1 main_arg4
    _ = W0 m ρ c (Proc.devRef .tc main_arg4) := by host_unwritten hostOps0 main_arg4
    _ = m ((c : Thread nD τ).loc main_arg4) := rfl
theorem l3_arg5 : W3 m ρ c (Proc.devRef .tc main_arg5) = m ((c : Thread nD τ).loc main_arg5) :=
  calc W3 m ρ c (Proc.devRef .tc main_arg5)
    _ = W2 m ρ c (Proc.devRef .tc main_arg5) := by host_unwritten hostOps0_2 main_arg5
    _ = W1 m ρ c (Proc.devRef .tc main_arg5) := by host_unwritten hostOps0_1 main_arg5
    _ = W0 m ρ c (Proc.devRef .tc main_arg5) := by host_unwritten hostOps0 main_arg5
    _ = m ((c : Thread nD τ).loc main_arg5) := rfl
theorem l3_arg6 : W3 m ρ c (Proc.devRef .tc main_arg6) = m ((c : Thread nD τ).loc main_arg6) :=
  calc W3 m ρ c (Proc.devRef .tc main_arg6)
    _ = W2 m ρ c (Proc.devRef .tc main_arg6) := by host_unwritten hostOps0_2 main_arg6
    _ = W1 m ρ c (Proc.devRef .tc main_arg6) := by host_unwritten hostOps0_1 main_arg6
    _ = W0 m ρ c (Proc.devRef .tc main_arg6) := by host_unwritten hostOps0 main_arg6
    _ = m ((c : Thread nD τ).loc main_arg6) := rfl
theorem l3_arg7 : W3 m ρ c (Proc.devRef .tc main_arg7) = m ((c : Thread nD τ).loc main_arg7) :=
  calc W3 m ρ c (Proc.devRef .tc main_arg7)
    _ = W2 m ρ c (Proc.devRef .tc main_arg7) := by host_unwritten hostOps0_2 main_arg7
    _ = W1 m ρ c (Proc.devRef .tc main_arg7) := by host_unwritten hostOps0_1 main_arg7
    _ = W0 m ρ c (Proc.devRef .tc main_arg7) := by host_unwritten hostOps0 main_arg7
    _ = m ((c : Thread nD τ).loc main_arg7) := rfl
theorem l3_arg8 : W3 m ρ c (Proc.devRef .tc main_arg8) = m ((c : Thread nD τ).loc main_arg8) :=
  calc W3 m ρ c (Proc.devRef .tc main_arg8)
    _ = W2 m ρ c (Proc.devRef .tc main_arg8) := by host_unwritten hostOps0_2 main_arg8
    _ = W1 m ρ c (Proc.devRef .tc main_arg8) := by host_unwritten hostOps0_1 main_arg8
    _ = W0 m ρ c (Proc.devRef .tc main_arg8) := by host_unwritten hostOps0 main_arg8
    _ = m ((c : Thread nD τ).loc main_arg8) := rfl
theorem l3_arg9 : W3 m ρ c (Proc.devRef .tc main_arg9) = m ((c : Thread nD τ).loc main_arg9) :=
  calc W3 m ρ c (Proc.devRef .tc main_arg9)
    _ = W2 m ρ c (Proc.devRef .tc main_arg9) := by host_unwritten hostOps0_2 main_arg9
    _ = W1 m ρ c (Proc.devRef .tc main_arg9) := by host_unwritten hostOps0_1 main_arg9
    _ = W0 m ρ c (Proc.devRef .tc main_arg9) := by host_unwritten hostOps0 main_arg9
    _ = m ((c : Thread nD τ).loc main_arg9) := rfl
theorem l3_arg10 : W3 m ρ c (Proc.devRef .tc main_arg10) = m ((c : Thread nD τ).loc main_arg10) :=
  calc W3 m ρ c (Proc.devRef .tc main_arg10)
    _ = W2 m ρ c (Proc.devRef .tc main_arg10) := by host_unwritten hostOps0_2 main_arg10
    _ = W1 m ρ c (Proc.devRef .tc main_arg10) := by host_unwritten hostOps0_1 main_arg10
    _ = W0 m ρ c (Proc.devRef .tc main_arg10) := by host_unwritten hostOps0 main_arg10
    _ = m ((c : Thread nD τ).loc main_arg10) := rfl
theorem l3_arg11 : W3 m ρ c (Proc.devRef .tc main_arg11) = m ((c : Thread nD τ).loc main_arg11) :=
  calc W3 m ρ c (Proc.devRef .tc main_arg11)
    _ = W2 m ρ c (Proc.devRef .tc main_arg11) := by host_unwritten hostOps0_2 main_arg11
    _ = W1 m ρ c (Proc.devRef .tc main_arg11) := by host_unwritten hostOps0_1 main_arg11
    _ = W0 m ρ c (Proc.devRef .tc main_arg11) := by host_unwritten hostOps0 main_arg11
    _ = m ((c : Thread nD τ).loc main_arg11) := rfl

/-! ## Buffers carried unchanged across regions and stretches -/

theorem carry_v1_4_3 : W4 m ρ c (Proc.devRef .tc main_v1) = W3 m ρ c (Proc.devRef .tc main_v1) :=
  calc W4 m ρ c (Proc.devRef .tc main_v1)
    _ = W3 m ρ c (Proc.devRef .tc main_v1) := W4_of_ne m ρ c main_v1 (by decide)

theorem carry_v1_6_4 : W6 m ρ c (Proc.devRef .tc main_v1) = W4 m ρ c (Proc.devRef .tc main_v1) :=
  calc W6 m ρ c (Proc.devRef .tc main_v1)
    _ = W5 m ρ c (Proc.devRef .tc main_v1) := W6_of_ne m ρ c main_v1 (by decide)
    _ = W4 m ρ c (Proc.devRef .tc main_v1) := by host_unwritten hostOps1 main_v1

theorem carry_v1_8_6 : W8 m ρ c (Proc.devRef .tc main_v1) = W6 m ρ c (Proc.devRef .tc main_v1) :=
  calc W8 m ρ c (Proc.devRef .tc main_v1)
    _ = W7 m ρ c (Proc.devRef .tc main_v1) := W8_of_ne m ρ c main_v1 (by decide)
    _ = W6 m ρ c (Proc.devRef .tc main_v1) := by host_unwritten hostOps2 main_v1

theorem carry_v3_4_3 : W4 m ρ c (Proc.devRef .tc main_v3) = W3 m ρ c (Proc.devRef .tc main_v3) :=
  calc W4 m ρ c (Proc.devRef .tc main_v3)
    _ = W3 m ρ c (Proc.devRef .tc main_v3) := W4_of_ne m ρ c main_v3 (by decide)

theorem carry_v3_6_4 : W6 m ρ c (Proc.devRef .tc main_v3) = W4 m ρ c (Proc.devRef .tc main_v3) :=
  calc W6 m ρ c (Proc.devRef .tc main_v3)
    _ = W5 m ρ c (Proc.devRef .tc main_v3) := W6_of_ne m ρ c main_v3 (by decide)
    _ = W4 m ρ c (Proc.devRef .tc main_v3) := by host_unwritten hostOps1 main_v3

theorem carry_v3_8_6 : W8 m ρ c (Proc.devRef .tc main_v3) = W6 m ρ c (Proc.devRef .tc main_v3) :=
  calc W8 m ρ c (Proc.devRef .tc main_v3)
    _ = W7 m ρ c (Proc.devRef .tc main_v3) := W8_of_ne m ρ c main_v3 (by decide)
    _ = W6 m ρ c (Proc.devRef .tc main_v3) := by host_unwritten hostOps2 main_v3

theorem carry_v10_4_3 : W4 m ρ c (Proc.devRef .tc main_v10) = W3 m ρ c (Proc.devRef .tc main_v10) :=
  calc W4 m ρ c (Proc.devRef .tc main_v10)
    _ = W3 m ρ c (Proc.devRef .tc main_v10) := W4_of_ne m ρ c main_v10 (by decide)

theorem carry_v10_6_4 : W6 m ρ c (Proc.devRef .tc main_v10) = W4 m ρ c (Proc.devRef .tc main_v10) :=
  calc W6 m ρ c (Proc.devRef .tc main_v10)
    _ = W5 m ρ c (Proc.devRef .tc main_v10) := W6_of_ne m ρ c main_v10 (by decide)
    _ = W4 m ρ c (Proc.devRef .tc main_v10) := by host_unwritten hostOps1 main_v10

theorem carry_v10_8_6 : W8 m ρ c (Proc.devRef .tc main_v10) = W6 m ρ c (Proc.devRef .tc main_v10) :=
  calc W8 m ρ c (Proc.devRef .tc main_v10)
    _ = W7 m ρ c (Proc.devRef .tc main_v10) := W8_of_ne m ρ c main_v10 (by decide)
    _ = W6 m ρ c (Proc.devRef .tc main_v10) := by host_unwritten hostOps2 main_v10

theorem carry_arg7_4_3 : W4 m ρ c (Proc.devRef .tc main_arg7) = W3 m ρ c (Proc.devRef .tc main_arg7) :=
  calc W4 m ρ c (Proc.devRef .tc main_arg7)
    _ = W3 m ρ c (Proc.devRef .tc main_arg7) := W4_of_ne m ρ c main_arg7 (by decide)

theorem carry_arg7_6_4 : W6 m ρ c (Proc.devRef .tc main_arg7) = W4 m ρ c (Proc.devRef .tc main_arg7) :=
  calc W6 m ρ c (Proc.devRef .tc main_arg7)
    _ = W5 m ρ c (Proc.devRef .tc main_arg7) := W6_of_ne m ρ c main_arg7 (by decide)
    _ = W4 m ρ c (Proc.devRef .tc main_arg7) := by host_unwritten hostOps1 main_arg7

theorem carry_arg7_8_6 : W8 m ρ c (Proc.devRef .tc main_arg7) = W6 m ρ c (Proc.devRef .tc main_arg7) :=
  calc W8 m ρ c (Proc.devRef .tc main_arg7)
    _ = W7 m ρ c (Proc.devRef .tc main_arg7) := W8_of_ne m ρ c main_arg7 (by decide)
    _ = W6 m ρ c (Proc.devRef .tc main_arg7) := by host_unwritten hostOps2 main_arg7

theorem carry_arg8_4_3 : W4 m ρ c (Proc.devRef .tc main_arg8) = W3 m ρ c (Proc.devRef .tc main_arg8) :=
  calc W4 m ρ c (Proc.devRef .tc main_arg8)
    _ = W3 m ρ c (Proc.devRef .tc main_arg8) := W4_of_ne m ρ c main_arg8 (by decide)

theorem carry_arg8_6_4 : W6 m ρ c (Proc.devRef .tc main_arg8) = W4 m ρ c (Proc.devRef .tc main_arg8) :=
  calc W6 m ρ c (Proc.devRef .tc main_arg8)
    _ = W5 m ρ c (Proc.devRef .tc main_arg8) := W6_of_ne m ρ c main_arg8 (by decide)
    _ = W4 m ρ c (Proc.devRef .tc main_arg8) := by host_unwritten hostOps1 main_arg8

theorem carry_arg8_8_6 : W8 m ρ c (Proc.devRef .tc main_arg8) = W6 m ρ c (Proc.devRef .tc main_arg8) :=
  calc W8 m ρ c (Proc.devRef .tc main_arg8)
    _ = W7 m ρ c (Proc.devRef .tc main_arg8) := W8_of_ne m ρ c main_arg8 (by decide)
    _ = W6 m ρ c (Proc.devRef .tc main_arg8) := by host_unwritten hostOps2 main_arg8

theorem carry_arg9_4_3 : W4 m ρ c (Proc.devRef .tc main_arg9) = W3 m ρ c (Proc.devRef .tc main_arg9) :=
  calc W4 m ρ c (Proc.devRef .tc main_arg9)
    _ = W3 m ρ c (Proc.devRef .tc main_arg9) := W4_of_ne m ρ c main_arg9 (by decide)

theorem carry_arg9_6_4 : W6 m ρ c (Proc.devRef .tc main_arg9) = W4 m ρ c (Proc.devRef .tc main_arg9) :=
  calc W6 m ρ c (Proc.devRef .tc main_arg9)
    _ = W5 m ρ c (Proc.devRef .tc main_arg9) := W6_of_ne m ρ c main_arg9 (by decide)
    _ = W4 m ρ c (Proc.devRef .tc main_arg9) := by host_unwritten hostOps1 main_arg9

theorem carry_arg9_8_6 : W8 m ρ c (Proc.devRef .tc main_arg9) = W6 m ρ c (Proc.devRef .tc main_arg9) :=
  calc W8 m ρ c (Proc.devRef .tc main_arg9)
    _ = W7 m ρ c (Proc.devRef .tc main_arg9) := W8_of_ne m ρ c main_arg9 (by decide)
    _ = W6 m ρ c (Proc.devRef .tc main_arg9) := by host_unwritten hostOps2 main_arg9

theorem carry_arg10_9_3 : W9 m ρ c (Proc.devRef .tc main_arg10) = W3 m ρ c (Proc.devRef .tc main_arg10) :=
  calc W9 m ρ c (Proc.devRef .tc main_arg10)
    _ = W8 m ρ c (Proc.devRef .tc main_arg10) := by host_unwritten hostOps3 main_arg10
    _ = W7 m ρ c (Proc.devRef .tc main_arg10) := W8_of_ne m ρ c main_arg10 (by decide)
    _ = W6 m ρ c (Proc.devRef .tc main_arg10) := by host_unwritten hostOps2 main_arg10
    _ = W5 m ρ c (Proc.devRef .tc main_arg10) := W6_of_ne m ρ c main_arg10 (by decide)
    _ = W4 m ρ c (Proc.devRef .tc main_arg10) := by host_unwritten hostOps1 main_arg10
    _ = W3 m ρ c (Proc.devRef .tc main_arg10) := W4_of_ne m ρ c main_arg10 (by decide)

theorem carry_arg11_9_3 : W9 m ρ c (Proc.devRef .tc main_arg11) = W3 m ρ c (Proc.devRef .tc main_arg11) :=
  calc W9 m ρ c (Proc.devRef .tc main_arg11)
    _ = W8 m ρ c (Proc.devRef .tc main_arg11) := by host_unwritten hostOps3 main_arg11
    _ = W7 m ρ c (Proc.devRef .tc main_arg11) := W8_of_ne m ρ c main_arg11 (by decide)
    _ = W6 m ρ c (Proc.devRef .tc main_arg11) := by host_unwritten hostOps2 main_arg11
    _ = W5 m ρ c (Proc.devRef .tc main_arg11) := W6_of_ne m ρ c main_arg11 (by decide)
    _ = W4 m ρ c (Proc.devRef .tc main_arg11) := by host_unwritten hostOps1 main_arg11
    _ = W3 m ρ c (Proc.devRef .tc main_arg11) := W4_of_ne m ρ c main_arg11 (by decide)

theorem carry_v11_0_5_4 : W5 m ρ c (Proc.devRef .tc main_v11_0) = W4 m ρ c (Proc.devRef .tc main_v11_0) :=
  calc W5 m ρ c (Proc.devRef .tc main_v11_0)
    _ = W4 m ρ c (Proc.devRef .tc main_v11_0) := by host_unwritten hostOps1 main_v11_0

theorem carry_v11_1_5_4 : W5 m ρ c (Proc.devRef .tc main_v11_1) = W4 m ρ c (Proc.devRef .tc main_v11_1) :=
  calc W5 m ρ c (Proc.devRef .tc main_v11_1)
    _ = W4 m ρ c (Proc.devRef .tc main_v11_1) := by host_unwritten hostOps1 main_v11_1

theorem carry_v11_1_7_5 : W7 m ρ c (Proc.devRef .tc main_v11_1) = W5 m ρ c (Proc.devRef .tc main_v11_1) :=
  calc W7 m ρ c (Proc.devRef .tc main_v11_1)
    _ = W6 m ρ c (Proc.devRef .tc main_v11_1) := by host_unwritten hostOps2 main_v11_1
    _ = W5 m ρ c (Proc.devRef .tc main_v11_1) := (W6_arr m ρ c 5).trans (((dat1 (V5 m ρ) c).arrAt_in 5 rfl _).trans (A_eq1 (V5 m ρ) c 5))

theorem carry_v33_7_6 : W7 m ρ c (Proc.devRef .tc main_v33) = W6 m ρ c (Proc.devRef .tc main_v33) :=
  calc W7 m ρ c (Proc.devRef .tc main_v33)
    _ = W6 m ρ c (Proc.devRef .tc main_v33) := by host_unwritten hostOps2 main_v33

theorem carry_v55_9_8 : W9 m ρ c (Proc.devRef .tc main_v55) = W8 m ρ c (Proc.devRef .tc main_v55) :=
  calc W9 m ρ c (Proc.devRef .tc main_v55)
    _ = W8 m ρ c (Proc.devRef .tc main_v55) := by host_unwritten hostOps3 main_v55

/-! ## What each later stretch computes, over the contents it starts from -/

set_option maxHeartbeats 2000000 in
theorem l5_v26 : W5 m ρ c (Proc.devRef .tc main_v26)
    = meanTerm (W4 m ρ c (Proc.devRef .tc main_v1)) (W4 m ρ c (Proc.devRef .tc main_v3))
        (W4 m ρ c (Proc.devRef .tc main_v10)) (W4 m ρ c (Proc.devRef .tc main_v11_0)) := by
  show StableHlo.after hostOps1 (W4 m ρ c) (Proc.devRef .tc main_v26) = _
  after_results_simp
  rfl
set_option maxHeartbeats 2000000 in
theorem l5_v28 : W5 m ρ c (Proc.devRef .tc main_v28) = wLayer0 (W4 m ρ c (Proc.devRef .tc main_arg7)) := by
  show StableHlo.after hostOps1 (W4 m ρ c) (Proc.devRef .tc main_v28) = _
  after_results_simp
  rfl
set_option maxHeartbeats 2000000 in
theorem l5_v30 : W5 m ρ c (Proc.devRef .tc main_v30) = wLayer0 (W4 m ρ c (Proc.devRef .tc main_arg8)) := by
  show StableHlo.after hostOps1 (W4 m ρ c) (Proc.devRef .tc main_v30) = _
  after_results_simp
  rfl
set_option maxHeartbeats 2000000 in
theorem l5_v32 : W5 m ρ c (Proc.devRef .tc main_v32) = bLayer0 (W4 m ρ c (Proc.devRef .tc main_arg9)) := by
  show StableHlo.after hostOps1 (W4 m ρ c) (Proc.devRef .tc main_v32) = _
  after_results_simp
  rfl

set_option maxHeartbeats 2000000 in
theorem l7_v48 : W7 m ρ c (Proc.devRef .tc main_v48)
    = meanTerm (W6 m ρ c (Proc.devRef .tc main_v1)) (W6 m ρ c (Proc.devRef .tc main_v3))
        (W6 m ρ c (Proc.devRef .tc main_v10)) (W6 m ρ c (Proc.devRef .tc main_v33)) := by
  show StableHlo.after hostOps2 (W6 m ρ c) (Proc.devRef .tc main_v48) = _
  after_results_simp
  rfl
set_option maxHeartbeats 2000000 in
theorem l7_v50 : W7 m ρ c (Proc.devRef .tc main_v50) = wLayer1 (W6 m ρ c (Proc.devRef .tc main_arg7)) := by
  show StableHlo.after hostOps2 (W6 m ρ c) (Proc.devRef .tc main_v50) = _
  after_results_simp
  rfl
set_option maxHeartbeats 2000000 in
theorem l7_v52 : W7 m ρ c (Proc.devRef .tc main_v52) = wLayer1 (W6 m ρ c (Proc.devRef .tc main_arg8)) := by
  show StableHlo.after hostOps2 (W6 m ρ c) (Proc.devRef .tc main_v52) = _
  after_results_simp
  rfl
set_option maxHeartbeats 2000000 in
theorem l7_v54 : W7 m ρ c (Proc.devRef .tc main_v54) = bLayer1 (W6 m ρ c (Proc.devRef .tc main_arg9)) := by
  show StableHlo.after hostOps2 (W6 m ρ c) (Proc.devRef .tc main_v54) = _
  after_results_simp
  rfl

set_option maxHeartbeats 2000000 in
theorem l9_v70 : W9 m ρ c (Proc.devRef .tc main_v70)
    = meanTerm (W8 m ρ c (Proc.devRef .tc main_v1)) (W8 m ρ c (Proc.devRef .tc main_v3))
        (W8 m ρ c (Proc.devRef .tc main_v10)) (W8 m ρ c (Proc.devRef .tc main_v55)) := by
  show StableHlo.after hostOps3 (W8 m ρ c) (Proc.devRef .tc main_v70) = _
  after_results_simp
  rfl
set_option maxHeartbeats 2000000 in
theorem l9_v72 : W9 m ρ c (Proc.devRef .tc main_v72) = wLayer2 (W8 m ρ c (Proc.devRef .tc main_arg7)) := by
  show StableHlo.after hostOps3 (W8 m ρ c) (Proc.devRef .tc main_v72) = _
  after_results_simp
  rfl
set_option maxHeartbeats 2000000 in
theorem l9_v74 : W9 m ρ c (Proc.devRef .tc main_v74) = wLayer2 (W8 m ρ c (Proc.devRef .tc main_arg8)) := by
  show StableHlo.after hostOps3 (W8 m ρ c) (Proc.devRef .tc main_v74) = _
  after_results_simp
  rfl
set_option maxHeartbeats 2000000 in
theorem l9_v76 : W9 m ρ c (Proc.devRef .tc main_v76) = bLayer2 (W8 m ρ c (Proc.devRef .tc main_arg9)) := by
  show StableHlo.after hostOps3 (W8 m ρ c) (Proc.devRef .tc main_v76) = _
  after_results_simp
  rfl

end Cert.KernelIdeal.HostValue

end
-- ==== Proof.Region0.lean ====
/-
  The first of the network's four kernels, over the extended reals: it turns the node features into the first hidden
  rows, `h = x · W_init + b_init`, and the node positions into the positional encoding, `p = tanh (pos · W_pos + b_pos)`.

  The 50000 rows are processed in ten blocks of 5000. A block of either result depends only on the same block of rows of
  the input, on the whole weight matrix and on the whole bias, and entry (r, q) of a block is row r of the input block
  against column q of the weights, plus entry q of the bias (and the hyperbolic tangent of that for the encoding). So the
  ten stored blocks are the ten row-blocks of ONE function of the whole arrays, and since the blocks fill the array, each
  output array ends holding that function: `affine` for the hidden rows, `posEnc` for the encoding.
-/
import proofs.«121452_j11587821765290_2_alg».proof.Proof.Gen.KernelIdeal.Frame
import proofs.«121452_j11587821765290_2_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Region0

open Cert.KernelIdeal Cert.KernelIdeal.Gen Cert.Sage Idealize.ShloMosaic Idealize.ShloMosaic.TcCoe Idealize.SL.Sem Idealize.ShloMosaic.ValueIdx
open scoped BigOperators

/-! ## The body's arithmetic at one entry

Entry (r, q) of either stored block depends on row r of the loaded row-block, column q of the loaded weight matrix and
entry q of the loaded bias: a product against a zero accumulator is the plain sum over the contracted coordinate, and the
bias, viewed as one row and repeated down the rows, contributes its entry q. -/

/-- Row coordinate of the left operand's index at output index `i`: the output's row. -/
theorem lhsH_0 (i : S5000x64.Idx) (p : dot_S5000x128_S128x64_S5000x64_1_0_0_1_n_n.contr.Idx) :
    (dot_S5000x128_S128x64_S5000x64_1_0_0_1_n_n.lhsIdx i p 0).val = (i 0).val := by
  unfold DotDims.lhsIdx
  rw [dif_neg (show ¬(0 : Fin S5000x128.rank) ∈ dot_S5000x128_S128x64_S5000x64_1_0_0_1_n_n.lhsBatch by decide), dif_pos (show (0 : Fin S5000x128.rank) ∈ dot_S5000x128_S128x64_S5000x64_1_0_0_1_n_n.lhsNonContracting by decide)]
  rfl

/-- Column coordinate of the left operand's index: the contracted position. -/
theorem lhsH_1 (i : S5000x64.Idx) (p : dot_S5000x128_S128x64_S5000x64_1_0_0_1_n_n.contr.Idx) :
    (dot_S5000x128_S128x64_S5000x64_1_0_0_1_n_n.lhsIdx i p 1).val = (p ⟨0, by decide⟩).val :=
  dot_S5000x128_S128x64_S5000x64_1_0_0_1_n_n.lhsIdx_val_of_single rfl i p

/-- Row coordinate of the right operand's index: the contracted position. -/
theorem rhsH_0 (i : S5000x64.Idx) (p : dot_S5000x128_S128x64_S5000x64_1_0_0_1_n_n.contr.Idx) :
    (dot_S5000x128_S128x64_S5000x64_1_0_0_1_n_n.rhsIdx i p 0).val = (p ⟨0, by decide⟩).val :=
  dot_S5000x128_S128x64_S5000x64_1_0_0_1_n_n.rhsIdx_val_of_single rfl i p

/-- Column coordinate of the right operand's index: the output's column. -/
theorem rhsH_1 (i : S5000x64.Idx) (p : dot_S5000x128_S128x64_S5000x64_1_0_0_1_n_n.contr.Idx) :
    (dot_S5000x128_S128x64_S5000x64_1_0_0_1_n_n.rhsIdx i p 1).val = (i 1).val := by
  unfold DotDims.rhsIdx
  rw [dif_neg (show ¬(1 : Fin S128x64.rank) ∈ dot_S5000x128_S128x64_S5000x64_1_0_0_1_n_n.rhsBatch by decide), dif_pos (show (1 : Fin S128x64.rank) ∈ dot_S5000x128_S128x64_S5000x64_1_0_0_1_n_n.rhsNonContracting by decide)]
  rfl

/-- The product of a 5000×128 block by a 128×64 matrix into a zero accumulator, at entry (r, q): row r of the block
    against column q of the matrix. -/
theorem matmulH_apply (a : FVec Ideal S5000x128 .bf16) (b : FVec Ideal S128x64 .bf16) (r : Fin 5000) (q : Fin 64) :
    matmul dot_S5000x128_S128x64_S5000x64_1_0_0_1_n_n none a b (constant S5000x64 .f32 0x00000000#32) (ix2 r q)
      = ∑ k : Fin 128, a (ix2 r k) * b (ix2 k q) := by
  simp only [matmul]
  rw [Ideal.matmul_constant_zero_apply, ← Equiv.sum_comp (contrEquiv1 dot_S5000x128_S128x64_S5000x64_1_0_0_1_n_n 128 rfl rfl).symm]
  refine Finset.sum_congr rfl fun k _ => ?_
  have hk := contrEquiv1_symm_val dot_S5000x128_S128x64_S5000x64_1_0_0_1_n_n 128 rfl rfl k
  have el : dot_S5000x128_S128x64_S5000x64_1_0_0_1_n_n.lhsIdx (ix2 r q) ((contrEquiv1 dot_S5000x128_S128x64_S5000x64_1_0_0_1_n_n 128 rfl rfl).symm k) = ix2 r k :=
    funext fun ax => Fin.ext (by
      match ax with
      | ⟨0, _⟩ => exact lhsH_0 _ _
      | ⟨1, _⟩ => exact (lhsH_1 _ _).trans hk)
  have er : dot_S5000x128_S128x64_S5000x64_1_0_0_1_n_n.rhsIdx (ix2 r q) ((contrEquiv1 dot_S5000x128_S128x64_S5000x64_1_0_0_1_n_n 128 rfl rfl).symm k) = ix2 k q :=
    funext fun ax => Fin.ext (by
      match ax with
      | ⟨0, _⟩ => exact (rhsH_0 _ _).trans hk
      | ⟨1, _⟩ => exact rhsH_1 _ _)
  rw [el, er]

/-- Row coordinate of the left operand's index at output index `i`: the output's row. -/
theorem lhsP_0 (i : S5000x64.Idx) (p : dot_S5000x16_S16x64_S5000x64_1_0_0_1_n_n.contr.Idx) :
    (dot_S5000x16_S16x64_S5000x64_1_0_0_1_n_n.lhsIdx i p 0).val = (i 0).val := by
  unfold DotDims.lhsIdx
  rw [dif_neg (show ¬(0 : Fin S5000x16.rank) ∈ dot_S5000x16_S16x64_S5000x64_1_0_0_1_n_n.lhsBatch by decide), dif_pos (show (0 : Fin S5000x16.rank) ∈ dot_S5000x16_S16x64_S5000x64_1_0_0_1_n_n.lhsNonContracting by decide)]
  rfl

/-- Column coordinate of the left operand's index: the contracted position. -/
theorem lhsP_1 (i : S5000x64.Idx) (p : dot_S5000x16_S16x64_S5000x64_1_0_0_1_n_n.contr.Idx) :
    (dot_S5000x16_S16x64_S5000x64_1_0_0_1_n_n.lhsIdx i p 1).val = (p ⟨0, by decide⟩).val :=
  dot_S5000x16_S16x64_S5000x64_1_0_0_1_n_n.lhsIdx_val_of_single rfl i p

/-- Row coordinate of the right operand's index: the contracted position. -/
theorem rhsP_0 (i : S5000x64.Idx) (p : dot_S5000x16_S16x64_S5000x64_1_0_0_1_n_n.contr.Idx) :
    (dot_S5000x16_S16x64_S5000x64_1_0_0_1_n_n.rhsIdx i p 0).val = (p ⟨0, by decide⟩).val :=
  dot_S5000x16_S16x64_S5000x64_1_0_0_1_n_n.rhsIdx_val_of_single rfl i p

/-- Column coordinate of the right operand's index: the output's column. -/
theorem rhsP_1 (i : S5000x64.Idx) (p : dot_S5000x16_S16x64_S5000x64_1_0_0_1_n_n.contr.Idx) :
    (dot_S5000x16_S16x64_S5000x64_1_0_0_1_n_n.rhsIdx i p 1).val = (i 1).val := by
  unfold DotDims.rhsIdx
  rw [dif_neg (show ¬(1 : Fin S16x64.rank) ∈ dot_S5000x16_S16x64_S5000x64_1_0_0_1_n_n.rhsBatch by decide), dif_pos (show (1 : Fin S16x64.rank) ∈ dot_S5000x16_S16x64_S5000x64_1_0_0_1_n_n.rhsNonContracting by decide)]
  rfl

/-- The product of a 5000×16 block by a 16×64 matrix into a zero accumulator, at entry (r, q): row r of the block
    against column q of the matrix. -/
theorem matmulP_apply (a : FVec Ideal S5000x16 .bf16) (b : FVec Ideal S16x64 .bf16) (r : Fin 5000) (q : Fin 64) :
    matmul dot_S5000x16_S16x64_S5000x64_1_0_0_1_n_n none a b (constant S5000x64 .f32 0x00000000#32) (ix2 r q)
      = ∑ k : Fin 16, a (ix2 r k) * b (ix2 k q) := by
  simp only [matmul]
  rw [Ideal.matmul_constant_zero_apply, ← Equiv.sum_comp (contrEquiv1 dot_S5000x16_S16x64_S5000x64_1_0_0_1_n_n 16 rfl rfl).symm]
  refine Finset.sum_congr rfl fun k _ => ?_
  have hk := contrEquiv1_symm_val dot_S5000x16_S16x64_S5000x64_1_0_0_1_n_n 16 rfl rfl k
  have el : dot_S5000x16_S16x64_S5000x64_1_0_0_1_n_n.lhsIdx (ix2 r q) ((contrEquiv1 dot_S5000x16_S16x64_S5000x64_1_0_0_1_n_n 16 rfl rfl).symm k) = ix2 r k :=
    funext fun ax => Fin.ext (by
      match ax with
      | ⟨0, _⟩ => exact lhsP_0 _ _
      | ⟨1, _⟩ => exact (lhsP_1 _ _).trans hk)
  have er : dot_S5000x16_S16x64_S5000x64_1_0_0_1_n_n.rhsIdx (ix2 r q) ((contrEquiv1 dot_S5000x16_S16x64_S5000x64_1_0_0_1_n_n 16 rfl rfl).symm k) = ix2 k q :=
    funext fun ax => Fin.ext (by
      match ax with
      | ⟨0, _⟩ => exact (rhsP_0 _ _).trans hk
      | ⟨1, _⟩ => exact rhsP_1 _ _)
  rw [el, er]

/-- A length-64 vector viewed as one row and repeated down 5000 rows reads, at (r, q), its entry q. -/
theorem bias_apply (v : Vec Ideal S64 .f32) (r : Fin 5000) (q : Fin 64) :
    broadcastTo S5000x64 (shapeCast S1x64 v shapeCasts_S64_S1x64) broadcasts_S1x64_S5000x64 (ix2 r q) = v (ix1 q) := by
  rw [broadcastTo_1b_ab_apply, shapeCast_a_1a_apply]

/-- Entry (r, q) of the first stored block: row r of the feature block against column q of the weights, plus the bias. -/
theorem payH_apply (x : Vec Ideal S5000x128 .f32) (w : Vec Ideal S128x64 .f32) (b : Vec Ideal S64 .f32) (r : Fin 5000) (q : Fin 64) :
    k0_pay1 x w b (ix2 r q) = (∑ k : Fin 128, x (ix2 r k) * w (ix2 k q)) + b (ix1 q) := by
  unfold k0_pay1
  refine (addf_apply _ _ _).trans ?_
  rw [matmulH_apply, bias_apply]
  rfl

/-- Entry (r, q) of the second stored block: the hyperbolic tangent of row r of the position block against column q of
    the weights, plus the bias. -/
theorem payP_apply (x : Vec Ideal S5000x16 .f32) (w : Vec Ideal S16x64 .f32) (b : Vec Ideal S64 .f32) (r : Fin 5000) (q : Fin 64) :
    k0_pay2 x w b (ix2 r q) = Ideal.tanh ((∑ k : Fin 16, x (ix2 r k) * w (ix2 k q)) + b (ix1 q)) := by
  unfold k0_pay2
  show Ideal.tanh ((addf _ _ : FVec Ideal S5000x64 .f32) (ix2 r q)) = _
  refine congrArg Ideal.tanh ?_
  refine (addf_apply _ _ _).trans ?_
  rw [matmulP_apply, bias_apply]
  rfl

/-! ## From one entry of a block to one entry of the array

The grid has ten points. At point `t` the two row-blocked inputs and the two outputs are at rows
`5000·t … 5000·t + 4999` (all columns); the weights and biases are whole at every point. So entry (r, q) of what point `t`
stores is entry (5000·t + r, q) of the whole-array function: a row of the result depends only on the same row of the input. -/

variable (V : (c : Dev nD) → (b : Ref sig .tc) → Buf (Elt Ideal) ((c : Thread nD τ).loc b)) (c : Dev nD)

theorem zero2 : (![0, 0] : Fin 2 → Nat) = fun _ => 0 := funext fun a => by fin_cases a <;> rfl
theorem zero1 : (![0] : Fin 1 → Nat) = fun _ => 0 := funext fun a => by fin_cases a <;> rfl

/-- The block indices at every point of the grid: the row-blocked windows are at block row `t`, column block 0; the
    weights and biases at block 0. -/
theorem block_index : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = 0 ∧ win0_2.index t (1 : Fin 2) = 0)
    ∧ win0_3.index t (0 : Fin 1) = 0
    ∧ (win0_4.index t (0 : Fin 2) = 0 ∧ win0_4.index t (1 : Fin 2) = 0)
    ∧ win0_5.index t (0 : Fin 1) = 0
    ∧ (win0_6.index t (0 : Fin 2) = t.val ∧ win0_6.index t (1 : Fin 2) = 0)
    ∧ (win0_7.index t (0 : Fin 2) = t.val ∧ win0_7.index t (1 : Fin 2) = 0) :=
  (by decide +kernel : ∀ t : Fin grid0.N, _)

/-- The feature block at point `t` is rows `5000·t …` of the feature array. -/
theorem feat_block (t : Fin cfg0.N) (y : S5000x128.Idx) (i : S50000x128.Idx)
    (h0 : (i 0).val = 5000 * t.val + (y 0).val) (h1 : (i 1).val = (y 1).val) :
    (iblk0 V c 0 t : Vec Ideal S5000x128 .f32) y = (V c main_arg0 : S50000x128.Idx → EReal) i := by
  have hi := (block_index t).1
  unfold iblk0
  rw [View.read_apply]
  show V c main_arg0 _ = V c main_arg0 _
  refine congrArg _ ?_
  funext a
  apply Fin.ext
  match a with
  | ⟨0, _⟩ => show win0_0.index t 0 * 5000 + 1 * (y 0).val = (i 0).val; rw [hi.1, h0]; omega
  | ⟨1, _⟩ => show win0_0.index t 1 * 128 + 1 * (y 1).val = (i 1).val; rw [hi.2, h1]; omega

/-- The position block at point `t` is rows `5000·t …` of the position array. -/
theorem pos_block (t : Fin cfg0.N) (y : S5000x16.Idx) (i : S50000x16.Idx)
    (h0 : (i 0).val = 5000 * t.val + (y 0).val) (h1 : (i 1).val = (y 1).val) :
    (iblk0 V c 1 t : Vec Ideal S5000x16 .f32) y = (V c main_arg1 : S50000x16.Idx → EReal) i := by
  have hi := (block_index t).2.1
  unfold iblk0
  rw [View.read_apply]
  show V c main_arg1 _ = V c main_arg1 _
  refine congrArg _ ?_
  funext a
  apply Fin.ext
  match a with
  | ⟨0, _⟩ => show win0_1.index t 0 * 5000 + 1 * (y 0).val = (i 0).val; rw [hi.1, h0]; omega
  | ⟨1, _⟩ => show win0_1.index t 1 * 16 + 1 * (y 1).val = (i 1).val; rw [hi.2, h1]; omega

/-- The position weights' block is the whole matrix, at every point. -/
theorem wpos_block (t : Fin cfg0.N) : (iblk0 V c 2 t : Vec Ideal S16x64 .f32) = (V c main_arg3 : S16x64.Idx → EReal) := by
  have hi := (block_index t).2.2.1
  funext y
  unfold iblk0
  rw [View.read_apply]
  show V c main_arg3 _ = V c main_arg3 _
  refine congrArg _ ?_
  funext a
  apply Fin.ext
  match a with
  | ⟨0, _⟩ => show win0_2.index t 0 * 16 + 1 * (y 0).val = (y 0).val; rw [hi.1]; omega
  | ⟨1, _⟩ => show win0_2.index t 1 * 64 + 1 * (y 1).val = (y 1).val; rw [hi.2]; omega

/-- The position bias's block is the whole vector, at every point. -/
theorem bpos_block (t : Fin cfg0.N) : (iblk0 V c 3 t : Vec Ideal S64 .f32) = (V c main_arg4 : S64.Idx → EReal) := by
  have hi := (block_index t).2.2.2.1
  funext y
  unfold iblk0
  rw [View.read_apply]
  show V c main_arg4 _ = V c main_arg4 _
  refine congrArg _ ?_
  funext a
  apply Fin.ext
  match a with
  | ⟨0, _⟩ => show win0_3.index t 0 * 64 + 1 * (y 0).val = (y 0).val; rw [hi]; omega

/-- The feature weights' block is the whole matrix, at every point. -/
theorem winit_block (t : Fin cfg0.N) : (iblk0 V c 4 t : Vec Ideal S128x64 .f32) = (V c main_arg5 : S128x64.Idx → EReal) := by
  have hi := (block_index t).2.2.2.2.1
  funext y
  unfold iblk0
  rw [View.read_apply]
  show V c main_arg5 _ = V c main_arg5 _
  refine congrArg _ ?_
  funext a
  apply Fin.ext
  match a with
  | ⟨0, _⟩ => show win0_4.index t 0 * 128 + 1 * (y 0).val = (y 0).val; rw [hi.1]; omega
  | ⟨1, _⟩ => show win0_4.index t 1 * 64 + 1 * (y 1).val = (y 1).val; rw [hi.2]; omega

/-- The feature bias's block is the whole vector, at every point. -/
theorem binit_block (t : Fin cfg0.N) : (iblk0 V c 5 t : Vec Ideal S64 .f32) = (V c main_arg6 : S64.Idx → EReal) := by
  have hi := (block_index t).2.2.2.2.2.1
  funext y
  unfold iblk0
  rw [View.read_apply]
  show V c main_arg6 _ = V c main_arg6 _
  refine congrArg _ ?_
  funext a
  apply Fin.ext
  match a with
  | ⟨0, _⟩ => show win0_5.index t 0 * 64 + 1 * (y 0).val = (y 0).val; rw [hi]; omega

/-- One entry of the first stored block against the whole-array function: if the loaded block's row `r` is row `R` of
    the feature array, entry (r, q) of the stored block is entry (R, q) of `x · w + b`. -/
theorem affine_of_rows (x : Vec Ideal S5000x128 .f32) (w : Vec Ideal S128x64 .f32) (b : Vec Ideal S64 .f32)
    (X : Mat 50000 128) (r : Fin 5000) (q : Fin 64) (R : Fin 50000)
    (hx : ∀ k : Fin 128, x (ix2 r k) = X (ix2 R k)) :
    k0_pay1 x w b (ix2 r q) = affine X w b (ix2 R q) := by
  rw [payH_apply]
  show _ = (∑ k : Fin 128, X (ix2 R k) * w (ix2 k q)) + b (ix1 q)
  refine congrArg (· + b (ix1 q)) (Finset.sum_congr rfl fun k _ => ?_)
  rw [hx k]

/-- The same for the second stored block and the positional encoding. -/
theorem posEnc_of_rows (x : Vec Ideal S5000x16 .f32) (w : Vec Ideal S16x64 .f32) (b : Vec Ideal S64 .f32)
    (X : Mat 50000 16) (r : Fin 5000) (q : Fin 64) (R : Fin 50000)
    (hx : ∀ k : Fin 16, x (ix2 r k) = X (ix2 R k)) :
    k0_pay2 x w b (ix2 r q) = posEnc X w b (ix2 R q) := by
  rw [payP_apply]
  show _ = Ideal.tanh ((∑ k : Fin 16, X (ix2 R k) * w (ix2 k q)) + b (ix1 q))
  refine congrArg Ideal.tanh (congrArg (· + b (ix1 q)) (Finset.sum_congr rfl fun k _ => ?_))
  rw [hx k]

/-- What point `t` writes back to the first output is block `t` of `x · w + b` of the arrays as the region finds them. -/
theorem flushed_h (t : Fin cfg0.N) :
    (dat0 (F := Ideal) V c).flushed 6 t
      = ((cfg0.win 6).blk t).view.read (Elt Ideal) (affine (V c main_arg0) (V c main_arg5) (V c main_arg6)) := by
  show (cfg0.win 6).cut (grid0.coords t) ((dat0 V c).after 6 t) = _
  rw [after0_6]
  unfold out0_6
  rw [View.canon_unit_zero zero2]
  simp only [View.ld_unit_zero (S := S5000x128) zero2, View.ld_unit_zero (S := S128x64) zero2, View.ld_unit_zero (S := S64) zero1]
  rw [winit_block, binit_block]
  have hi := (block_index t).2.2.2.2.2.2.1
  funext j
  show k0_pay1 (iblk0 V c 0 t) (V c main_arg5) (V c main_arg6) j
    = affine (V c main_arg0) (V c main_arg5) (V c main_arg6) (((cfg0.win 6).blk t).view.emb j)
  obtain ⟨r, q, rfl⟩ : ∃ (r : Fin 5000) (q : Fin 64), j = ix2 r q := ⟨j 0, j 1, eq_ix2 j⟩
  have hN : cfg0.N = 10 := N_0
  have ht : t.val < 10 := hN ▸ t.isLt
  have e : ((cfg0.win 6).blk t).view.emb (ix2 r q) = ix2 (⟨5000 * t.val + r.val, by omega⟩ : Fin 50000) q := by
    funext a
    apply Fin.ext
    match a with
    | ⟨0, _⟩ => show win0_6.index t 0 * 5000 + 1 * r.val = 5000 * t.val + r.val; rw [hi.1]; omega
    | ⟨1, _⟩ => show win0_6.index t 1 * 64 + 1 * q.val = q.val; rw [hi.2]; omega
  rw [e]
  exact affine_of_rows (iblk0 V c 0 t) (V c main_arg5) (V c main_arg6) (V c main_arg0) r q _
    (fun k => feat_block V c t (ix2 r k) (ix2 _ k) rfl rfl)

/-- What point `t` writes back to the second output is block `t` of the positional encoding. -/
theorem flushed_p (t : Fin cfg0.N) :
    (dat0 (F := Ideal) V c).flushed 7 t
      = ((cfg0.win 7).blk t).view.read (Elt Ideal) (posEnc (V c main_arg1) (V c main_arg3) (V c main_arg4)) := by
  show (cfg0.win 7).cut (grid0.coords t) ((dat0 V c).after 7 t) = _
  rw [after0_7]
  unfold out0_7
  rw [View.canon_unit_zero zero2]
  simp only [View.ld_unit_zero (S := S5000x16) zero2, View.ld_unit_zero (S := S16x64) zero2, View.ld_unit_zero (S := S64) zero1]
  rw [wpos_block, bpos_block]
  have hi := (block_index t).2.2.2.2.2.2.2
  funext j
  show k0_pay2 (iblk0 V c 1 t) (V c main_arg3) (V c main_arg4) j
    = posEnc (V c main_arg1) (V c main_arg3) (V c main_arg4) (((cfg0.win 7).blk t).view.emb j)
  obtain ⟨r, q, rfl⟩ : ∃ (r : Fin 5000) (q : Fin 64), j = ix2 r q := ⟨j 0, j 1, eq_ix2 j⟩
  have hN : cfg0.N = 10 := N_0
  have ht : t.val < 10 := hN ▸ t.isLt
  have e : ((cfg0.win 7).blk t).view.emb (ix2 r q) = ix2 (⟨5000 * t.val + r.val, by omega⟩ : Fin 50000) q := by
    funext a
    apply Fin.ext
    match a with
    | ⟨0, _⟩ => show win0_7.index t 0 * 5000 + 1 * r.val = 5000 * t.val + r.val; rw [hi.1]; omega
    | ⟨1, _⟩ => show win0_7.index t 1 * 64 + 1 * q.val = q.val; rw [hi.2]; omega
  rw [e]
  exact posEnc_of_rows (iblk0 V c 1 t) (V c main_arg3) (V c main_arg4) (V c main_arg1) r q _
    (fun k => pos_block V c t (ix2 r k) (ix2 _ k) rfl rfl)

/-! ## The ten blocks fill the array -/

/-- An entry of the first output array is in point `t`'s block iff each coordinate is in the block's range. -/
theorem mem_block_h (t : Fin cfg0.N) (i : S50000x64.Idx) :
    i ∈ ((cfg0.win 6).blk t).view.set ↔ ∀ a : Fin 2, win0_6.index t a * S5000x64.size a ≤ (i a).val ∧ (i a).val < win0_6.index t a * S5000x64.size a + S5000x64.size a := by
  show i ∈ ((View.whole main_v11_0).slice (win0_6.rect t)).set ↔ _
  rw [View.set_slice_whole, Rect.mem_set_unit]
  exact Iff.rfl

/-- The same for the second output array. -/
theorem mem_block_p (t : Fin cfg0.N) (i : S50000x64.Idx) :
    i ∈ ((cfg0.win 7).blk t).view.set ↔ ∀ a : Fin 2, win0_7.index t a * S5000x64.size a ≤ (i a).val ∧ (i a).val < win0_7.index t a * S5000x64.size a + S5000x64.size a := by
  show i ∈ ((View.whole main_v11_1).slice (win0_7.rect t)).set ↔ _
  rw [View.set_slice_whole, Rect.mem_set_unit]
  exact Iff.rfl

/-- Row `ρ` of either output is in the block of point `ρ / 5000`. -/
theorem row_point (i : S50000x64.Idx) : (i 0).val / 5000 < cfg0.N := by
  have h0 : (i 0).val < 50000 := idx2_lt0 i
  rw [show cfg0.N = 10 from N_0]
  omega

theorem cover_h (i : S50000x64.Idx) :
    ∃ t : Fin cfg0.N, (cfg0.win 6).flush t = true ∧ i ∈ ((cfg0.win 6).blk t).view.set := by
  have h0 : (i 0).val < 50000 := idx2_lt0 i
  have h1 : (i 1).val < 64 := idx2_lt1 i
  refine ⟨⟨(i 0).val / 5000, row_point i⟩, flush0_6 _, ?_⟩
  rw [mem_block_h]
  have hi := (block_index ⟨(i 0).val / 5000, row_point i⟩).2.2.2.2.2.2.1
  intro a
  match a with
  | ⟨0, _⟩ =>
    show win0_6.index ⟨(i 0).val / 5000, row_point i⟩ (0 : Fin 2) * 5000 ≤ (i 0).val ∧ (i 0).val < win0_6.index ⟨(i 0).val / 5000, row_point i⟩ (0 : Fin 2) * 5000 + 5000
    rw [hi.1]
    show (i 0).val / 5000 * 5000 ≤ (i 0).val ∧ (i 0).val < (i 0).val / 5000 * 5000 + 5000
    omega
  | ⟨1, _⟩ =>
    show win0_6.index ⟨(i 0).val / 5000, row_point i⟩ (1 : Fin 2) * 64 ≤ (i 1).val ∧ (i 1).val < win0_6.index ⟨(i 0).val / 5000, row_point i⟩ (1 : Fin 2) * 64 + 64
    rw [hi.2]
    omega

theorem cover_p (i : S50000x64.Idx) :
    ∃ t : Fin cfg0.N, (cfg0.win 7).flush t = true ∧ i ∈ ((cfg0.win 7).blk t).view.set := by
  have h0 : (i 0).val < 50000 := idx2_lt0 i
  have h1 : (i 1).val < 64 := idx2_lt1 i
  refine ⟨⟨(i 0).val / 5000, row_point i⟩, flush0_7 _, ?_⟩
  rw [mem_block_p]
  have hi := (block_index ⟨(i 0).val / 5000, row_point i⟩).2.2.2.2.2.2.2
  intro a
  match a with
  | ⟨0, _⟩ =>
    show win0_7.index ⟨(i 0).val / 5000, row_point i⟩ (0 : Fin 2) * 5000 ≤ (i 0).val ∧ (i 0).val < win0_7.index ⟨(i 0).val / 5000, row_point i⟩ (0 : Fin 2) * 5000 + 5000
    rw [hi.1]
    show (i 0).val / 5000 * 5000 ≤ (i 0).val ∧ (i 0).val < (i 0).val / 5000 * 5000 + 5000
    omega
  | ⟨1, _⟩ =>
    show win0_7.index ⟨(i 0).val / 5000, row_point i⟩ (1 : Fin 2) * 64 ≤ (i 1).val ∧ (i 1).val < win0_7.index ⟨(i 0).val / 5000, row_point i⟩ (1 : Fin 2) * 64 + 64
    rw [hi.2]
    omega

/-! ## The two output arrays after the ten points -/

/-- The first output array ends holding `x · w + b` of the feature array, the feature weights and the feature bias. -/
theorem arr_h : (dat0 (F := Ideal) V c).arrAt 6 cfg0.N = affine (V c main_arg0) (V c main_arg5) (V c main_arg6) :=
  (dat0 (F := Ideal) V c).arrAt_eq_of_cover 6 (affine (V c main_arg0) (V c main_arg5) (V c main_arg6))
    (fun t _ => flushed_h V c t) cover_h

/-- The second output array ends holding the positional encoding of the position array. -/
theorem arr_p : (dat0 (F := Ideal) V c).arrAt 7 cfg0.N = posEnc (V c main_arg1) (V c main_arg3) (V c main_arg4) :=
  (dat0 (F := Ideal) V c).arrAt_eq_of_cover 7 (posEnc (V c main_arg1) (V c main_arg3) (V c main_arg4))
    (fun t _ => flushed_p V c t) cover_p

end Cert.KernelIdeal.Region0

end
-- ==== Proof.Region1.lean ====
/-
  One hidden layer's region, from blocks to the whole array.

  The region runs over ten grid points; at point t its body sees rows 5000 t ... 5000 t + 4999 of three row-blocked
  arrays (the neighbourhood means, the nodes' own rows, the positional encoding) together with the whole of the two
  64 x 64 weight matrices and the bias, and stores one 5000 x 64 block. Here: the body's arithmetic read at one entry
  (two products of a row with a weight matrix, contracted over the 64 hidden coordinates, plus the bias, plus the
  positional entry, clipped below at zero); each window's block read as rows of its array; what a point writes back as
  block t of the layer's result `Cert.Sage.convRelu` on the arrays as the region finds them; and, the ten blocks
  covering all 50000 rows (row R lies in block R / 5000), the output array after the region as that one function of the
  entry arrays.
-/
import proofs.«121452_j11587821765290_2_alg».proof.Proof.Gen.KernelIdeal.Frame
import proofs.«121452_j11587821765290_2_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Region1

open Cert.KernelIdeal Cert.KernelIdeal.Gen Cert.Sage Idealize.ShloMosaic Idealize.ShloMosaic.TcCoe Idealize.SL.Sem Idealize.ShloMosaic.ValueIdx
open scoped BigOperators

variable (V : (c : Dev nD) → (b : Ref sig .tc) → Buf (Elt Ideal) ((c : Thread nD τ).loc b)) (c : Dev nD)

/-! ## The body's arithmetic at one entry -/

/-- The left operand's row coordinate under the product's dimension numbers is the result's row. -/
theorem lhs_row (i : S5000x64.Idx) (g : dot_S5000x64_S64x64_S5000x64_1_0_0_1_n_n.contr.Idx) :
    (dot_S5000x64_S64x64_S5000x64_1_0_0_1_n_n.lhsIdx i g 0).val = (i 0).val := by
  unfold DotDims.lhsIdx
  rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
  rfl
/-- Its column coordinate is the contracted position. -/
theorem lhs_col (i : S5000x64.Idx) (g : dot_S5000x64_S64x64_S5000x64_1_0_0_1_n_n.contr.Idx) :
    (dot_S5000x64_S64x64_S5000x64_1_0_0_1_n_n.lhsIdx i g 1).val = (g ⟨0, by decide⟩).val :=
  dot_S5000x64_S64x64_S5000x64_1_0_0_1_n_n.lhsIdx_val_of_single rfl i g
/-- The right operand's row coordinate is the contracted position. -/
theorem rhs_row (i : S5000x64.Idx) (g : dot_S5000x64_S64x64_S5000x64_1_0_0_1_n_n.contr.Idx) :
    (dot_S5000x64_S64x64_S5000x64_1_0_0_1_n_n.rhsIdx i g 0).val = (g ⟨0, by decide⟩).val :=
  dot_S5000x64_S64x64_S5000x64_1_0_0_1_n_n.rhsIdx_val_of_single rfl i g
/-- Its column coordinate is the result's column. -/
theorem rhs_col (i : S5000x64.Idx) (g : dot_S5000x64_S64x64_S5000x64_1_0_0_1_n_n.contr.Idx) :
    (dot_S5000x64_S64x64_S5000x64_1_0_0_1_n_n.rhsIdx i g 1).val = (i 1).val := by
  unfold DotDims.rhsIdx
  rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
  rfl

/-- A product of a 5000-row block with a 64 x 64 matrix, accumulated into zero, read at entry (r, q): the row r of the
    block against the column q of the matrix. -/
theorem matmul_apply_rq (a : FVec Ideal S5000x64 .bf16) (w : FVec Ideal S64x64 .bf16) (r : Fin 5000) (q : Fin 64) :
    matmul dot_S5000x64_S64x64_S5000x64_1_0_0_1_n_n none a w (constant S5000x64 .f32 0x00000000#32) (ix2 r q)
      = ∑ k : Fin 64, a (ix2 r k) * w (ix2 k q) := by
  show FloatOps.matmul dot_S5000x64_S64x64_S5000x64_1_0_0_1_n_n none a w (constant S5000x64 .f32 0x00000000#32) (ix2 r q) = _
  rw [Ideal.matmul_constant_zero_apply, ← Equiv.sum_comp (contrEquiv1 dot_S5000x64_S64x64_S5000x64_1_0_0_1_n_n 64 rfl rfl).symm]
  refine Finset.sum_congr rfl fun k _ => ?_
  have hk := contrEquiv1_symm_val dot_S5000x64_S64x64_S5000x64_1_0_0_1_n_n 64 rfl rfl k
  have el : dot_S5000x64_S64x64_S5000x64_1_0_0_1_n_n.lhsIdx (ix2 r q) ((contrEquiv1 dot_S5000x64_S64x64_S5000x64_1_0_0_1_n_n 64 rfl rfl).symm k) = ix2 r k :=
    funext fun ax => Fin.ext (by
      match ax with
      | ⟨0, _⟩ => exact lhs_row _ _
      | ⟨1, _⟩ => exact (lhs_col _ _).trans hk)
  have er : dot_S5000x64_S64x64_S5000x64_1_0_0_1_n_n.rhsIdx (ix2 r q) ((contrEquiv1 dot_S5000x64_S64x64_S5000x64_1_0_0_1_n_n 64 rfl rfl).symm k) = ix2 k q :=
    funext fun ax => Fin.ext (by
      match ax with
      | ⟨0, _⟩ => exact (rhs_row _ _).trans hk
      | ⟨1, _⟩ => exact rhs_col _ _)
  rw [el, er]

/-- THE BODY'S ARITHMETIC AT ENTRY (r, q) of a block: the two products of the block's rows with the weight matrices, plus
    the bias at q, plus the positional block's entry, clipped below at zero. -/
theorem pay_apply (x0 x1 : Vec Ideal S5000x64 .f32) (x2 x3 : Vec Ideal S64x64 .f32) (x4 : Vec Ideal S64 .f32)
    (x5 : Vec Ideal S5000x64 .f32) (r : Fin 5000) (q : Fin 64) :
    k1_pay1 (F := Ideal) x0 x1 x2 x3 x4 x5 (ix2 r q)
      = max ((∑ k : Fin 64, x0 (ix2 r k) * x2 (ix2 k q)) + (∑ k : Fin 64, x1 (ix2 r k) * x3 (ix2 k q)) + x4 (ix1 q)
          + x5 (ix2 r q)) 0 := by
  unfold k1_pay1
  simp only [shapeCast_self, maximumf_apply, addf_apply, matmul_apply_rq, truncf_apply, broadcastTo_1b_ab_apply,
    shapeCast_a_1a_apply, broadcast_apply]
  show max _ (Ideal.ofBits .f32 0x00000000#32) = _
  rw [Ideal.ofBits_zero_f32]

/-- The block's entry (r, q) is the layer's entry (R, q) of the whole arrays, when the block's rows are the arrays' rows
    at R, its weights and bias the arrays', and its positional entry the array's at (R, q). -/
theorem pay_eq_convRelu (x0 x1 : Vec Ideal S5000x64 .f32) (x2 x3 : Vec Ideal S64x64 .f32) (x4 : Vec Ideal S64 .f32)
    (x5 : Vec Ideal S5000x64 .f32) (a h : Mat 50000 64) (wl wr : Mat 64 64) (b : Vc 64) (p : Mat 50000 64)
    (r : Fin 5000) (q : Fin 64) (R : Fin 50000)
    (h0 : ∀ k : Fin 64, x0 (ix2 r k) = a (ix2 R k)) (h1 : ∀ k : Fin 64, x1 (ix2 r k) = h (ix2 R k))
    (h2 : ∀ k : Fin 64, x2 (ix2 k q) = wl (ix2 k q)) (h3 : ∀ k : Fin 64, x3 (ix2 k q) = wr (ix2 k q))
    (h4 : x4 (ix1 q) = b (ix1 q)) (h5 : x5 (ix2 r q) = p (ix2 R q)) :
    k1_pay1 (F := Ideal) x0 x1 x2 x3 x4 x5 (ix2 r q) = convRelu a h wl wr b p (ix2 R q) := by
  rw [pay_apply]
  show _ = max (convAt a h wl wr b R q + p (ix2 R q)) 0
  unfold convAt
  simp only [h0, h1, h2, h3, h4, h5]

theorem hz2 : (![0, 0] : Fin 2 → Nat) = fun _ => 0 := funext fun a => by fin_cases a <;> rfl
theorem hz1 : (![0] : Fin 1 → Nat) = fun _ => 0 := funext fun a => by fin_cases a <;> rfl

/-- The printed index maps, decided over the grid: the row-blocked windows are at block (t, 0) at point t; the weights
    and the bias at their one block. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 1) = 0
    ∧ win1_5.index t (0 : Fin 2) = t.val ∧ win1_5.index t (1 : Fin 2) = 0
    ∧ win1_6.index t (0 : Fin 2) = t.val ∧ win1_6.index t (1 : Fin 2) = 0 :=
  (by decide +kernel : ∀ t : Fin grid1.N, _)

/-! ## The windows' blocks, read where the output's rectangle says

A block's coordinate in its array is always block index x block size + the coordinate inside the block: at point t the
row-blocked windows hold rows 5000 t ... 5000 t + 4999 of their arrays, the weights and the bias are whole. -/

/-- Row r of the neighbourhood means' block at point t is row 5000 t + r of the array. -/
theorem read_means (t : Fin cfg1.N) (r : Fin 5000) (k : Fin 64) (R : Fin 50000) (hR : R.val = 5000 * t.val + r.val) :
    (iblk1 V c 0 t : Vec Ideal S5000x64 .f32) (ix2 r k) = V c main_v26 (ix2 R k) := by
  obtain ⟨e0, e1, -⟩ := idx_facts t
  show V c main_v26 (((cfg1.win 0).blk t).view.emb (ix2 r k)) = V c main_v26 (ix2 R k)
  refine congrArg (V c main_v26) (funext fun a => Fin.ext ?_)
  match a with
  | ⟨0, _⟩ => show win1_0.index t (0 : Fin 2) * 5000 + 1 * r.val = R.val; omega
  | ⟨1, _⟩ => show win1_0.index t (1 : Fin 2) * 64 + 1 * k.val = k.val; omega

/-- Row r of the nodes' own block at point t is row 5000 t + r of the array. -/
theorem read_rows (t : Fin cfg1.N) (r : Fin 5000) (k : Fin 64) (R : Fin 50000) (hR : R.val = 5000 * t.val + r.val) :
    (iblk1 V c 1 t : Vec Ideal S5000x64 .f32) (ix2 r k) = V c main_v11_0 (ix2 R k) := by
  obtain ⟨-, -, e0, e1, -⟩ := idx_facts t
  show V c main_v11_0 (((cfg1.win 1).blk t).view.emb (ix2 r k)) = V c main_v11_0 (ix2 R k)
  refine congrArg (V c main_v11_0) (funext fun a => Fin.ext ?_)
  match a with
  | ⟨0, _⟩ => show win1_1.index t (0 : Fin 2) * 5000 + 1 * r.val = R.val; omega
  | ⟨1, _⟩ => show win1_1.index t (1 : Fin 2) * 64 + 1 * k.val = k.val; omega

/-- The left weights' one block is the whole matrix. -/
theorem read_wl (t : Fin cfg1.N) (k q : Fin 64) :
    (iblk1 V c 2 t : Vec Ideal S64x64 .f32) (ix2 k q) = V c main_v28 (ix2 k q) := by
  obtain ⟨-, -, -, -, e0, e1, -⟩ := idx_facts t
  show V c main_v28 (((cfg1.win 2).blk t).view.emb (ix2 k q)) = V c main_v28 (ix2 k q)
  refine congrArg (V c main_v28) (funext fun a => Fin.ext ?_)
  match a with
  | ⟨0, _⟩ => show win1_2.index t (0 : Fin 2) * 64 + 1 * k.val = k.val; omega
  | ⟨1, _⟩ => show win1_2.index t (1 : Fin 2) * 64 + 1 * q.val = q.val; omega

/-- The right weights' one block is the whole matrix. -/
theorem read_wr (t : Fin cfg1.N) (k q : Fin 64) :
    (iblk1 V c 3 t : Vec Ideal S64x64 .f32) (ix2 k q) = V c main_v30 (ix2 k q) := by
  obtain ⟨-, -, -, -, -, -, e0, e1, -⟩ := idx_facts t
  show V c main_v30 (((cfg1.win 3).blk t).view.emb (ix2 k q)) = V c main_v30 (ix2 k q)
  refine congrArg (V c main_v30) (funext fun a => Fin.ext ?_)
  match a with
  | ⟨0, _⟩ => show win1_3.index t (0 : Fin 2) * 64 + 1 * k.val = k.val; omega
  | ⟨1, _⟩ => show win1_3.index t (1 : Fin 2) * 64 + 1 * q.val = q.val; omega

/-- The bias's one block is the whole vector. -/
theorem read_bias (t : Fin cfg1.N) (q : Fin 64) :
    (iblk1 V c 4 t : Vec Ideal S64 .f32) (ix1 q) = V c main_v32 (ix1 q) := by
  obtain ⟨-, -, -, -, -, -, -, -, e0, -⟩ := idx_facts t
  show V c main_v32 (((cfg1.win 4).blk t).view.emb (ix1 q)) = V c main_v32 (ix1 q)
  refine congrArg (V c main_v32) (funext fun a => Fin.ext ?_)
  match a with
  | ⟨0, _⟩ => show win1_4.index t (0 : Fin 1) * 64 + 1 * q.val = q.val; omega

/-- Row r of the positional block at point t is row 5000 t + r of the array. -/
theorem read_pos (t : Fin cfg1.N) (r : Fin 5000) (q : Fin 64) (R : Fin 50000) (hR : R.val = 5000 * t.val + r.val) :
    (iblk1 V c 5 t : Vec Ideal S5000x64 .f32) (ix2 r q) = V c main_v11_1 (ix2 R q) := by
  obtain ⟨-, -, -, -, -, -, -, -, -, e0, e1, -⟩ := idx_facts t
  show V c main_v11_1 (((cfg1.win 5).blk t).view.emb (ix2 r q)) = V c main_v11_1 (ix2 R q)
  refine congrArg (V c main_v11_1) (funext fun a => Fin.ext ?_)
  match a with
  | ⟨0, _⟩ => show win1_5.index t (0 : Fin 2) * 5000 + 1 * r.val = R.val; omega
  | ⟨1, _⟩ => show win1_5.index t (1 : Fin 2) * 64 + 1 * q.val = q.val; omega

/-! ## What a point writes back, and the whole array -/

/-- WHAT POINT t WRITES BACK is block t of the layer's result on the arrays as the region finds them. -/
theorem flushed_eq (t : Fin cfg1.N) :
    (dat1 (F := Ideal) V c).flushed 6 t = ((cfg1.win 6).blk t).view.read (Elt Ideal)
      (convRelu (V c main_v26) (V c main_v11_0) (V c main_v28) (V c main_v30) (V c main_v32) (V c main_v11_1)) := by
  show (cfg1.win 6).cut (grid1.coords t) ((dat1 V c).after 6 t) = _
  rw [after1_6]
  unfold out1_6
  rw [View.canon_unit_zero hz2]
  simp only [View.ld_unit_zero (S := S5000x64) hz2, View.ld_unit_zero (S := S64x64) hz2, View.ld_unit_zero (S := S64) hz1]
  funext j
  have hj0 : (j 0).val < 5000 := (j 0).isLt
  have hj1 : (j 1).val < 64 := (j 1).isLt
  have ht : t.val < 10 := by have := t.isLt; have hN : cfg1.N = 10 := N_1; omega
  obtain ⟨-, -, -, -, -, -, -, -, -, -, -, e0, e1⟩ := idx_facts t
  have hL : win1_6.xinj (grid1.coords t) j = ix2 (⟨(j 0).val, hj0⟩ : Fin 5000) (⟨(j 1).val, hj1⟩ : Fin 64) :=
    funext fun a => Fin.ext (by
      match a with
      | ⟨0, _⟩ => rfl
      | ⟨1, _⟩ => rfl)
  have hR : ((cfg1.win 6).blk t).view.emb j
      = ix2 (⟨5000 * t.val + (j 0).val, by omega⟩ : Fin 50000) (⟨(j 1).val, hj1⟩ : Fin 64) :=
    funext fun a => Fin.ext (by
      match a with
      | ⟨0, _⟩ => show win1_6.index t (0 : Fin 2) * 5000 + 1 * (j 0).val = 5000 * t.val + (j 0).val; omega
      | ⟨1, _⟩ => show win1_6.index t (1 : Fin 2) * 64 + 1 * (j 1).val = (j 1).val; omega)
  show k1_pay1 (F := Ideal) (iblk1 V c 0 t) (iblk1 V c 1 t) (iblk1 V c 2 t) (iblk1 V c 3 t) (iblk1 V c 4 t) (iblk1 V c 5 t)
      (win1_6.xinj (grid1.coords t) j)
    = convRelu (V c main_v26) (V c main_v11_0) (V c main_v28) (V c main_v30) (V c main_v32) (V c main_v11_1)
      (((cfg1.win 6).blk t).view.emb j)
  rw [hL, hR]
  exact pay_eq_convRelu _ _ _ _ _ _ _ _ _ _ _ _ _ _ _
    (fun k => read_means V c t _ k _ rfl) (fun k => read_rows V c t _ k _ rfl)
    (fun k => read_wl V c t k _) (fun k => read_wr V c t k _) (read_bias V c t _) (read_pos V c t _ _ _ rfl)

/-- An index of the array is in point t's block iff each coordinate is in the block's range on its axis. -/
theorem mem_blk (t : Fin cfg1.N) (i : S50000x64.Idx) :
    i ∈ ((cfg1.win 6).blk t).view.set ↔ ∀ a : Fin 2, win1_6.index t a * S5000x64.size a ≤ (i a).val
      ∧ (i a).val < win1_6.index t a * S5000x64.size a + S5000x64.size a := by
  show i ∈ ((View.whole main_v33).slice (win1_6.rect t)).set ↔ _
  rw [View.set_slice_whole, Rect.mem_set_unit]
  exact Iff.rfl

/-- Every index of the array is in the block of the point its row falls in: row R is covered by point R / 5000. -/
theorem cover (i : S50000x64.Idx) :
    ∃ t : Fin cfg1.N, (cfg1.win 6).flush t = true ∧ i ∈ ((cfg1.win 6).blk t).view.set := by
  have hi0 : (i 0).val < 50000 := (i 0).isLt
  have hi1 : (i 1).val < 64 := (i 1).isLt
  have hN : cfg1.N = 10 := N_1
  obtain ⟨t, ht⟩ : ∃ t : Fin cfg1.N, t.val = (i 0).val / 5000 := ⟨⟨(i 0).val / 5000, by omega⟩, rfl⟩
  refine ⟨t, flush1_6 t, ?_⟩
  rw [mem_blk]
  obtain ⟨-, -, -, -, -, -, -, -, -, -, -, e0, e1⟩ := idx_facts t
  intro a
  match a with
  | ⟨0, _⟩ =>
    show win1_6.index t (0 : Fin 2) * 5000 ≤ (i 0).val ∧ (i 0).val < win1_6.index t (0 : Fin 2) * 5000 + 5000
    omega
  | ⟨1, _⟩ =>
    show win1_6.index t (1 : Fin 2) * 64 ≤ (i 1).val ∧ (i 1).val < win1_6.index t (1 : Fin 2) * 64 + 64
    omega

/-- THE ARRAY after all ten points: the layer's result on the arrays as the region finds them. -/
theorem arr_h : (dat1 (F := Ideal) V c).arrAt 6 cfg1.N
    = convRelu (V c main_v26) (V c main_v11_0) (V c main_v28) (V c main_v30) (V c main_v32) (V c main_v11_1) :=
  (dat1 (F := Ideal) V c).arrAt_eq_of_cover 6 _ (fun t _ => flushed_eq V c t) cover

end Cert.KernelIdeal.Region1

end
-- ==== Proof.Region2.lean ====
/-
  One hidden layer's region, from blocks to the whole array.

  The region runs over ten grid points; at point t its body sees rows 5000 t ... 5000 t + 4999 of three row-blocked
  arrays (the neighbourhood means, the nodes' own rows, the positional encoding) together with the whole of the two
  64 x 64 weight matrices and the bias, and stores one 5000 x 64 block. Here: the body's arithmetic read at one entry
  (two products of a row with a weight matrix, contracted over the 64 hidden coordinates, plus the bias, plus the
  positional entry, clipped below at zero); each window's block read as rows of its array; what a point writes back as
  block t of the layer's result `Cert.Sage.convRelu` on the arrays as the region finds them; and, the ten blocks
  covering all 50000 rows (row R lies in block R / 5000), the output array after the region as that one function of the
  entry arrays.
-/
import proofs.«121452_j11587821765290_2_alg».proof.Proof.Gen.KernelIdeal.Frame
import proofs.«121452_j11587821765290_2_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Region2

open Cert.KernelIdeal Cert.KernelIdeal.Gen Cert.Sage Idealize.ShloMosaic Idealize.ShloMosaic.TcCoe Idealize.SL.Sem Idealize.ShloMosaic.ValueIdx
open scoped BigOperators

variable (V : (c : Dev nD) → (b : Ref sig .tc) → Buf (Elt Ideal) ((c : Thread nD τ).loc b)) (c : Dev nD)

/-! ## The body's arithmetic at one entry -/

/-- The left operand's row coordinate under the product's dimension numbers is the result's row. -/
theorem lhs_row (i : S5000x64.Idx) (g : dot_S5000x64_S64x64_S5000x64_1_0_0_1_n_n.contr.Idx) :
    (dot_S5000x64_S64x64_S5000x64_1_0_0_1_n_n.lhsIdx i g 0).val = (i 0).val := by
  unfold DotDims.lhsIdx
  rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
  rfl
/-- Its column coordinate is the contracted position. -/
theorem lhs_col (i : S5000x64.Idx) (g : dot_S5000x64_S64x64_S5000x64_1_0_0_1_n_n.contr.Idx) :
    (dot_S5000x64_S64x64_S5000x64_1_0_0_1_n_n.lhsIdx i g 1).val = (g ⟨0, by decide⟩).val :=
  dot_S5000x64_S64x64_S5000x64_1_0_0_1_n_n.lhsIdx_val_of_single rfl i g
/-- The right operand's row coordinate is the contracted position. -/
theorem rhs_row (i : S5000x64.Idx) (g : dot_S5000x64_S64x64_S5000x64_1_0_0_1_n_n.contr.Idx) :
    (dot_S5000x64_S64x64_S5000x64_1_0_0_1_n_n.rhsIdx i g 0).val = (g ⟨0, by decide⟩).val :=
  dot_S5000x64_S64x64_S5000x64_1_0_0_1_n_n.rhsIdx_val_of_single rfl i g
/-- Its column coordinate is the result's column. -/
theorem rhs_col (i : S5000x64.Idx) (g : dot_S5000x64_S64x64_S5000x64_1_0_0_1_n_n.contr.Idx) :
    (dot_S5000x64_S64x64_S5000x64_1_0_0_1_n_n.rhsIdx i g 1).val = (i 1).val := by
  unfold DotDims.rhsIdx
  rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
  rfl

/-- A product of a 5000-row block with a 64 x 64 matrix, accumulated into zero, read at entry (r, q): the row r of the
    block against the column q of the matrix. -/
theorem matmul_apply_rq (a : FVec Ideal S5000x64 .bf16) (w : FVec Ideal S64x64 .bf16) (r : Fin 5000) (q : Fin 64) :
    matmul dot_S5000x64_S64x64_S5000x64_1_0_0_1_n_n none a w (constant S5000x64 .f32 0x00000000#32) (ix2 r q)
      = ∑ k : Fin 64, a (ix2 r k) * w (ix2 k q) := by
  show FloatOps.matmul dot_S5000x64_S64x64_S5000x64_1_0_0_1_n_n none a w (constant S5000x64 .f32 0x00000000#32) (ix2 r q) = _
  rw [Ideal.matmul_constant_zero_apply, ← Equiv.sum_comp (contrEquiv1 dot_S5000x64_S64x64_S5000x64_1_0_0_1_n_n 64 rfl rfl).symm]
  refine Finset.sum_congr rfl fun k _ => ?_
  have hk := contrEquiv1_symm_val dot_S5000x64_S64x64_S5000x64_1_0_0_1_n_n 64 rfl rfl k
  have el : dot_S5000x64_S64x64_S5000x64_1_0_0_1_n_n.lhsIdx (ix2 r q) ((contrEquiv1 dot_S5000x64_S64x64_S5000x64_1_0_0_1_n_n 64 rfl rfl).symm k) = ix2 r k :=
    funext fun ax => Fin.ext (by
      match ax with
      | ⟨0, _⟩ => exact lhs_row _ _
      | ⟨1, _⟩ => exact (lhs_col _ _).trans hk)
  have er : dot_S5000x64_S64x64_S5000x64_1_0_0_1_n_n.rhsIdx (ix2 r q) ((contrEquiv1 dot_S5000x64_S64x64_S5000x64_1_0_0_1_n_n 64 rfl rfl).symm k) = ix2 k q :=
    funext fun ax => Fin.ext (by
      match ax with
      | ⟨0, _⟩ => exact (rhs_row _ _).trans hk
      | ⟨1, _⟩ => exact rhs_col _ _)
  rw [el, er]

/-- THE BODY'S ARITHMETIC AT ENTRY (r, q) of a block: the two products of the block's rows with the weight matrices, plus
    the bias at q, plus the positional block's entry, clipped below at zero. -/
theorem pay_apply (x0 x1 : Vec Ideal S5000x64 .f32) (x2 x3 : Vec Ideal S64x64 .f32) (x4 : Vec Ideal S64 .f32)
    (x5 : Vec Ideal S5000x64 .f32) (r : Fin 5000) (q : Fin 64) :
    k2_pay1 (F := Ideal) x0 x1 x2 x3 x4 x5 (ix2 r q)
      = max ((∑ k : Fin 64, x0 (ix2 r k) * x2 (ix2 k q)) + (∑ k : Fin 64, x1 (ix2 r k) * x3 (ix2 k q)) + x4 (ix1 q)
          + x5 (ix2 r q)) 0 := by
  unfold k2_pay1
  simp only [shapeCast_self, maximumf_apply, addf_apply, matmul_apply_rq, truncf_apply, broadcastTo_1b_ab_apply,
    shapeCast_a_1a_apply, broadcast_apply]
  show max _ (Ideal.ofBits .f32 0x00000000#32) = _
  rw [Ideal.ofBits_zero_f32]

/-- The block's entry (r, q) is the layer's entry (R, q) of the whole arrays, when the block's rows are the arrays' rows
    at R, its weights and bias the arrays', and its positional entry the array's at (R, q). -/
theorem pay_eq_convRelu (x0 x1 : Vec Ideal S5000x64 .f32) (x2 x3 : Vec Ideal S64x64 .f32) (x4 : Vec Ideal S64 .f32)
    (x5 : Vec Ideal S5000x64 .f32) (a h : Mat 50000 64) (wl wr : Mat 64 64) (b : Vc 64) (p : Mat 50000 64)
    (r : Fin 5000) (q : Fin 64) (R : Fin 50000)
    (h0 : ∀ k : Fin 64, x0 (ix2 r k) = a (ix2 R k)) (h1 : ∀ k : Fin 64, x1 (ix2 r k) = h (ix2 R k))
    (h2 : ∀ k : Fin 64, x2 (ix2 k q) = wl (ix2 k q)) (h3 : ∀ k : Fin 64, x3 (ix2 k q) = wr (ix2 k q))
    (h4 : x4 (ix1 q) = b (ix1 q)) (h5 : x5 (ix2 r q) = p (ix2 R q)) :
    k2_pay1 (F := Ideal) x0 x1 x2 x3 x4 x5 (ix2 r q) = convRelu a h wl wr b p (ix2 R q) := by
  rw [pay_apply]
  show _ = max (convAt a h wl wr b R q + p (ix2 R q)) 0
  unfold convAt
  simp only [h0, h1, h2, h3, h4, h5]

theorem hz2 : (![0, 0] : Fin 2 → Nat) = fun _ => 0 := funext fun a => by fin_cases a <;> rfl
theorem hz1 : (![0] : Fin 1 → Nat) = fun _ => 0 := funext fun a => by fin_cases a <;> rfl

/-- The printed index maps, decided over the grid: the row-blocked windows are at block (t, 0) at point t; the weights
    and the bias at their one block. -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 1) = 0
    ∧ win2_5.index t (0 : Fin 2) = t.val ∧ win2_5.index t (1 : Fin 2) = 0
    ∧ win2_6.index t (0 : Fin 2) = t.val ∧ win2_6.index t (1 : Fin 2) = 0 :=
  (by decide +kernel : ∀ t : Fin grid2.N, _)

/-! ## The windows' blocks, read where the output's rectangle says

A block's coordinate in its array is always block index x block size + the coordinate inside the block: at point t the
row-blocked windows hold rows 5000 t ... 5000 t + 4999 of their arrays, the weights and the bias are whole. -/

/-- Row r of the neighbourhood means' block at point t is row 5000 t + r of the array. -/
theorem read_means (t : Fin cfg2.N) (r : Fin 5000) (k : Fin 64) (R : Fin 50000) (hR : R.val = 5000 * t.val + r.val) :
    (iblk2 V c 0 t : Vec Ideal S5000x64 .f32) (ix2 r k) = V c main_v48 (ix2 R k) := by
  obtain ⟨e0, e1, -⟩ := idx_facts t
  show V c main_v48 (((cfg2.win 0).blk t).view.emb (ix2 r k)) = V c main_v48 (ix2 R k)
  refine congrArg (V c main_v48) (funext fun a => Fin.ext ?_)
  match a with
  | ⟨0, _⟩ => show win2_0.index t (0 : Fin 2) * 5000 + 1 * r.val = R.val; omega
  | ⟨1, _⟩ => show win2_0.index t (1 : Fin 2) * 64 + 1 * k.val = k.val; omega

/-- Row r of the nodes' own block at point t is row 5000 t + r of the array. -/
theorem read_rows (t : Fin cfg2.N) (r : Fin 5000) (k : Fin 64) (R : Fin 50000) (hR : R.val = 5000 * t.val + r.val) :
    (iblk2 V c 1 t : Vec Ideal S5000x64 .f32) (ix2 r k) = V c main_v33 (ix2 R k) := by
  obtain ⟨-, -, e0, e1, -⟩ := idx_facts t
  show V c main_v33 (((cfg2.win 1).blk t).view.emb (ix2 r k)) = V c main_v33 (ix2 R k)
  refine congrArg (V c main_v33) (funext fun a => Fin.ext ?_)
  match a with
  | ⟨0, _⟩ => show win2_1.index t (0 : Fin 2) * 5000 + 1 * r.val = R.val; omega
  | ⟨1, _⟩ => show win2_1.index t (1 : Fin 2) * 64 + 1 * k.val = k.val; omega

/-- The left weights' one block is the whole matrix. -/
theorem read_wl (t : Fin cfg2.N) (k q : Fin 64) :
    (iblk2 V c 2 t : Vec Ideal S64x64 .f32) (ix2 k q) = V c main_v50 (ix2 k q) := by
  obtain ⟨-, -, -, -, e0, e1, -⟩ := idx_facts t
  show V c main_v50 (((cfg2.win 2).blk t).view.emb (ix2 k q)) = V c main_v50 (ix2 k q)
  refine congrArg (V c main_v50) (funext fun a => Fin.ext ?_)
  match a with
  | ⟨0, _⟩ => show win2_2.index t (0 : Fin 2) * 64 + 1 * k.val = k.val; omega
  | ⟨1, _⟩ => show win2_2.index t (1 : Fin 2) * 64 + 1 * q.val = q.val; omega

/-- The right weights' one block is the whole matrix. -/
theorem read_wr (t : Fin cfg2.N) (k q : Fin 64) :
    (iblk2 V c 3 t : Vec Ideal S64x64 .f32) (ix2 k q) = V c main_v52 (ix2 k q) := by
  obtain ⟨-, -, -, -, -, -, e0, e1, -⟩ := idx_facts t
  show V c main_v52 (((cfg2.win 3).blk t).view.emb (ix2 k q)) = V c main_v52 (ix2 k q)
  refine congrArg (V c main_v52) (funext fun a => Fin.ext ?_)
  match a with
  | ⟨0, _⟩ => show win2_3.index t (0 : Fin 2) * 64 + 1 * k.val = k.val; omega
  | ⟨1, _⟩ => show win2_3.index t (1 : Fin 2) * 64 + 1 * q.val = q.val; omega

/-- The bias's one block is the whole vector. -/
theorem read_bias (t : Fin cfg2.N) (q : Fin 64) :
    (iblk2 V c 4 t : Vec Ideal S64 .f32) (ix1 q) = V c main_v54 (ix1 q) := by
  obtain ⟨-, -, -, -, -, -, -, -, e0, -⟩ := idx_facts t
  show V c main_v54 (((cfg2.win 4).blk t).view.emb (ix1 q)) = V c main_v54 (ix1 q)
  refine congrArg (V c main_v54) (funext fun a => Fin.ext ?_)
  match a with
  | ⟨0, _⟩ => show win2_4.index t (0 : Fin 1) * 64 + 1 * q.val = q.val; omega

/-- Row r of the positional block at point t is row 5000 t + r of the array. -/
theorem read_pos (t : Fin cfg2.N) (r : Fin 5000) (q : Fin 64) (R : Fin 50000) (hR : R.val = 5000 * t.val + r.val) :
    (iblk2 V c 5 t : Vec Ideal S5000x64 .f32) (ix2 r q) = V c main_v11_1 (ix2 R q) := by
  obtain ⟨-, -, -, -, -, -, -, -, -, e0, e1, -⟩ := idx_facts t
  show V c main_v11_1 (((cfg2.win 5).blk t).view.emb (ix2 r q)) = V c main_v11_1 (ix2 R q)
  refine congrArg (V c main_v11_1) (funext fun a => Fin.ext ?_)
  match a with
  | ⟨0, _⟩ => show win2_5.index t (0 : Fin 2) * 5000 + 1 * r.val = R.val; omega
  | ⟨1, _⟩ => show win2_5.index t (1 : Fin 2) * 64 + 1 * q.val = q.val; omega

/-! ## What a point writes back, and the whole array -/

/-- WHAT POINT t WRITES BACK is block t of the layer's result on the arrays as the region finds them. -/
theorem flushed_eq (t : Fin cfg2.N) :
    (dat2 (F := Ideal) V c).flushed 6 t = ((cfg2.win 6).blk t).view.read (Elt Ideal)
      (convRelu (V c main_v48) (V c main_v33) (V c main_v50) (V c main_v52) (V c main_v54) (V c main_v11_1)) := by
  show (cfg2.win 6).cut (grid2.coords t) ((dat2 V c).after 6 t) = _
  rw [after2_6]
  unfold out2_6
  rw [View.canon_unit_zero hz2]
  simp only [View.ld_unit_zero (S := S5000x64) hz2, View.ld_unit_zero (S := S64x64) hz2, View.ld_unit_zero (S := S64) hz1]
  funext j
  have hj0 : (j 0).val < 5000 := (j 0).isLt
  have hj1 : (j 1).val < 64 := (j 1).isLt
  have ht : t.val < 10 := by have := t.isLt; have hN : cfg2.N = 10 := N_2; omega
  obtain ⟨-, -, -, -, -, -, -, -, -, -, -, e0, e1⟩ := idx_facts t
  have hL : win2_6.xinj (grid2.coords t) j = ix2 (⟨(j 0).val, hj0⟩ : Fin 5000) (⟨(j 1).val, hj1⟩ : Fin 64) :=
    funext fun a => Fin.ext (by
      match a with
      | ⟨0, _⟩ => rfl
      | ⟨1, _⟩ => rfl)
  have hR : ((cfg2.win 6).blk t).view.emb j
      = ix2 (⟨5000 * t.val + (j 0).val, by omega⟩ : Fin 50000) (⟨(j 1).val, hj1⟩ : Fin 64) :=
    funext fun a => Fin.ext (by
      match a with
      | ⟨0, _⟩ => show win2_6.index t (0 : Fin 2) * 5000 + 1 * (j 0).val = 5000 * t.val + (j 0).val; omega
      | ⟨1, _⟩ => show win2_6.index t (1 : Fin 2) * 64 + 1 * (j 1).val = (j 1).val; omega)
  show k2_pay1 (F := Ideal) (iblk2 V c 0 t) (iblk2 V c 1 t) (iblk2 V c 2 t) (iblk2 V c 3 t) (iblk2 V c 4 t) (iblk2 V c 5 t)
      (win2_6.xinj (grid2.coords t) j)
    = convRelu (V c main_v48) (V c main_v33) (V c main_v50) (V c main_v52) (V c main_v54) (V c main_v11_1)
      (((cfg2.win 6).blk t).view.emb j)
  rw [hL, hR]
  exact pay_eq_convRelu _ _ _ _ _ _ _ _ _ _ _ _ _ _ _
    (fun k => read_means V c t _ k _ rfl) (fun k => read_rows V c t _ k _ rfl)
    (fun k => read_wl V c t k _) (fun k => read_wr V c t k _) (read_bias V c t _) (read_pos V c t _ _ _ rfl)

/-- An index of the array is in point t's block iff each coordinate is in the block's range on its axis. -/
theorem mem_blk (t : Fin cfg2.N) (i : S50000x64.Idx) :
    i ∈ ((cfg2.win 6).blk t).view.set ↔ ∀ a : Fin 2, win2_6.index t a * S5000x64.size a ≤ (i a).val
      ∧ (i a).val < win2_6.index t a * S5000x64.size a + S5000x64.size a := by
  show i ∈ ((View.whole main_v55).slice (win2_6.rect t)).set ↔ _
  rw [View.set_slice_whole, Rect.mem_set_unit]
  exact Iff.rfl

/-- Every index of the array is in the block of the point its row falls in: row R is covered by point R / 5000. -/
theorem cover (i : S50000x64.Idx) :
    ∃ t : Fin cfg2.N, (cfg2.win 6).flush t = true ∧ i ∈ ((cfg2.win 6).blk t).view.set := by
  have hi0 : (i 0).val < 50000 := (i 0).isLt
  have hi1 : (i 1).val < 64 := (i 1).isLt
  have hN : cfg2.N = 10 := N_2
  obtain ⟨t, ht⟩ : ∃ t : Fin cfg2.N, t.val = (i 0).val / 5000 := ⟨⟨(i 0).val / 5000, by omega⟩, rfl⟩
  refine ⟨t, flush2_6 t, ?_⟩
  rw [mem_blk]
  obtain ⟨-, -, -, -, -, -, -, -, -, -, -, e0, e1⟩ := idx_facts t
  intro a
  match a with
  | ⟨0, _⟩ =>
    show win2_6.index t (0 : Fin 2) * 5000 ≤ (i 0).val ∧ (i 0).val < win2_6.index t (0 : Fin 2) * 5000 + 5000
    omega
  | ⟨1, _⟩ =>
    show win2_6.index t (1 : Fin 2) * 64 ≤ (i 1).val ∧ (i 1).val < win2_6.index t (1 : Fin 2) * 64 + 64
    omega

/-- THE ARRAY after all ten points: the layer's result on the arrays as the region finds them. -/
theorem arr_h : (dat2 (F := Ideal) V c).arrAt 6 cfg2.N
    = convRelu (V c main_v48) (V c main_v33) (V c main_v50) (V c main_v52) (V c main_v54) (V c main_v11_1) :=
  (dat2 (F := Ideal) V c).arrAt_eq_of_cover 6 _ (fun t _ => flushed_eq V c t) cover

end Cert.KernelIdeal.Region2

end
-- ==== Proof.Region3.lean ====
/-
  The last region of the network, read as mathematics. Each of the ten grid points takes rows 5000·t … 5000·t + 4999 of
  the neighbourhood means and of the nodes' own rows, together with the whole of the two layer matrices, the layer bias, the
  classifier matrix and the classifier bias, and stores two blocks of 5000 rows and 40 columns: the class scores
  ((a · wl + h · wr + b) · wlast + blast, row by row) and their row-wise log-softmax (the score minus the row's maximum,
  minus the logarithm of the row's sum of exponentials of the shifted scores). Every entry of either result depends only on
  its own row of the row-blocked operands, so block t of the result is block t of ONE function of the whole arrays; the ten
  blocks tile the 50000 rows (row R lies in block R / 5000), so after the last point each result array is that function of
  the arrays the region was entered with: the specification's `emb` and `logSoftmax (emb …)`.

  Order of the file: layout steps at an index (a vector laid as a row or as a column and spread), the two matrix products at
  an entry, the row maximum and the row sum at a row, the two stored blocks at an entry, the same against the specification
  under "the loaded blocks are these rows of these arrays", each loaded block as rows of its array, what a point writes
  back, the cover, the two arrays.
-/
import proofs.«121452_j11587821765290_2_alg».proof.Proof.Gen.KernelIdeal.Frame
import proofs.«121452_j11587821765290_2_alg».proof.Proof.Spec
import Idealize.ShloMosaic.Lib.Pipeline.Value
import Idealize.ShloMosaic.Lib.ValueIdx
import Idealize.ShloMosaic.Lib.ValueLayout
import Idealize.ShloMosaic.PureOps.Ideal.Laws
noncomputable section
namespace Cert.KernelIdeal.Region3
open Cert.KernelIdeal Cert.KernelIdeal.Gen Cert.Sage Idealize.ShloMosaic Idealize.ShloMosaic.TcCoe Idealize.SL.Sem Idealize.ShloMosaic.ValueIdx
open scoped BigOperators

/-! ## Layout steps read at an index given by its coordinates -/

section Layout
variable {α : Type}

/-- A vector of length a viewed as a column [a, 1] reads, at (i, u), the vector at i. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column [a, 1] spread over b columns reads, at (p, c), the column at p. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector of length b laid as one row and spread over a rows reads, at (p, c), the vector at c. -/
theorem rowSpread_apply {a b : ℕ} (v : (⟨1, ![b]⟩ : Shape).Idx → α)
    (h1 : (⟨1, ![b]⟩ : Shape).ShapeCasts ⟨2, ![1, b]⟩) (h2 : (⟨2, ![1, b]⟩ : Shape).Broadcasts ⟨2, ![a, b]⟩)
    (p : Fin a) (c : Fin b) :
    broadcastTo ⟨2, ![a, b]⟩ (shapeCast ⟨2, ![1, b]⟩ v h1) h2 (ix2 p c) = v (ix1 c) := by
  rw [broadcastTo_1b_ab_apply, shapeCast_a_1a_apply]

/-- A vector of length a laid as a column and spread over b columns reads, at (p, c), the vector at p. -/
theorem colSpread_apply {a b : ℕ} (v : (⟨1, ![a]⟩ : Shape).Idx → α)
    (h1 : (⟨1, ![a]⟩ : Shape).ShapeCasts ⟨2, ![a, 1]⟩) (h2 : (⟨2, ![a, 1]⟩ : Shape).Broadcasts ⟨2, ![a, b]⟩)
    (p : Fin a) (c : Fin b) :
    broadcastTo ⟨2, ![a, b]⟩ (shapeCast ⟨2, ![a, 1]⟩ v h1) h2 (ix2 p c) = v (ix1 p) := by
  rw [broadcastTo_a1_ab_apply, shapeCast_a_a1_apply]

end Layout

/-! ## The two matrix products read at an entry -/

/-- A 5000×64 block times a 64×64 matrix, accumulated into zero, at row r and column q: the row against the column. -/
theorem matmul64_apply {φ₁ φ₂ : FTy} (l : FVec Ideal S5000x64 φ₁) (w : FVec Ideal S64x64 φ₂) (r : Fin 5000) (q : Fin 64) :
    matmul dot_S5000x64_S64x64_S5000x64_1_0_0_1_n_n none l w (constant (F := Ideal) S5000x64 .f32 0x00000000#32) (ix2 r q)
      = ∑ k : Fin 64, l (ix2 r k) * w (ix2 k q) := by
  show FloatOps.matmul _ none l w _ (ix2 r q) = _
  rw [Ideal.matmul_constant_zero_apply,
    ← Equiv.sum_comp (contrEquiv1 dot_S5000x64_S64x64_S5000x64_1_0_0_1_n_n 64 rfl rfl).symm]
  refine Finset.sum_congr rfl fun k _ => ?_
  have c2 := contrEquiv1_symm_val dot_S5000x64_S64x64_S5000x64_1_0_0_1_n_n 64 rfl rfl k
  have l2 : dot_S5000x64_S64x64_S5000x64_1_0_0_1_n_n.lhsIdx (ix2 r q) ((contrEquiv1 _ 64 rfl rfl).symm k) = ix2 r k := by
    funext ax; apply Fin.ext
    match ax with
    | ⟨0, _⟩ => rfl
    | ⟨1, _⟩ => exact (DotDims.lhsIdx_val_of_single _ rfl _ _).trans c2
  have r2 : dot_S5000x64_S64x64_S5000x64_1_0_0_1_n_n.rhsIdx (ix2 r q) ((contrEquiv1 _ 64 rfl rfl).symm k) = ix2 k q := by
    funext ax; apply Fin.ext
    match ax with
    | ⟨0, _⟩ => exact (DotDims.rhsIdx_val_of_single _ rfl _ _).trans c2
    | ⟨1, _⟩ => rfl
  rw [l2, r2]

/-- A 5000×64 block times the 64×40 classifier matrix, accumulated into zero, at row r and column q. -/
theorem matmul40_apply {φ₁ φ₂ : FTy} (l : FVec Ideal S5000x64 φ₁) (w : FVec Ideal S64x40 φ₂) (r : Fin 5000) (q : Fin 40) :
    matmul dot_S5000x64_S64x40_S5000x40_1_0_0_1_n_n none l w (constant (F := Ideal) S5000x40 .f32 0x00000000#32) (ix2 r q)
      = ∑ k : Fin 64, l (ix2 r k) * w (ix2 k q) := by
  show FloatOps.matmul _ none l w _ (ix2 r q) = _
  rw [Ideal.matmul_constant_zero_apply,
    ← Equiv.sum_comp (contrEquiv1 dot_S5000x64_S64x40_S5000x40_1_0_0_1_n_n 64 rfl rfl).symm]
  refine Finset.sum_congr rfl fun k _ => ?_
  have c2 := contrEquiv1_symm_val dot_S5000x64_S64x40_S5000x40_1_0_0_1_n_n 64 rfl rfl k
  have l2 : dot_S5000x64_S64x40_S5000x40_1_0_0_1_n_n.lhsIdx (ix2 r q) ((contrEquiv1 _ 64 rfl rfl).symm k) = ix2 r k := by
    funext ax; apply Fin.ext
    match ax with
    | ⟨0, _⟩ => rfl
    | ⟨1, _⟩ => exact (DotDims.lhsIdx_val_of_single _ rfl _ _).trans c2
  have r2 : dot_S5000x64_S64x40_S5000x40_1_0_0_1_n_n.rhsIdx (ix2 r q) ((contrEquiv1 _ 64 rfl rfl).symm k) = ix2 k q := by
    funext ax; apply Fin.ext
    match ax with
    | ⟨0, _⟩ => exact (DotDims.rhsIdx_val_of_single _ rfl _ _).trans c2
    | ⟨1, _⟩ => rfl
  rw [l2, r2]

/-! ## The two row reductions read at a row -/

/-- The word the maximum starts from is the least extended real. -/
theorem ofBits_negInf : Ideal.ofBits .f32 0xFF800000#32 = (⊥ : EReal) := by simp [Ideal.ofBits, Ideal.ieee]

/-- The index the reduction over the columns reads: row r, column k. -/
theorem lift_row (h : S5000x40.Reduces [1] S5000) (r : Fin 5000) (k : Fin 40) : h.lift (ix1 r) k = ix2 r k := by
  funext ax; apply Fin.ext
  match ax with
  | ⟨0, _⟩ => rfl
  | ⟨1, _⟩ => rfl

/-- The maximum over the 40 columns of a 5000×40 block, at row r: the fold of max from the least extended real. -/
theorem rowMaxRed_apply (e : FVec Ideal S5000x40 .f32) (h : S5000x40.Reduces [1] S5000) (hφ : FKind.Formats .f32)
    (hacc : (0xFF800000#32 : BitVec 32) = 0xFF800000#32) (r : Fin 5000) :
    multiReduction (F := Ideal) .maximumf [1] S5000 e 0xFF800000#32 h hφ hacc (ix1 r)
      = (Finset.univ : Finset (Fin 40)).fold max (⊥ : EReal) (fun c => e (ix2 r c)) := by
  refine (Ideal.multiReduction_maximumf_single e 0xFF800000#32 h hφ hacc (ix1 r)).trans ?_
  show (Finset.univ : Finset (Fin 40)).fold max (Ideal.ofBits .f32 0xFF800000#32) (e ∘ h.lift (ix1 r)) = _
  rw [ofBits_negInf]
  have hf : (e ∘ h.lift (ix1 r)) = fun c : Fin 40 => e (ix2 r c) := funext fun k => congrArg e (lift_row h r k)
  exact congrArg (fun f : Fin 40 → EReal => (Finset.univ : Finset (Fin 40)).fold max (⊥ : EReal) f) hf

/-- The sum over the 40 columns of a 5000×40 block, at row r. -/
theorem rowSumRed_apply (e : FVec Ideal S5000x40 .f32) (h : S5000x40.Reduces [1] S5000) (hφ : FKind.Formats .f32)
    (hacc : (0x00000000#32 : BitVec 32) = 0x00000000#32) (r : Fin 5000) :
    multiReduction (F := Ideal) .add [1] S5000 e 0x00000000#32 h hφ hacc (ix1 r) = ∑ c : Fin 40, e (ix2 r c) := by
  refine (Ideal.multiReduction_add_single e 0x00000000#32 h hφ hacc (ix1 r)).trans ?_
  show ∑ k : Fin 40, e (h.lift (ix1 r) k) = _
  exact Finset.sum_congr rfl fun k _ => congrArg e (lift_row h r k)

/-! ## What one grid point stores, read at an entry -/

/-- The exponential of a block, entry by entry. -/
theorem exp_apply {s : Shape} {φ : FTy} (a : FVec Ideal s φ) (i : s.Idx) : exp a i = Ideal.exp (a i) := rfl
/-- The logarithm of a block, entry by entry. -/
theorem log_apply {s : Shape} {φ : FTy} (a : FVec Ideal s φ) (i : s.Idx) : log a i = Ideal.log (a i) := rfl

section Payload
variable (x0 x1 : Vec Ideal S5000x64 .f32) (x2 x3 : Vec Ideal S64x64 .f32) (x4 : Vec Ideal S64 .f32)
  (x5 : Vec Ideal S64x40 .f32) (x6 : Vec Ideal S40 .f32)

/-- The class scores a point stores, at row r of its block and class q: the last layer's row against the classifier's column,
    plus the classifier's bias. -/
theorem scores_apply (r : Fin 5000) (q : Fin 40) :
    k3_pay1 x0 x1 x2 x3 x4 x5 x6 (ix2 r q)
      = (∑ k : Fin 64, ((∑ j : Fin 64, x0 (ix2 r j) * x2 (ix2 j k)) + (∑ j : Fin 64, x1 (ix2 r j) * x3 (ix2 j k)) + x4 (ix1 k))
            * x5 (ix2 k q)) + x6 (ix1 q) := by
  unfold k3_pay1
  simp only [shapeCast_self, addf_apply, matmul40_apply, truncf_apply, matmul64_apply, rowSpread_apply]

/-- The log-softmax a point stores, at row r of its block and class q, in terms of the scores it stores. -/
theorem logp_apply (r : Fin 5000) (q : Fin 40) :
    k3_pay2 x0 x1 x2 x3 x4 x5 x6 (ix2 r q)
      = (k3_pay1 x0 x1 x2 x3 x4 x5 x6 (ix2 r q)
          - (Finset.univ : Finset (Fin 40)).fold max (⊥ : EReal) (fun c => k3_pay1 x0 x1 x2 x3 x4 x5 x6 (ix2 r c)))
        - Ideal.log (∑ c' : Fin 40, Ideal.exp (k3_pay1 x0 x1 x2 x3 x4 x5 x6 (ix2 r c')
            - (Finset.univ : Finset (Fin 40)).fold max (⊥ : EReal) (fun c => k3_pay1 x0 x1 x2 x3 x4 x5 x6 (ix2 r c)))) := by
  unfold k3_pay2
  simp only [subf_apply, colSpread_apply, broadcastTo_a1_ab_apply, log_apply, shapeCast_a_a1_apply]
  rw [rowSumRed_apply]
  simp only [exp_apply, subf_apply, colSpread_apply]
  rw [rowMaxRed_apply]

end Payload

/-! ## The stored entries as the specification's entries of whatever arrays the blocks are rows of -/

section Against
variable (x0 x1 : Vec Ideal S5000x64 .f32) (x2 x3 : Vec Ideal S64x64 .f32) (x4 : Vec Ideal S64 .f32)
  (x5 : Vec Ideal S64x40 .f32) (x6 : Vec Ideal S40 .f32)
  (a h : Mat 50000 64) (wl wr : Mat 64 64) (b : Vc 64) (wlast : Mat 64 40) (blast : Vc 40)

/-- The class scores read at an index given by its coordinates. -/
theorem emb_ix2 (R : Fin 50000) (q : Fin 40) : emb a h wl wr b wlast blast (ix2 R q) = Sage.embAt a h wl wr b wlast blast R q := rfl

/-- The log-softmax read at an index given by its coordinates. -/
theorem logSoftmax_ix2 (e : Mat 50000 40) (R : Fin 50000) (q : Fin 40) : logSoftmax e (ix2 R q) = Sage.logSoftmaxAt e R q := rfl

/-- If row r of the two loaded row blocks is row R of the arrays a and h, and the loaded weights are the arrays wl … blast,
    the score stored at (r, q) is the specification's score of node R for class q. -/
theorem scores_at (R : Fin 50000) (r : Fin 5000) (q : Fin 40)
    (h0 : ∀ k : Fin 64, x0 (ix2 r k) = a (ix2 R k)) (h1 : ∀ k : Fin 64, x1 (ix2 r k) = h (ix2 R k))
    (h2 : ∀ j k : Fin 64, x2 (ix2 j k) = wl (ix2 j k)) (h3 : ∀ j k : Fin 64, x3 (ix2 j k) = wr (ix2 j k))
    (h4 : ∀ k : Fin 64, x4 (ix1 k) = b (ix1 k)) (h5 : ∀ (k : Fin 64) (q : Fin 40), x5 (ix2 k q) = wlast (ix2 k q))
    (h6 : ∀ q : Fin 40, x6 (ix1 q) = blast (ix1 q)) :
    k3_pay1 x0 x1 x2 x3 x4 x5 x6 (ix2 r q) = Sage.embAt a h wl wr b wlast blast R q := by
  rw [scores_apply]
  unfold Sage.embAt Sage.convAt
  simp only [h0, h1, h2, h3, h4, h5, h6]

/-- Under the same hypotheses the log-softmax stored at (r, q) is the specification's for node R and class q. -/
theorem logp_at (R : Fin 50000) (r : Fin 5000) (q : Fin 40)
    (h0 : ∀ k : Fin 64, x0 (ix2 r k) = a (ix2 R k)) (h1 : ∀ k : Fin 64, x1 (ix2 r k) = h (ix2 R k))
    (h2 : ∀ j k : Fin 64, x2 (ix2 j k) = wl (ix2 j k)) (h3 : ∀ j k : Fin 64, x3 (ix2 j k) = wr (ix2 j k))
    (h4 : ∀ k : Fin 64, x4 (ix1 k) = b (ix1 k)) (h5 : ∀ (k : Fin 64) (q : Fin 40), x5 (ix2 k q) = wlast (ix2 k q))
    (h6 : ∀ q : Fin 40, x6 (ix1 q) = blast (ix1 q)) :
    k3_pay2 x0 x1 x2 x3 x4 x5 x6 (ix2 r q) = logSoftmaxAt (emb a h wl wr b wlast blast) R q := by
  rw [logp_apply]
  unfold Sage.logSoftmaxAt Sage.rowMax
  simp only [emb_ix2, scores_at x0 x1 x2 x3 x4 x5 x6 a h wl wr b wlast blast R r _ h0 h1 h2 h3 h4 h5 h6]

end Against

/-! ## From one grid point's block to the whole array -/

section Blocks
variable (V : (c : Dev nD) → (b : Ref sig .tc) → Buf (Elt Ideal) ((c : Thread nD τ).loc b)) (c : Dev nD)

theorem origin2 : (![0, 0] : Fin 2 → Nat) = fun _ => 0 := funext fun a => by fin_cases a <;> rfl
theorem origin1 : (![0] : Fin 1 → Nat) = fun _ => 0 := funext fun a => by fin_cases a <;> rfl

/-- The scores' buffer after the body holds the body's scores of the blocks it loaded. -/
theorem out7_eq (x0 x1 : Vec Ideal S5000x64 .f32) (x2 x3 : Vec Ideal S64x64 .f32) (x4 : Vec Ideal S64 .f32)
    (x5 : Vec Ideal S64x40 .f32) (x6 : Vec Ideal S40 .f32) :
    out3_7 (F := Ideal) x0 x1 x2 x3 x4 x5 x6 = k3_pay1 x0 x1 x2 x3 x4 x5 x6 := by
  unfold out3_7
  rw [View.canon_unit_zero origin2]
  simp only [View.ld_unit_zero (S := S5000x64) origin2, View.ld_unit_zero (S := S64x64) origin2,
    View.ld_unit_zero (S := S64) origin1, View.ld_unit_zero (S := S64x40) origin2, View.ld_unit_zero (S := S40) origin1]

/-- The log-softmax's buffer after the body holds the body's log-softmax of the blocks it loaded. -/
theorem out8_eq (x0 x1 : Vec Ideal S5000x64 .f32) (x2 x3 : Vec Ideal S64x64 .f32) (x4 : Vec Ideal S64 .f32)
    (x5 : Vec Ideal S64x40 .f32) (x6 : Vec Ideal S40 .f32) :
    out3_8 (F := Ideal) x0 x1 x2 x3 x4 x5 x6 = k3_pay2 x0 x1 x2 x3 x4 x5 x6 := by
  unfold out3_8
  rw [View.canon_unit_zero origin2]
  simp only [View.ld_unit_zero (S := S5000x64) origin2, View.ld_unit_zero (S := S64x64) origin2,
    View.ld_unit_zero (S := S64) origin1, View.ld_unit_zero (S := S64x40) origin2, View.ld_unit_zero (S := S40) origin1]

/-- The block index of every operand at each of the ten grid points: the row-blocked ones sit at block (t, 0), the weights
    and biases at their one block. -/
theorem index_facts : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 1) = 0
    ∧ win3_5.index t (0 : Fin 2) = 0 ∧ win3_5.index t (1 : Fin 2) = 0
    ∧ win3_6.index t (0 : Fin 1) = 0
    ∧ win3_7.index t (0 : Fin 2) = t.val ∧ win3_7.index t (1 : Fin 2) = 0
    ∧ win3_8.index t (0 : Fin 2) = t.val ∧ win3_8.index t (1 : Fin 2) = 0
    ∧ t.val < 10 :=
  (by decide +kernel : ∀ t : Fin grid3.N, _)

/-- Row r of the neighbourhood-means block at point t is row 5000·t + r of the array. -/
theorem rows0 (t : Fin cfg3.N) (r : Fin 5000) (k : Fin 64) (R : Fin 50000) (hR : R.val = 5000 * t.val + r.val) :
    (iblk3 V c 0 t : Vec Ideal S5000x64 .f32) (ix2 r k) = (V c main_v70 : Mat 50000 64) (ix2 R k) := by
  obtain ⟨e0, e1, -⟩ := index_facts t
  unfold iblk3
  rw [View.read_apply]
  show V c main_v70 _ = V c main_v70 _
  refine congrArg (V c main_v70) (funext fun ax => Fin.ext ?_)
  match ax with
  | ⟨0, _⟩ => show win3_0.index t (0 : Fin 2) * 5000 + 1 * r.val = R.val; omega
  | ⟨1, _⟩ => show win3_0.index t (1 : Fin 2) * 64 + 1 * k.val = k.val; omega

/-- Row r of the nodes' own block at point t is row 5000·t + r of the array. -/
theorem rows1 (t : Fin cfg3.N) (r : Fin 5000) (k : Fin 64) (R : Fin 50000) (hR : R.val = 5000 * t.val + r.val) :
    (iblk3 V c 1 t : Vec Ideal S5000x64 .f32) (ix2 r k) = (V c main_v55 : Mat 50000 64) (ix2 R k) := by
  obtain ⟨-, -, e0, e1, -⟩ := index_facts t
  unfold iblk3
  rw [View.read_apply]
  show V c main_v55 _ = V c main_v55 _
  refine congrArg (V c main_v55) (funext fun ax => Fin.ext ?_)
  match ax with
  | ⟨0, _⟩ => show win3_1.index t (0 : Fin 2) * 5000 + 1 * r.val = R.val; omega
  | ⟨1, _⟩ => show win3_1.index t (1 : Fin 2) * 64 + 1 * k.val = k.val; omega

/-- The left weights' one block is the whole matrix. -/
theorem whole2 (t : Fin cfg3.N) (j k : Fin 64) :
    (iblk3 V c 2 t : Vec Ideal S64x64 .f32) (ix2 j k) = (V c main_v72 : Mat 64 64) (ix2 j k) := by
  obtain ⟨-, -, -, -, e0, e1, -⟩ := index_facts t
  unfold iblk3
  rw [View.read_apply]
  show V c main_v72 _ = V c main_v72 _
  refine congrArg (V c main_v72) (funext fun ax => Fin.ext ?_)
  match ax with
  | ⟨0, _⟩ => show win3_2.index t (0 : Fin 2) * 64 + 1 * j.val = j.val; omega
  | ⟨1, _⟩ => show win3_2.index t (1 : Fin 2) * 64 + 1 * k.val = k.val; omega

/-- The right weights' one block is the whole matrix. -/
theorem whole3 (t : Fin cfg3.N) (j k : Fin 64) :
    (iblk3 V c 3 t : Vec Ideal S64x64 .f32) (ix2 j k) = (V c main_v74 : Mat 64 64) (ix2 j k) := by
  obtain ⟨-, -, -, -, -, -, e0, e1, -⟩ := index_facts t
  unfold iblk3
  rw [View.read_apply]
  show V c main_v74 _ = V c main_v74 _
  refine congrArg (V c main_v74) (funext fun ax => Fin.ext ?_)
  match ax with
  | ⟨0, _⟩ => show win3_3.index t (0 : Fin 2) * 64 + 1 * j.val = j.val; omega
  | ⟨1, _⟩ => show win3_3.index t (1 : Fin 2) * 64 + 1 * k.val = k.val; omega

/-- The layer bias's one block is the whole vector. -/
theorem whole4 (t : Fin cfg3.N) (k : Fin 64) :
    (iblk3 V c 4 t : Vec Ideal S64 .f32) (ix1 k) = (V c main_v76 : Vc 64) (ix1 k) := by
  obtain ⟨-, -, -, -, -, -, -, -, e0, -⟩ := index_facts t
  unfold iblk3
  rw [View.read_apply]
  show V c main_v76 _ = V c main_v76 _
  refine congrArg (V c main_v76) (funext fun ax => Fin.ext ?_)
  match ax with
  | ⟨0, _⟩ => show win3_4.index t (0 : Fin 1) * 64 + 1 * k.val = k.val; omega

/-- The classifier matrix's one block is the whole matrix. -/
theorem whole5 (t : Fin cfg3.N) (k : Fin 64) (q : Fin 40) :
    (iblk3 V c 5 t : Vec Ideal S64x40 .f32) (ix2 k q) = (V c main_arg10 : Mat 64 40) (ix2 k q) := by
  obtain ⟨-, -, -, -, -, -, -, -, -, e0, e1, -⟩ := index_facts t
  unfold iblk3
  rw [View.read_apply]
  show V c main_arg10 _ = V c main_arg10 _
  refine congrArg (V c main_arg10) (funext fun ax => Fin.ext ?_)
  match ax with
  | ⟨0, _⟩ => show win3_5.index t (0 : Fin 2) * 64 + 1 * k.val = k.val; omega
  | ⟨1, _⟩ => show win3_5.index t (1 : Fin 2) * 40 + 1 * q.val = q.val; omega

/-- The classifier bias's one block is the whole vector. -/
theorem whole6 (t : Fin cfg3.N) (q : Fin 40) :
    (iblk3 V c 6 t : Vec Ideal S40 .f32) (ix1 q) = (V c main_arg11 : Vc 40) (ix1 q) := by
  obtain ⟨-, -, -, -, -, -, -, -, -, -, -, e0, -⟩ := index_facts t
  unfold iblk3
  rw [View.read_apply]
  show V c main_arg11 _ = V c main_arg11 _
  refine congrArg (V c main_arg11) (funext fun ax => Fin.ext ?_)
  match ax with
  | ⟨0, _⟩ => show win3_6.index t (0 : Fin 1) * 40 + 1 * q.val = q.val; omega

/-- What point t writes back to the scores' array is block t of the specification's scores of the entry arrays. -/
theorem flushed7_eq (t : Fin cfg3.N) :
    (dat3 (F := Ideal) V c).flushed 7 t
      = ((cfg3.win 7).blk t).view.read (Elt Ideal)
          (emb (V c main_v70) (V c main_v55) (V c main_v72) (V c main_v74) (V c main_v76) (V c main_arg10) (V c main_arg11)) := by
  show (cfg3.win 7).cut (grid3.coords t) ((dat3 V c).after 7 t) = _
  rw [after3_7, out7_eq]
  funext j
  obtain ⟨-, -, -, -, -, -, -, -, -, -, -, -, e0, e1, -, -, ht⟩ := index_facts t
  have hj0 : (j 0).val < 5000 := (j 0).isLt
  have hj1 : (j 1).val < 40 := (j 1).isLt
  have hx : (cfg3.win 7).xinj (grid3.coords t) j = ix2 (⟨(j 0).val, hj0⟩ : Fin 5000) (⟨(j 1).val, hj1⟩ : Fin 40) := by
    funext ax
    match ax with
    | ⟨0, _⟩ => rfl
    | ⟨1, _⟩ => rfl
  have hi : ((cfg3.win 7).blk t).view.emb j
      = ix2 (⟨5000 * t.val + (j 0).val, by omega⟩ : Fin 50000) (⟨(j 1).val, hj1⟩ : Fin 40) := by
    funext ax; apply Fin.ext
    match ax with
    | ⟨0, _⟩ => show win3_7.index t (0 : Fin 2) * 5000 + 1 * (j 0).val = 5000 * t.val + (j 0).val; omega
    | ⟨1, _⟩ => show win3_7.index t (1 : Fin 2) * 40 + 1 * (j 1).val = (j 1).val; omega
  rw [View.read_apply, hi, emb_ix2]
  refine (congrArg (k3_pay1 (iblk3 V c 0 t) (iblk3 V c 1 t) (iblk3 V c 2 t) (iblk3 V c 3 t) (iblk3 V c 4 t) (iblk3 V c 5 t)
    (iblk3 V c 6 t)) hx).trans ?_
  exact scores_at _ _ _ _ _ _ _ _ _ _ _ _ _ _ _ _ _
    (fun k => rows0 V c t _ k _ rfl) (fun k => rows1 V c t _ k _ rfl) (whole2 V c t) (whole3 V c t) (whole4 V c t)
    (whole5 V c t) (whole6 V c t)

/-- What point t writes back to the log-softmax's array is block t of the specification's log-softmax of the scores. -/
theorem flushed8_eq (t : Fin cfg3.N) :
    (dat3 (F := Ideal) V c).flushed 8 t
      = ((cfg3.win 8).blk t).view.read (Elt Ideal)
          (logSoftmax (emb (V c main_v70) (V c main_v55) (V c main_v72) (V c main_v74) (V c main_v76) (V c main_arg10) (V c main_arg11))) := by
  show (cfg3.win 8).cut (grid3.coords t) ((dat3 V c).after 8 t) = _
  rw [after3_8, out8_eq]
  funext j
  obtain ⟨-, -, -, -, -, -, -, -, -, -, -, -, -, -, e0, e1, ht⟩ := index_facts t
  have hj0 : (j 0).val < 5000 := (j 0).isLt
  have hj1 : (j 1).val < 40 := (j 1).isLt
  have hx : (cfg3.win 8).xinj (grid3.coords t) j = ix2 (⟨(j 0).val, hj0⟩ : Fin 5000) (⟨(j 1).val, hj1⟩ : Fin 40) := by
    funext ax
    match ax with
    | ⟨0, _⟩ => rfl
    | ⟨1, _⟩ => rfl
  have hi : ((cfg3.win 8).blk t).view.emb j
      = ix2 (⟨5000 * t.val + (j 0).val, by omega⟩ : Fin 50000) (⟨(j 1).val, hj1⟩ : Fin 40) := by
    funext ax; apply Fin.ext
    match ax with
    | ⟨0, _⟩ => show win3_8.index t (0 : Fin 2) * 5000 + 1 * (j 0).val = 5000 * t.val + (j 0).val; omega
    | ⟨1, _⟩ => show win3_8.index t (1 : Fin 2) * 40 + 1 * (j 1).val = (j 1).val; omega
  rw [View.read_apply, hi, logSoftmax_ix2]
  refine (congrArg (k3_pay2 (iblk3 V c 0 t) (iblk3 V c 1 t) (iblk3 V c 2 t) (iblk3 V c 3 t) (iblk3 V c 4 t) (iblk3 V c 5 t)
    (iblk3 V c 6 t)) hx).trans ?_
  exact logp_at _ _ _ _ _ _ _ _ _ _ _ _ _ _ _ _ _
    (fun k => rows0 V c t _ k _ rfl) (fun k => rows1 V c t _ k _ rfl) (whole2 V c t) (whole3 V c t) (whole4 V c t)
    (whole5 V c t) (whole6 V c t)

/-- An index of the scores' array is in point t's block iff each coordinate is in the block's range on its axis. -/
theorem mem_blk7 (t : Fin cfg3.N) (i : S50000x40.Idx) :
    i ∈ ((cfg3.win 7).blk t).view.set ↔ ∀ a : Fin 2, win3_7.index t a * S5000x40.size a ≤ (i a).val
      ∧ (i a).val < win3_7.index t a * S5000x40.size a + S5000x40.size a := by
  show i ∈ ((View.whole main_v77_0).slice (win3_7.rect t)).set ↔ _
  rw [View.set_slice_whole, Rect.mem_set_unit]
  exact Iff.rfl

/-- The same for the log-softmax's array. -/
theorem mem_blk8 (t : Fin cfg3.N) (i : S50000x40.Idx) :
    i ∈ ((cfg3.win 8).blk t).view.set ↔ ∀ a : Fin 2, win3_8.index t a * S5000x40.size a ≤ (i a).val
      ∧ (i a).val < win3_8.index t a * S5000x40.size a + S5000x40.size a := by
  show i ∈ ((View.whole main_v77_1).slice (win3_8.rect t)).set ↔ _
  rw [View.set_slice_whole, Rect.mem_set_unit]
  exact Iff.rfl

/-- Every row lies in one point's block: row R in the block of point R / 5000. -/
theorem cover7 (i : S50000x40.Idx) : ∃ t : Fin cfg3.N, (cfg3.win 7).flush t = true ∧ i ∈ ((cfg3.win 7).blk t).view.set := by
  have hi0 : (i 0).val < 50000 := (i 0).isLt
  have hi1 : (i 1).val < 40 := (i 1).isLt
  have hN : cfg3.N = 10 := N_3
  obtain ⟨t, htv⟩ : ∃ t : Fin cfg3.N, t.val = (i 0).val / 5000 := ⟨⟨(i 0).val / 5000, by omega⟩, rfl⟩
  obtain ⟨-, -, -, -, -, -, -, -, -, -, -, -, e0, e1, -, -, -⟩ := index_facts t
  refine ⟨t, flush3_7 t, ?_⟩
  rw [mem_blk7]
  intro ax
  match ax with
  | ⟨0, _⟩ =>
    show win3_7.index t (0 : Fin 2) * 5000 ≤ (i 0).val ∧ (i 0).val < win3_7.index t (0 : Fin 2) * 5000 + 5000
    omega
  | ⟨1, _⟩ =>
    show win3_7.index t (1 : Fin 2) * 40 ≤ (i 1).val ∧ (i 1).val < win3_7.index t (1 : Fin 2) * 40 + 40
    omega

/-- The same for the log-softmax's array. -/
theorem cover8 (i : S50000x40.Idx) : ∃ t : Fin cfg3.N, (cfg3.win 8).flush t = true ∧ i ∈ ((cfg3.win 8).blk t).view.set := by
  have hi0 : (i 0).val < 50000 := (i 0).isLt
  have hi1 : (i 1).val < 40 := (i 1).isLt
  have hN : cfg3.N = 10 := N_3
  obtain ⟨t, htv⟩ : ∃ t : Fin cfg3.N, t.val = (i 0).val / 5000 := ⟨⟨(i 0).val / 5000, by omega⟩, rfl⟩
  obtain ⟨-, -, -, -, -, -, -, -, -, -, -, -, -, -, e0, e1, -⟩ := index_facts t
  refine ⟨t, flush3_8 t, ?_⟩
  rw [mem_blk8]
  intro ax
  match ax with
  | ⟨0, _⟩ =>
    show win3_8.index t (0 : Fin 2) * 5000 ≤ (i 0).val ∧ (i 0).val < win3_8.index t (0 : Fin 2) * 5000 + 5000
    omega
  | ⟨1, _⟩ =>
    show win3_8.index t (1 : Fin 2) * 40 ≤ (i 1).val ∧ (i 1).val < win3_8.index t (1 : Fin 2) * 40 + 40
    omega

/-- After the ten points the scores' array holds the specification's class scores of the arrays the region was entered with. -/
theorem arr_emb : (dat3 (F := Ideal) V c).arrAt 7 cfg3.N
    = emb (V c main_v70) (V c main_v55) (V c main_v72) (V c main_v74) (V c main_v76) (V c main_arg10) (V c main_arg11) :=
  (dat3 (F := Ideal) V c).arrAt_eq_of_cover 7
    (emb (V c main_v70) (V c main_v55) (V c main_v72) (V c main_v74) (V c main_v76) (V c main_arg10) (V c main_arg11))
    (fun t _ => flushed7_eq V c t) cover7

/-- After the ten points the log-softmax's array holds the row-wise log-softmax of those scores. -/
theorem arr_logp : (dat3 (F := Ideal) V c).arrAt 8 cfg3.N
    = logSoftmax (emb (V c main_v70) (V c main_v55) (V c main_v72) (V c main_v74) (V c main_v76) (V c main_arg10) (V c main_arg11)) :=
  (dat3 (F := Ideal) V c).arrAt_eq_of_cover 8
    (logSoftmax (emb (V c main_v70) (V c main_v55) (V c main_v72) (V c main_v74) (V c main_v76) (V c main_arg10) (V c main_arg11)))
    (fun t _ => flushed8_eq V c t) cover8

end Blocks

end Cert.KernelIdeal.Region3
end
-- ==== Proof.KHost2.lean ====
/-
  The idealized kernel's two results as functions of its arguments. Region by region and stretch by stretch, the
  buffer contents at each boundary are read as the specification's functions: the first region leaves the affine image
  of the features and the positional encoding; each later stretch forms the neighbourhood means of the current rows;
  each later region applies one layer; the last region leaves the class scores and their row-wise log-softmax.
-/
import proofs.«121452_j11587821765290_2_alg».proof.Proof.KHost1
import proofs.«121452_j11587821765290_2_alg».proof.Proof.Region0
import proofs.«121452_j11587821765290_2_alg».proof.Proof.Region1
import proofs.«121452_j11587821765290_2_alg».proof.Proof.Region2
import proofs.«121452_j11587821765290_2_alg».proof.Proof.Region3

set_option maxRecDepth 16384

noncomputable section

namespace Cert.KernelIdeal.HostValue

open Cert.KernelIdeal Cert.KernelIdeal.Gen Idealize.ShloMosaic Idealize.ShloMosaic.TcCoe Idealize.ShloMosaic.Tactic
open Idealize.SL.Sem Idealize.ShloMosaic.StableHlo

/-- The kernel's neighbourhood means of the rows `h` over the edge list `e`. -/
def kMean (e : IVec S2x800000 32) (h : FVec Ideal S50000x64 .f32) : FVec Ideal S50000x64 .f32 :=
  meanTerm (edgeSrc e) (edgeDst e) (recipDeg (edgeDst e)) h

variable (m : (ℓ : Loc nD τ sig) → Buf (Elt Ideal) ℓ) (ρ : Dev nD → PrngReg) (c : Dev nD)

/-- The positional encoding, the rows before the first layer, and the rows after the first and second layers. -/
def kP : Sage.Mat 50000 64 := Sage.posEnc (m ((c : Thread nD τ).loc main_arg1)) (m ((c : Thread nD τ).loc main_arg3)) (m ((c : Thread nD τ).loc main_arg4))
def kH0 : Sage.Mat 50000 64 := Sage.affine (m ((c : Thread nD τ).loc main_arg0)) (m ((c : Thread nD τ).loc main_arg5)) (m ((c : Thread nD τ).loc main_arg6))
def kH1 : Sage.Mat 50000 64 :=
  Sage.convRelu (kMean (m ((c : Thread nD τ).loc main_arg2)) (kH0 m c)) (kH0 m c) (wLayer0 (m ((c : Thread nD τ).loc main_arg7))) (wLayer0 (m ((c : Thread nD τ).loc main_arg8))) (bLayer0 (m ((c : Thread nD τ).loc main_arg9))) (kP m c)
def kH2 : Sage.Mat 50000 64 :=
  Sage.convRelu (kMean (m ((c : Thread nD τ).loc main_arg2)) (kH1 m c)) (kH1 m c) (wLayer1 (m ((c : Thread nD τ).loc main_arg7))) (wLayer1 (m ((c : Thread nD τ).loc main_arg8))) (bLayer1 (m ((c : Thread nD τ).loc main_arg9))) (kP m c)

/-! ### The first region -/

theorem l4_h : W4 m ρ c (Proc.devRef .tc main_v11_0) = kH0 m c :=
  (W4_arr m ρ c 6).trans ((Region0.arr_h (V3 m ρ) c).trans (by
    dsimp only [V3]
    rw [l3_arg0 m ρ c, l3_arg5 m ρ c, l3_arg6 m ρ c]
    rfl))
theorem l4_p : W4 m ρ c (Proc.devRef .tc main_v11_1) = kP m c :=
  (W4_arr m ρ c 7).trans ((Region0.arr_p (V3 m ρ) c).trans (by
    dsimp only [V3]
    rw [l3_arg1 m ρ c, l3_arg3 m ρ c, l3_arg4 m ρ c]
    rfl))
theorem l5_h : W5 m ρ c (Proc.devRef .tc main_v11_0) = kH0 m c := (carry_v11_0_5_4 m ρ c).trans (l4_h m ρ c)
theorem l5_p : W5 m ρ c (Proc.devRef .tc main_v11_1) = kP m c := (carry_v11_1_5_4 m ρ c).trans (l4_p m ρ c)

/-! ### Layer 0 -/

theorem e4_v1 : W4 m ρ c (Proc.devRef .tc main_v1) = edgeSrc (m ((c : Thread nD τ).loc main_arg2)) := (carry_v1_4_3 m ρ c).trans (l3_v1 m ρ c)
theorem e4_v3 : W4 m ρ c (Proc.devRef .tc main_v3) = edgeDst (m ((c : Thread nD τ).loc main_arg2)) := (carry_v3_4_3 m ρ c).trans (l3_v3 m ρ c)
theorem e4_v10 : W4 m ρ c (Proc.devRef .tc main_v10) = recipDeg (edgeDst (m ((c : Thread nD τ).loc main_arg2))) := (carry_v10_4_3 m ρ c).trans (l3_v10 m ρ c)
theorem a4_7 : W4 m ρ c (Proc.devRef .tc main_arg7) = (m ((c : Thread nD τ).loc main_arg7)) := (carry_arg7_4_3 m ρ c).trans (l3_arg7 m ρ c)
theorem a4_8 : W4 m ρ c (Proc.devRef .tc main_arg8) = (m ((c : Thread nD τ).loc main_arg8)) := (carry_arg8_4_3 m ρ c).trans (l3_arg8 m ρ c)
theorem a4_9 : W4 m ρ c (Proc.devRef .tc main_arg9) = (m ((c : Thread nD τ).loc main_arg9)) := (carry_arg9_4_3 m ρ c).trans (l3_arg9 m ρ c)
theorem l5_agg : W5 m ρ c (Proc.devRef .tc main_v26) = kMean (m ((c : Thread nD τ).loc main_arg2)) (kH0 m c) := by
  rw [l5_v26 m ρ c, e4_v1 m ρ c, e4_v3 m ρ c, e4_v10 m ρ c, l4_h m ρ c]
  rfl
theorem l5_wl : W5 m ρ c (Proc.devRef .tc main_v28) = wLayer0 (m ((c : Thread nD τ).loc main_arg7)) := by
  rw [l5_v28 m ρ c, a4_7 m ρ c]
theorem l5_wr : W5 m ρ c (Proc.devRef .tc main_v30) = wLayer0 (m ((c : Thread nD τ).loc main_arg8)) := by
  rw [l5_v30 m ρ c, a4_8 m ρ c]
theorem l5_b : W5 m ρ c (Proc.devRef .tc main_v32) = bLayer0 (m ((c : Thread nD τ).loc main_arg9)) := by
  rw [l5_v32 m ρ c, a4_9 m ρ c]
theorem l6_h : W6 m ρ c (Proc.devRef .tc main_v33) = kH1 m c :=
  (W6_arr m ρ c 6).trans ((Region1.arr_h (V5 m ρ) c).trans (by
    dsimp only [V5]
    rw [l5_agg m ρ c, l5_h m ρ c, l5_wl m ρ c, l5_wr m ρ c, l5_b m ρ c, l5_p m ρ c]
    rfl))
theorem l7_h : W7 m ρ c (Proc.devRef .tc main_v33) = kH1 m c := (carry_v33_7_6 m ρ c).trans (l6_h m ρ c)
theorem l7_p : W7 m ρ c (Proc.devRef .tc main_v11_1) = kP m c := (carry_v11_1_7_5 m ρ c).trans (l5_p m ρ c)

/-! ### Layer 1 -/

theorem e6_v1 : W6 m ρ c (Proc.devRef .tc main_v1) = edgeSrc (m ((c : Thread nD τ).loc main_arg2)) := (carry_v1_6_4 m ρ c).trans ((carry_v1_4_3 m ρ c).trans (l3_v1 m ρ c))
theorem e6_v3 : W6 m ρ c (Proc.devRef .tc main_v3) = edgeDst (m ((c : Thread nD τ).loc main_arg2)) := (carry_v3_6_4 m ρ c).trans ((carry_v3_4_3 m ρ c).trans (l3_v3 m ρ c))
theorem e6_v10 : W6 m ρ c (Proc.devRef .tc main_v10) = recipDeg (edgeDst (m ((c : Thread nD τ).loc main_arg2))) := (carry_v10_6_4 m ρ c).trans ((carry_v10_4_3 m ρ c).trans (l3_v10 m ρ c))
theorem a6_7 : W6 m ρ c (Proc.devRef .tc main_arg7) = (m ((c : Thread nD τ).loc main_arg7)) := (carry_arg7_6_4 m ρ c).trans ((carry_arg7_4_3 m ρ c).trans (l3_arg7 m ρ c))
theorem a6_8 : W6 m ρ c (Proc.devRef .tc main_arg8) = (m ((c : Thread nD τ).loc main_arg8)) := (carry_arg8_6_4 m ρ c).trans ((carry_arg8_4_3 m ρ c).trans (l3_arg8 m ρ c))
theorem a6_9 : W6 m ρ c (Proc.devRef .tc main_arg9) = (m ((c : Thread nD τ).loc main_arg9)) := (carry_arg9_6_4 m ρ c).trans ((carry_arg9_4_3 m ρ c).trans (l3_arg9 m ρ c))
theorem l7_agg : W7 m ρ c (Proc.devRef .tc main_v48) = kMean (m ((c : Thread nD τ).loc main_arg2)) (kH1 m c) := by
  rw [l7_v48 m ρ c, e6_v1 m ρ c, e6_v3 m ρ c, e6_v10 m ρ c, l6_h m ρ c]
  rfl
theorem l7_wl : W7 m ρ c (Proc.devRef .tc main_v50) = wLayer1 (m ((c : Thread nD τ).loc main_arg7)) := by
  rw [l7_v50 m ρ c, a6_7 m ρ c]
theorem l7_wr : W7 m ρ c (Proc.devRef .tc main_v52) = wLayer1 (m ((c : Thread nD τ).loc main_arg8)) := by
  rw [l7_v52 m ρ c, a6_8 m ρ c]
theorem l7_b : W7 m ρ c (Proc.devRef .tc main_v54) = bLayer1 (m ((c : Thread nD τ).loc main_arg9)) := by
  rw [l7_v54 m ρ c, a6_9 m ρ c]
theorem l8_h : W8 m ρ c (Proc.devRef .tc main_v55) = kH2 m c :=
  (W8_arr m ρ c 6).trans ((Region2.arr_h (V7 m ρ) c).trans (by
    dsimp only [V7]
    rw [l7_agg m ρ c, l7_h m ρ c, l7_wl m ρ c, l7_wr m ρ c, l7_b m ρ c, l7_p m ρ c]
    rfl))
theorem l9_h : W9 m ρ c (Proc.devRef .tc main_v55) = kH2 m c := (carry_v55_9_8 m ρ c).trans (l8_h m ρ c)
theorem a9_10 : W9 m ρ c (Proc.devRef .tc main_arg10) = (m ((c : Thread nD τ).loc main_arg10)) := (carry_arg10_9_3 m ρ c).trans (l3_arg10 m ρ c)
theorem a9_11 : W9 m ρ c (Proc.devRef .tc main_arg11) = (m ((c : Thread nD τ).loc main_arg11)) := (carry_arg11_9_3 m ρ c).trans (l3_arg11 m ρ c)

/-! ### Layer 2 -/

theorem e8_v1 : W8 m ρ c (Proc.devRef .tc main_v1) = edgeSrc (m ((c : Thread nD τ).loc main_arg2)) := (carry_v1_8_6 m ρ c).trans ((carry_v1_6_4 m ρ c).trans ((carry_v1_4_3 m ρ c).trans (l3_v1 m ρ c)))
theorem e8_v3 : W8 m ρ c (Proc.devRef .tc main_v3) = edgeDst (m ((c : Thread nD τ).loc main_arg2)) := (carry_v3_8_6 m ρ c).trans ((carry_v3_6_4 m ρ c).trans ((carry_v3_4_3 m ρ c).trans (l3_v3 m ρ c)))
theorem e8_v10 : W8 m ρ c (Proc.devRef .tc main_v10) = recipDeg (edgeDst (m ((c : Thread nD τ).loc main_arg2))) := (carry_v10_8_6 m ρ c).trans ((carry_v10_6_4 m ρ c).trans ((carry_v10_4_3 m ρ c).trans (l3_v10 m ρ c)))
theorem a8_7 : W8 m ρ c (Proc.devRef .tc main_arg7) = (m ((c : Thread nD τ).loc main_arg7)) := (carry_arg7_8_6 m ρ c).trans ((carry_arg7_6_4 m ρ c).trans ((carry_arg7_4_3 m ρ c).trans (l3_arg7 m ρ c)))
theorem a8_8 : W8 m ρ c (Proc.devRef .tc main_arg8) = (m ((c : Thread nD τ).loc main_arg8)) := (carry_arg8_8_6 m ρ c).trans ((carry_arg8_6_4 m ρ c).trans ((carry_arg8_4_3 m ρ c).trans (l3_arg8 m ρ c)))
theorem a8_9 : W8 m ρ c (Proc.devRef .tc main_arg9) = (m ((c : Thread nD τ).loc main_arg9)) := (carry_arg9_8_6 m ρ c).trans ((carry_arg9_6_4 m ρ c).trans ((carry_arg9_4_3 m ρ c).trans (l3_arg9 m ρ c)))
theorem l9_agg : W9 m ρ c (Proc.devRef .tc main_v70) = kMean (m ((c : Thread nD τ).loc main_arg2)) (kH2 m c) := by
  rw [l9_v70 m ρ c, e8_v1 m ρ c, e8_v3 m ρ c, e8_v10 m ρ c, l8_h m ρ c]
  rfl
theorem l9_wl : W9 m ρ c (Proc.devRef .tc main_v72) = wLayer2 (m ((c : Thread nD τ).loc main_arg7)) := by
  rw [l9_v72 m ρ c, a8_7 m ρ c]
theorem l9_wr : W9 m ρ c (Proc.devRef .tc main_v74) = wLayer2 (m ((c : Thread nD τ).loc main_arg8)) := by
  rw [l9_v74 m ρ c, a8_8 m ρ c]
theorem l9_b : W9 m ρ c (Proc.devRef .tc main_v76) = bLayer2 (m ((c : Thread nD τ).loc main_arg9)) := by
  rw [l9_v76 m ρ c, a8_9 m ρ c]

/-! ### The two results -/

/-- The class scores as the kernel's program computes them: the network over the kernel's neighbourhood means. -/
def kScores : Sage.Mat 50000 40 :=
  Sage.scores (kMean (m ((c : Thread nD τ).loc main_arg2))) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6))
    (wLayer0 (m ((c : Thread nD τ).loc main_arg7))) (wLayer0 (m ((c : Thread nD τ).loc main_arg8))) (bLayer0 (m ((c : Thread nD τ).loc main_arg9))) (wLayer1 (m ((c : Thread nD τ).loc main_arg7))) (wLayer1 (m ((c : Thread nD τ).loc main_arg8))) (bLayer1 (m ((c : Thread nD τ).loc main_arg9)))
    (wLayer2 (m ((c : Thread nD τ).loc main_arg7))) (wLayer2 (m ((c : Thread nD τ).loc main_arg8))) (bLayer2 (m ((c : Thread nD τ).loc main_arg9))) (m ((c : Thread nD τ).loc main_arg10)) (m ((c : Thread nD τ).loc main_arg11))

theorem scores_unfold : kScores m c
    = Sage.emb (kMean (m ((c : Thread nD τ).loc main_arg2)) (kH2 m c)) (kH2 m c) (wLayer2 (m ((c : Thread nD τ).loc main_arg7))) (wLayer2 (m ((c : Thread nD τ).loc main_arg8))) (bLayer2 (m ((c : Thread nD τ).loc main_arg9))) (m ((c : Thread nD τ).loc main_arg10)) (m ((c : Thread nD τ).loc main_arg11)) := rfl

theorem result_scores : W10 m ρ c (Proc.devRef .tc main_v77_0) = kScores m c :=
  (W10_arr m ρ c 7).trans ((Region3.arr_emb (V9 m ρ) c).trans (by
    dsimp only [V9]
    rw [l9_agg m ρ c, l9_h m ρ c, l9_wl m ρ c, l9_wr m ρ c, l9_b m ρ c, a9_10 m ρ c, a9_11 m ρ c, scores_unfold]))
theorem result_logp : W10 m ρ c (Proc.devRef .tc main_v77_1) = Sage.logSoftmax (kScores m c) :=
  (W10_arr m ρ c 8).trans ((Region3.arr_logp (V9 m ρ) c).trans (by
    dsimp only [V9]
    rw [l9_agg m ρ c, l9_h m ρ c, l9_wl m ρ c, l9_wr m ρ c, l9_b m ρ c, a9_10 m ρ c, a9_11 m ρ c, scores_unfold]))

end Cert.KernelIdeal.HostValue

end
-- ==== Proof.KAgg.lean ====
/-
  The neighbourhood mean as the host program spells it, over the extended reals: the matrix of neighbourhood sums times the
  reciprocal of the clipped in-degree, the reciprocal repeated across the columns. Entry (r, q) of that product is
  `s (r, q) · (1 / d r)`, which is the product spelling `aggMul` of the mean; the clipped in-degree `max 1 count` is never
  zero; and passing the gathered rows through a narrower float format and back changes nothing.
-/
import proofs.«121452_j11587821765290_2_alg».proof.KernelIdeal
import proofs.«121452_j11587821765290_2_alg».proof.Proof.Gen.KernelIdeal
import proofs.«121452_j11587821765290_2_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Agg

open Cert.KernelIdeal Cert.KernelIdeal.Gen Cert.Sage Idealize.ShloMosaic Idealize.ShloMosaic.ValueIdx

/-! ## The neighbourhood mean as the host program spells it

The host program multiplies the matrix of neighbourhood sums by the reciprocal of the clipped in-degree: the reciprocal
`1 / d` is formed once per node, stood up as a column and repeated across the 64 columns, so entry (r, q) of the product
is `s (r, q) · (1 / d r)`. The clipped in-degree is `max 1 count`, which is never zero. The rows handed to the sum pass
through a narrower float format and back, which changes nothing over the extended reals: a gather only moves entries. -/

/-- The single-precision word `0x3F800000` is the number one. -/
theorem one_f32 : Ideal.ofBits .f32 0x3F800000#32 = 1 := by
  simp [Ideal.ofBits, Ideal.ieee, -EReal.coe_mul]; norm_num

/-- A length-50000 vector stood up as a column and repeated across 64 columns reads, at (r, q), its entry r. -/
theorem column_apply (y : FVec Ideal S50000 .f32) (i : S50000x64.Idx) :
    broadcastInDim S50000x64 ![0, 1] bcast_S50000x1_S50000x64_0_1 (broadcastInDim S50000x1 ![0] bcast_S50000_S50000x1_0 y) i
      = y (ix1 (i 0)) := by
  refine (broadcastInDim_apply _ bcast_S50000x1_S50000x64_0_1 _ i (ix2 (i 0) (0 : Fin 1)) (fun a => match a with
    | ⟨0, _⟩ => by show (i 0).val = if (50000 : Nat) = 1 then 0 else (i 0).val; rw [if_neg (by decide)]
    | ⟨1, _⟩ => by show 0 = if (1 : Nat) = 1 then 0 else (i 1).val; rw [if_pos rfl])).trans ?_
  exact broadcastInDim_apply _ bcast_S50000_S50000x1_0 y (ix2 (i 0) (0 : Fin 1)) (ix1 (i 0)) (fun a => match a with
    | ⟨0, _⟩ => by show (i 0).val = if (50000 : Nat) = 1 then 0 else (i 0).val; rw [if_neg (by decide)])

/-- The sums times the repeated column of reciprocals is the mean in its product spelling. -/
theorem mean_eq_aggMul (S : FVec Ideal S50000x64 .f32) (D : FVec Ideal S50000 .f32) :
    mulf S (broadcastInDim S50000x64 ![0, 1] bcast_S50000x1_S50000x64_0_1 (broadcastInDim S50000x1 ![0] bcast_S50000_S50000x1_0 (Host.divf (broadcastInDim S50000 ![] bcast_S_S50000 (constant S_ .f32 0x3F800000#32)) D))) = aggMul S D := by
  funext i
  refine (mulf_apply _ _ i).trans ?_
  rw [column_apply]
  show S i * Ideal.div (Ideal.ofBits .f32 0x3F800000#32) (D (ix1 (i 0))) = S i * Ideal.div 1 (D (ix1 (i 0)))
  rw [one_f32]

/-- The in-degree clipped below at one is never zero. -/
theorem clipped_ne_zero (cnt : FVec Ideal S50000 .f32) (j : S50000.Idx) :
    maximumf (broadcastInDim S50000 ![] bcast_S_S50000 (id (constant S_ .f32 0x3F800000#32))) cnt j ≠ 0 := by
  show max (Ideal.ofBits .f32 0x3F800000#32) (cnt j) ≠ 0
  rw [one_f32]
  exact max_one_ne_zero _

/-- Gathering rows after narrowing the float format, then widening, is gathering the rows: over the extended reals both
    format changes are the identity entry by entry, and a gather only says which entry of its operand each result entry is. -/
theorem gather_roundtrip (h : FVec Ideal S50000x64 .f32) (idx : IVec S800000x1 32) :
    extf .f32 (Host.gather gather_S50000x64_S800000x1_S800000x64_1_0_n_n_0_1_164 (truncf .bf16 h bitsLt_bf16_f32) idx) bitsLt_bf16_f32
      = Host.gather gather_S50000x64_S800000x1_S800000x64_1_0_n_n_0_1_164 h idx := by
  funext j
  refine (extf_apply (ψ := .f32) (Host.gather gather_S50000x64_S800000x1_S800000x64_1_0_n_n_0_1_164 (truncf .bf16 h bitsLt_bf16_f32) idx) bitsLt_bf16_f32 j).trans ?_
  exact truncf_apply h bitsLt_bf16_f32 (gather_S50000x64_S800000x1_S800000x64_1_0_n_n_0_1_164.operandIdx j idx)

end Cert.KernelIdeal.Agg

end
-- ==== Proof.RefStretch.lean ====
/- The reference program's 154 host operations (RefRun.lean, `ValueP.ops`) as six literal stretches in order: the input
   stage, the three graph layers (the last with the classifier), and the log-softmax in two parts. The operations are
   the printed ones, line by line; those of a called function are respelt over the plain builders at the same buffers
   (one is kept as printed). A table only: that the stretches in order ARE @main's list is proved in RefValue.lean. -/
import proofs.«121452_j11587821765290_2_alg».proof.Proof.RefRun

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

def opsA : List (HloOp τ sig (Elt F)) :=
  [ unary main_arg2 main_v0 ((extractStridedSlice S1x800000 ![0, 0] · slices_S2x800000_S1x800000_0_0) : (⟨S2x800000, .i32⟩ : BufTy).Contents (Elt F) → (⟨S1x800000, .i32⟩ : BufTy).Contents (Elt F)),
    reshape main_v0 main_v1 rfl shapeCasts_S1x800000_S800000,
    unary main_arg2 main_v2 ((extractStridedSlice S1x800000 ![1, 0] · slices_S2x800000_S1x800000_1_0) : (⟨S2x800000, .i32⟩ : BufTy).Contents (Elt F) → (⟨S1x800000, .i32⟩ : BufTy).Contents (Elt F)),
    reshape main_v2 main_v3 rfl shapeCasts_S1x800000_S800000,
    binary main_arg1 main_arg3 main_v4 ((fun l r => Host.dotGeneral dot_S50000x16_S16x64_S50000x64_1_0_0_1_n_n none l r) : (⟨S50000x16, .f32⟩ : BufTy).Contents (Elt F) → (⟨S16x64, .f32⟩ : BufTy).Contents (Elt F) → (⟨S50000x64, .f32⟩ : BufTy).Contents (Elt F)),
    unary main_arg4 main_v5 (broadcastInDim S1x64 ![1] bcast_S64_S1x64_1 : (⟨S64, .f32⟩ : BufTy).Contents (Elt F) → (⟨S1x64, .f32⟩ : BufTy).Contents (Elt F)),
    unary main_v5 main_v6 (broadcastInDim S50000x64 ![0, 1] bcast_S1x64_S50000x64_0_1 : (⟨S1x64, .f32⟩ : BufTy).Contents (Elt F) → (⟨S50000x64, .f32⟩ : BufTy).Contents (Elt F)),
    binary main_v4 main_v6 main_v7 (addf : (⟨S50000x64, .f32⟩ : BufTy).Contents (Elt F) → (⟨S50000x64, .f32⟩ : BufTy).Contents (Elt F) → (⟨S50000x64, .f32⟩ : BufTy).Contents (Elt F)),
    unary main_v7 main_v8 (Host.tanh : (⟨S50000x64, .f32⟩ : BufTy).Contents (Elt F) → (⟨S50000x64, .f32⟩ : BufTy).Contents (Elt F)),
    binary main_arg0 main_arg5 main_v9 ((fun l r => Host.dotGeneral dot_S50000x128_S128x64_S50000x64_1_0_0_1_n_n none l r) : (⟨S50000x128, .f32⟩ : BufTy).Contents (Elt F) → (⟨S128x64, .f32⟩ : BufTy).Contents (Elt F) → (⟨S50000x64, .f32⟩ : BufTy).Contents (Elt F)),
    unary main_arg6 main_v10 (broadcastInDim S1x64 ![1] bcast_S64_S1x64_1 : (⟨S64, .f32⟩ : BufTy).Contents (Elt F) → (⟨S1x64, .f32⟩ : BufTy).Contents (Elt F)),
    unary main_v10 main_v11 (broadcastInDim S50000x64 ![0, 1] bcast_S1x64_S50000x64_0_1 : (⟨S1x64, .f32⟩ : BufTy).Contents (Elt F) → (⟨S50000x64, .f32⟩ : BufTy).Contents (Elt F)),
    binary main_v9 main_v11 main_v12 (addf : (⟨S50000x64, .f32⟩ : BufTy).Contents (Elt F) → (⟨S50000x64, .f32⟩ : BufTy).Contents (Elt F) → (⟨S50000x64, .f32⟩ : BufTy).Contents (Elt F)) ]

def opsL0 : List (HloOp τ sig (Elt F)) :=
  [ unary main_arg7 main_v13 ((extractStridedSlice S1x64x64 ![0, 0, 0] · slices_S3x64x64_S1x64x64_0_0_0) : (⟨S3x64x64, .f32⟩ : BufTy).Contents (Elt F) → (⟨S1x64x64, .f32⟩ : BufTy).Contents (Elt F)),
    reshape main_v13 main_v14 rfl shapeCasts_S1x64x64_S64x64,
    unary main_arg8 main_v15 ((extractStridedSlice S1x64x64 ![0, 0, 0] · slices_S3x64x64_S1x64x64_0_0_0) : (⟨S3x64x64, .f32⟩ : BufTy).Contents (Elt F) → (⟨S1x64x64, .f32⟩ : BufTy).Contents (Elt F)),
    reshape main_v15 main_v16 rfl shapeCasts_S1x64x64_S64x64,
    unary main_arg9 main_v17 ((extractStridedSlice S1x64 ![0, 0] · slices_S3x64_S1x64_0_0) : (⟨S3x64, .f32⟩ : BufTy).Contents (Elt F) → (⟨S1x64, .f32⟩ : BufTy).Contents (Elt F)),
    reshape main_v17 main_v18 rfl shapeCasts_S1x64_S64,
    nullary main_c (constantI S_ 32 0#32),
    unary main_c main_v19 (broadcastInDim S800000 ![] bcast_S_S800000 : (⟨S_, .i32⟩ : BufTy).Contents (Elt F) → (⟨S800000, .i32⟩ : BufTy).Contents (Elt F)),
    binary main_v1 main_v19 main_v20 (cmpi .slt : (⟨S800000, .i32⟩ : BufTy).Contents (Elt F) → (⟨S800000, .i32⟩ : BufTy).Contents (Elt F) → (⟨S800000, .i1⟩ : BufTy).Contents (Elt F)),
    nullary main_c_0 (constantI S_ 32 50000#32),
    unary main_c_0 main_v21 (broadcastInDim S800000 ![] bcast_S_S800000 : (⟨S_, .i32⟩ : BufTy).Contents (Elt F) → (⟨S800000, .i32⟩ : BufTy).Contents (Elt F)),
    binary main_v1 main_v21 main_v22 (addi : (⟨S800000, .i32⟩ : BufTy).Contents (Elt F) → (⟨S800000, .i32⟩ : BufTy).Contents (Elt F) → (⟨S800000, .i32⟩ : BufTy).Contents (Elt F)),
    ternary main_v20 main_v22 main_v1 main_v23 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v23 main_v24 (broadcastInDim S800000x1 ![0] bcast_S800000_S800000x1_0 : (⟨S800000, .i32⟩ : BufTy).Contents (Elt F) → (⟨S800000x1, .i32⟩ : BufTy).Contents (Elt F)),
    binary main_v12 main_v24 main_v25 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)),
    nullary main_cst (constant S_ .f32 0x00000000#32),
    unary main_cst main_v26 (broadcastInDim S50000x64 ![] bcast_S_S50000x64 : (⟨S_, .f32⟩ : BufTy).Contents (Elt F) → (⟨S50000x64, .f32⟩ : BufTy).Contents (Elt F)),
    unary main_v3 main_v27 (broadcastInDim S800000x1 ![0] bcast_S800000_S800000x1_0 : (⟨S800000, .i32⟩ : BufTy).Contents (Elt F) → (⟨S800000x1, .i32⟩ : BufTy).Contents (Elt F)),
    ternary main_v26 main_v27 main_v25 main_v28 ((fun x i u => Host.scatterAdd scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F)),
    nullary main_cst_1 (constant S_ .f32 0x3F800000#32),
    unary main_cst_1 main_v29 (broadcastInDim S800000 ![] bcast_S_S800000 : (⟨S_, .f32⟩ : BufTy).Contents (Elt F) → (⟨S800000, .f32⟩ : BufTy).Contents (Elt F)),
    nullary main_cst_2 (constant S_ .f32 0x00000000#32),
    unary main_cst_2 main_v30 (broadcastInDim S50000 ![] bcast_S_S50000 : (⟨S_, .f32⟩ : BufTy).Contents (Elt F) → (⟨S50000, .f32⟩ : BufTy).Contents (Elt F)),
    unary main_v3 main_v31 (broadcastInDim S800000x1 ![0] bcast_S800000_S800000x1_0 : (⟨S800000, .i32⟩ : BufTy).Contents (Elt F) → (⟨S800000x1, .i32⟩ : BufTy).Contents (Elt F)),
    ternary main_v30 main_v31 main_v29 main_v32 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    nullary main_cst_3 (constant S_ .f32 0x3F800000#32),
    unary main_cst_3 main_call0_v0 (id : (⟨S_, .f32⟩ : BufTy).Contents (Elt F) → (⟨S_, .f32⟩ : BufTy).Contents (Elt F)),
    unary main_call0_v0 main_call0_v1 (broadcastInDim S50000 ![] bcast_S_S50000 : (⟨S_, .f32⟩ : BufTy).Contents (Elt F) → (⟨S50000, .f32⟩ : BufTy).Contents (Elt F)),
    binary main_call0_v1 main_v32 main_v33 ((maximumf) : (⟨S50000, .f32⟩ : BufTy).Contents (Elt F) → (⟨S50000, .f32⟩ : BufTy).Contents (Elt F) → (⟨S50000, .f32⟩ : BufTy).Contents (Elt F)),
    unary main_v33 main_v34 (broadcastInDim S50000x1 ![0] bcast_S50000_S50000x1_0 : (⟨S50000, .f32⟩ : BufTy).Contents (Elt F) → (⟨S50000x1, .f32⟩ : BufTy).Contents (Elt F)),
    unary main_v34 main_v35 (broadcastInDim S50000x64 ![0, 1] bcast_S50000x1_S50000x64_0_1 : (⟨S50000x1, .f32⟩ : BufTy).Contents (Elt F) → (⟨S50000x64, .f32⟩ : BufTy).Contents (Elt F)),
    binary main_v28 main_v35 main_v36 (Host.divf : (⟨S50000x64, .f32⟩ : BufTy).Contents (Elt F) → (⟨S50000x64, .f32⟩ : BufTy).Contents (Elt F) → (⟨S50000x64, .f32⟩ : BufTy).Contents (Elt F)),
    binary main_v36 main_v14 main_v37 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    binary main_v12 main_v16 main_v38 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    binary main_v37 main_v38 main_v39 (addf : (⟨S50000x64, .f32⟩ : BufTy).Contents (Elt F) → (⟨S50000x64, .f32⟩ : BufTy).Contents (Elt F) → (⟨S50000x64, .f32⟩ : BufTy).Contents (Elt F)),
    unary main_v18 main_v40 (broadcastInDim S1x64 ![1] bcast_S64_S1x64_1 : (⟨S64, .f32⟩ : BufTy).Contents (Elt F) → (⟨S1x64, .f32⟩ : BufTy).Contents (Elt F)),
    unary main_v40 main_v41 (broadcastInDim S50000x64 ![0, 1] bcast_S1x64_S50000x64_0_1 : (⟨S1x64, .f32⟩ : BufTy).Contents (Elt F) → (⟨S50000x64, .f32⟩ : BufTy).Contents (Elt F)),
    binary main_v39 main_v41 main_v42 (addf : (⟨S50000x64, .f32⟩ : BufTy).Contents (Elt F) → (⟨S50000x64, .f32⟩ : BufTy).Contents (Elt F) → (⟨S50000x64, .f32⟩ : BufTy).Contents (Elt F)),
    binary main_v42 main_v8 main_v43 (addf : (⟨S50000x64, .f32⟩ : BufTy).Contents (Elt F) → (⟨S50000x64, .f32⟩ : BufTy).Contents (Elt F) → (⟨S50000x64, .f32⟩ : BufTy).Contents (Elt F)),
    nullary main_call1_cst (constant S_ .f32 0x00000000#32),
    unary main_call1_cst main_call1_v0 (broadcastInDim S50000x64 ![] bcast_S_S50000x64 : (⟨S_, .f32⟩ : BufTy).Contents (Elt F) → (⟨S50000x64, .f32⟩ : BufTy).Contents (Elt F)),
    binary main_v43 main_call1_v0 main_v44 ((maximumf) : (⟨S50000x64, .f32⟩ : BufTy).Contents (Elt F) → (⟨S50000x64, .f32⟩ : BufTy).Contents (Elt F) → (⟨S50000x64, .f32⟩ : BufTy).Contents (Elt F)) ]

def opsL1 : List (HloOp τ sig (Elt F)) :=
  [ unary main_arg7 main_v45 ((extractStridedSlice S1x64x64 ![1, 0, 0] · slices_S3x64x64_S1x64x64_1_0_0) : (⟨S3x64x64, .f32⟩ : BufTy).Contents (Elt F) → (⟨S1x64x64, .f32⟩ : BufTy).Contents (Elt F)),
    reshape main_v45 main_v46 rfl shapeCasts_S1x64x64_S64x64,
    unary main_arg8 main_v47 ((extractStridedSlice S1x64x64 ![1, 0, 0] · slices_S3x64x64_S1x64x64_1_0_0) : (⟨S3x64x64, .f32⟩ : BufTy).Contents (Elt F) → (⟨S1x64x64, .f32⟩ : BufTy).Contents (Elt F)),
    reshape main_v47 main_v48 rfl shapeCasts_S1x64x64_S64x64,
    unary main_arg9 main_v49 ((extractStridedSlice S1x64 ![1, 0] · slices_S3x64_S1x64_1_0) : (⟨S3x64, .f32⟩ : BufTy).Contents (Elt F) → (⟨S1x64, .f32⟩ : BufTy).Contents (Elt F)),
    reshape main_v49 main_v50 rfl shapeCasts_S1x64_S64,
    nullary main_c_4 (constantI S_ 32 0#32),
    unary main_c_4 main_v51 (broadcastInDim S800000 ![] bcast_S_S800000 : (⟨S_, .i32⟩ : BufTy).Contents (Elt F) → (⟨S800000, .i32⟩ : BufTy).Contents (Elt F)),
    binary main_v1 main_v51 main_v52 (cmpi .slt : (⟨S800000, .i32⟩ : BufTy).Contents (Elt F) → (⟨S800000, .i32⟩ : BufTy).Contents (Elt F) → (⟨S800000, .i1⟩ : BufTy).Contents (Elt F)),
    nullary main_c_5 (constantI S_ 32 50000#32),
    unary main_c_5 main_v53 (broadcastInDim S800000 ![] bcast_S_S800000 : (⟨S_, .i32⟩ : BufTy).Contents (Elt F) → (⟨S800000, .i32⟩ : BufTy).Contents (Elt F)),
    binary main_v1 main_v53 main_v54 (addi : (⟨S800000, .i32⟩ : BufTy).Contents (Elt F) → (⟨S800000, .i32⟩ : BufTy).Contents (Elt F) → (⟨S800000, .i32⟩ : BufTy).Contents (Elt F)),
    ternary main_v52 main_v54 main_v1 main_v55 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v55 main_v56 (broadcastInDim S800000x1 ![0] bcast_S800000_S800000x1_0 : (⟨S800000, .i32⟩ : BufTy).Contents (Elt F) → (⟨S800000x1, .i32⟩ : BufTy).Contents (Elt F)),
    binary main_v44 main_v56 main_v57 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)),
    nullary main_cst_6 (constant S_ .f32 0x00000000#32),
    unary main_cst_6 main_v58 (broadcastInDim S50000x64 ![] bcast_S_S50000x64 : (⟨S_, .f32⟩ : BufTy).Contents (Elt F) → (⟨S50000x64, .f32⟩ : BufTy).Contents (Elt F)),
    unary main_v3 main_v59 (broadcastInDim S800000x1 ![0] bcast_S800000_S800000x1_0 : (⟨S800000, .i32⟩ : BufTy).Contents (Elt F) → (⟨S800000x1, .i32⟩ : BufTy).Contents (Elt F)),
    ternary main_v58 main_v59 main_v57 main_v60 ((fun x i u => Host.scatterAdd scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F)),
    nullary main_cst_7 (constant S_ .f32 0x3F800000#32),
    unary main_cst_7 main_v61 (broadcastInDim S800000 ![] bcast_S_S800000 : (⟨S_, .f32⟩ : BufTy).Contents (Elt F) → (⟨S800000, .f32⟩ : BufTy).Contents (Elt F)),
    nullary main_cst_8 (constant S_ .f32 0x00000000#32),
    unary main_cst_8 main_v62 (broadcastInDim S50000 ![] bcast_S_S50000 : (⟨S_, .f32⟩ : BufTy).Contents (Elt F) → (⟨S50000, .f32⟩ : BufTy).Contents (Elt F)),
    unary main_v3 main_v63 (broadcastInDim S800000x1 ![0] bcast_S800000_S800000x1_0 : (⟨S800000, .i32⟩ : BufTy).Contents (Elt F) → (⟨S800000x1, .i32⟩ : BufTy).Contents (Elt F)),
    ternary main_v62 main_v63 main_v61 main_v64 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    nullary main_cst_9 (constant S_ .f32 0x3F800000#32),
    unary main_cst_9 main_call2_v0 (id : (⟨S_, .f32⟩ : BufTy).Contents (Elt F) → (⟨S_, .f32⟩ : BufTy).Contents (Elt F)),
    unary main_call2_v0 main_call2_v1 (broadcastInDim S50000 ![] bcast_S_S50000 : (⟨S_, .f32⟩ : BufTy).Contents (Elt F) → (⟨S50000, .f32⟩ : BufTy).Contents (Elt F)),
    binary main_call2_v1 main_v64 main_v65 ((maximumf) : (⟨S50000, .f32⟩ : BufTy).Contents (Elt F) → (⟨S50000, .f32⟩ : BufTy).Contents (Elt F) → (⟨S50000, .f32⟩ : BufTy).Contents (Elt F)),
    unary main_v65 main_v66 (broadcastInDim S50000x1 ![0] bcast_S50000_S50000x1_0 : (⟨S50000, .f32⟩ : BufTy).Contents (Elt F) → (⟨S50000x1, .f32⟩ : BufTy).Contents (Elt F)),
    unary main_v66 main_v67 (broadcastInDim S50000x64 ![0, 1] bcast_S50000x1_S50000x64_0_1 : (⟨S50000x1, .f32⟩ : BufTy).Contents (Elt F) → (⟨S50000x64, .f32⟩ : BufTy).Contents (Elt F)),
    binary main_v60 main_v67 main_v68 (Host.divf : (⟨S50000x64, .f32⟩ : BufTy).Contents (Elt F) → (⟨S50000x64, .f32⟩ : BufTy).Contents (Elt F) → (⟨S50000x64, .f32⟩ : BufTy).Contents (Elt F)),
    binary main_v68 main_v46 main_v69 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    binary main_v44 main_v48 main_v70 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    binary main_v69 main_v70 main_v71 (addf : (⟨S50000x64, .f32⟩ : BufTy).Contents (Elt F) → (⟨S50000x64, .f32⟩ : BufTy).Contents (Elt F) → (⟨S50000x64, .f32⟩ : BufTy).Contents (Elt F)),
    unary main_v50 main_v72 (broadcastInDim S1x64 ![1] bcast_S64_S1x64_1 : (⟨S64, .f32⟩ : BufTy).Contents (Elt F) → (⟨S1x64, .f32⟩ : BufTy).Contents (Elt F)),
    unary main_v72 main_v73 (broadcastInDim S50000x64 ![0, 1] bcast_S1x64_S50000x64_0_1 : (⟨S1x64, .f32⟩ : BufTy).Contents (Elt F) → (⟨S50000x64, .f32⟩ : BufTy).Contents (Elt F)),
    binary main_v71 main_v73 main_v74 (addf : (⟨S50000x64, .f32⟩ : BufTy).Contents (Elt F) → (⟨S50000x64, .f32⟩ : BufTy).Contents (Elt F) → (⟨S50000x64, .f32⟩ : BufTy).Contents (Elt F)),
    binary main_v74 main_v8 main_v75 (addf : (⟨S50000x64, .f32⟩ : BufTy).Contents (Elt F) → (⟨S50000x64, .f32⟩ : BufTy).Contents (Elt F) → (⟨S50000x64, .f32⟩ : BufTy).Contents (Elt F)),
    nullary main_call3_cst (constant S_ .f32 0x00000000#32),
    unary main_call3_cst main_call3_v0 (broadcastInDim S50000x64 ![] bcast_S_S50000x64 : (⟨S_, .f32⟩ : BufTy).Contents (Elt F) → (⟨S50000x64, .f32⟩ : BufTy).Contents (Elt F)),
    binary main_v75 main_call3_v0 main_v76 ((maximumf) : (⟨S50000x64, .f32⟩ : BufTy).Contents (Elt F) → (⟨S50000x64, .f32⟩ : BufTy).Contents (Elt F) → (⟨S50000x64, .f32⟩ : BufTy).Contents (Elt F)) ]

def opsL2 : List (HloOp τ sig (Elt F)) :=
  [ unary main_arg7 main_v77 ((extractStridedSlice S1x64x64 ![2, 0, 0] · slices_S3x64x64_S1x64x64_2_0_0) : (⟨S3x64x64, .f32⟩ : BufTy).Contents (Elt F) → (⟨S1x64x64, .f32⟩ : BufTy).Contents (Elt F)),
    reshape main_v77 main_v78 rfl shapeCasts_S1x64x64_S64x64,
    unary main_arg8 main_v79 ((extractStridedSlice S1x64x64 ![2, 0, 0] · slices_S3x64x64_S1x64x64_2_0_0) : (⟨S3x64x64, .f32⟩ : BufTy).Contents (Elt F) → (⟨S1x64x64, .f32⟩ : BufTy).Contents (Elt F)),
    reshape main_v79 main_v80 rfl shapeCasts_S1x64x64_S64x64,
    unary main_arg9 main_v81 ((extractStridedSlice S1x64 ![2, 0] · slices_S3x64_S1x64_2_0) : (⟨S3x64, .f32⟩ : BufTy).Contents (Elt F) → (⟨S1x64, .f32⟩ : BufTy).Contents (Elt F)),
    reshape main_v81 main_v82 rfl shapeCasts_S1x64_S64,
    nullary main_c_10 (constantI S_ 32 0#32),
    unary main_c_10 main_v83 (broadcastInDim S800000 ![] bcast_S_S800000 : (⟨S_, .i32⟩ : BufTy).Contents (Elt F) → (⟨S800000, .i32⟩ : BufTy).Contents (Elt F)),
    binary main_v1 main_v83 main_v84 (cmpi .slt : (⟨S800000, .i32⟩ : BufTy).Contents (Elt F) → (⟨S800000, .i32⟩ : BufTy).Contents (Elt F) → (⟨S800000, .i1⟩ : BufTy).Contents (Elt F)),
    nullary main_c_11 (constantI S_ 32 50000#32),
    unary main_c_11 main_v85 (broadcastInDim S800000 ![] bcast_S_S800000 : (⟨S_, .i32⟩ : BufTy).Contents (Elt F) → (⟨S800000, .i32⟩ : BufTy).Contents (Elt F)),
    binary main_v1 main_v85 main_v86 (addi : (⟨S800000, .i32⟩ : BufTy).Contents (Elt F) → (⟨S800000, .i32⟩ : BufTy).Contents (Elt F) → (⟨S800000, .i32⟩ : BufTy).Contents (Elt F)),
    ternary main_v84 main_v86 main_v1 main_v87 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v87 main_v88 (broadcastInDim S800000x1 ![0] bcast_S800000_S800000x1_0 : (⟨S800000, .i32⟩ : BufTy).Contents (Elt F) → (⟨S800000x1, .i32⟩ : BufTy).Contents (Elt F)),
    binary main_v76 main_v88 main_v89 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)),
    nullary main_cst_12 (constant S_ .f32 0x00000000#32),
    unary main_cst_12 main_v90 (broadcastInDim S50000x64 ![] bcast_S_S50000x64 : (⟨S_, .f32⟩ : BufTy).Contents (Elt F) → (⟨S50000x64, .f32⟩ : BufTy).Contents (Elt F)),
    unary main_v3 main_v91 (broadcastInDim S800000x1 ![0] bcast_S800000_S800000x1_0 : (⟨S800000, .i32⟩ : BufTy).Contents (Elt F) → (⟨S800000x1, .i32⟩ : BufTy).Contents (Elt F)),
    ternary main_v90 main_v91 main_v89 main_v92 ((fun x i u => Host.scatterAdd scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F)),
    nullary main_cst_13 (constant S_ .f32 0x3F800000#32),
    unary main_cst_13 main_v93 (broadcastInDim S800000 ![] bcast_S_S800000 : (⟨S_, .f32⟩ : BufTy).Contents (Elt F) → (⟨S800000, .f32⟩ : BufTy).Contents (Elt F)),
    nullary main_cst_14 (constant S_ .f32 0x00000000#32),
    unary main_cst_14 main_v94 (broadcastInDim S50000 ![] bcast_S_S50000 : (⟨S_, .f32⟩ : BufTy).Contents (Elt F) → (⟨S50000, .f32⟩ : BufTy).Contents (Elt F)),
    unary main_v3 main_v95 (broadcastInDim S800000x1 ![0] bcast_S800000_S800000x1_0 : (⟨S800000, .i32⟩ : BufTy).Contents (Elt F) → (⟨S800000x1, .i32⟩ : BufTy).Contents (Elt F)),
    ternary main_v94 main_v95 main_v93 main_v96 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    nullary main_cst_15 (constant S_ .f32 0x3F800000#32),
    unary main_cst_15 main_call4_v0 (id : (⟨S_, .f32⟩ : BufTy).Contents (Elt F) → (⟨S_, .f32⟩ : BufTy).Contents (Elt F)),
    unary main_call4_v0 main_call4_v1 (broadcastInDim S50000 ![] bcast_S_S50000 : (⟨S_, .f32⟩ : BufTy).Contents (Elt F) → (⟨S50000, .f32⟩ : BufTy).Contents (Elt F)),
    binary main_call4_v1 main_v96 main_v97 ((maximumf) : (⟨S50000, .f32⟩ : BufTy).Contents (Elt F) → (⟨S50000, .f32⟩ : BufTy).Contents (Elt F) → (⟨S50000, .f32⟩ : BufTy).Contents (Elt F)),
    unary main_v97 main_v98 (broadcastInDim S50000x1 ![0] bcast_S50000_S50000x1_0 : (⟨S50000, .f32⟩ : BufTy).Contents (Elt F) → (⟨S50000x1, .f32⟩ : BufTy).Contents (Elt F)),
    unary main_v98 main_v99 (broadcastInDim S50000x64 ![0, 1] bcast_S50000x1_S50000x64_0_1 : (⟨S50000x1, .f32⟩ : BufTy).Contents (Elt F) → (⟨S50000x64, .f32⟩ : BufTy).Contents (Elt F)),
    binary main_v92 main_v99 main_v100 (Host.divf : (⟨S50000x64, .f32⟩ : BufTy).Contents (Elt F) → (⟨S50000x64, .f32⟩ : BufTy).Contents (Elt F) → (⟨S50000x64, .f32⟩ : BufTy).Contents (Elt F)),
    binary main_v100 main_v78 main_v101 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    binary main_v76 main_v80 main_v102 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    binary main_v101 main_v102 main_v103 (addf : (⟨S50000x64, .f32⟩ : BufTy).Contents (Elt F) → (⟨S50000x64, .f32⟩ : BufTy).Contents (Elt F) → (⟨S50000x64, .f32⟩ : BufTy).Contents (Elt F)),
    unary main_v82 main_v104 (broadcastInDim S1x64 ![1] bcast_S64_S1x64_1 : (⟨S64, .f32⟩ : BufTy).Contents (Elt F) → (⟨S1x64, .f32⟩ : BufTy).Contents (Elt F)),
    unary main_v104 main_v105 (broadcastInDim S50000x64 ![0, 1] bcast_S1x64_S50000x64_0_1 : (⟨S1x64, .f32⟩ : BufTy).Contents (Elt F) → (⟨S50000x64, .f32⟩ : BufTy).Contents (Elt F)),
    binary main_v103 main_v105 main_v106 (addf : (⟨S50000x64, .f32⟩ : BufTy).Contents (Elt F) → (⟨S50000x64, .f32⟩ : BufTy).Contents (Elt F) → (⟨S50000x64, .f32⟩ : BufTy).Contents (Elt F)),
    binary main_v106 main_arg10 main_v107 ((fun l r => Host.dotGeneral dot_S50000x64_S64x40_S50000x40_1_0_0_1_n_n none l r) : (⟨S50000x64, .f32⟩ : BufTy).Contents (Elt F) → (⟨S64x40, .f32⟩ : BufTy).Contents (Elt F) → (⟨S50000x40, .f32⟩ : BufTy).Contents (Elt F)),
    unary main_arg11 main_v108 (broadcastInDim S1x40 ![1] bcast_S40_S1x40_1 : (⟨S40, .f32⟩ : BufTy).Contents (Elt F) → (⟨S1x40, .f32⟩ : BufTy).Contents (Elt F)),
    unary main_v108 main_v109 (broadcastInDim S50000x40 ![0, 1] bcast_S1x40_S50000x40_0_1 : (⟨S1x40, .f32⟩ : BufTy).Contents (Elt F) → (⟨S50000x40, .f32⟩ : BufTy).Contents (Elt F)),
    binary main_v107 main_v109 main_v110 (addf : (⟨S50000x40, .f32⟩ : BufTy).Contents (Elt F) → (⟨S50000x40, .f32⟩ : BufTy).Contents (Elt F) → (⟨S50000x40, .f32⟩ : BufTy).Contents (Elt F)) ]

def opsLSa : List (HloOp τ sig (Elt F)) :=
  [ nullary main_call5_cst (constant S_ .f32 0xFF800000#32),
    TRef.binary (TRef.of (T := ⟨S50000x40, .f32⟩) main_v110) (TRef.of (T := ⟨S_, .f32⟩) main_call5_cst) (TRef.of (T := ⟨S50000, .f32⟩) main_call5_v0) (fun x v => Host.reduce FloatOps.maximumf x v reducesTo_S50000x40_S50000_d1 h_S_) ]

def opsLSb : List (HloOp τ sig (Elt F)) :=
  [ nullary main_call5_cst_0 (constant S_ .f32 0xFF800000#32),
    unary main_call5_cst_0 main_call5_v1 (broadcastInDim S50000 ![] bcast_S_S50000 : (⟨S_, .f32⟩ : BufTy).Contents (Elt F) → (⟨S50000, .f32⟩ : BufTy).Contents (Elt F)),
    binary main_call5_v1 main_call5_v0 main_call5_v2 ((maximumf) : (⟨S50000, .f32⟩ : BufTy).Contents (Elt F) → (⟨S50000, .f32⟩ : BufTy).Contents (Elt F) → (⟨S50000, .f32⟩ : BufTy).Contents (Elt F)),
    unary main_call5_v2 main_call5_v3 (broadcastInDim S50000x1 ![0] bcast_S50000_S50000x1_0 : (⟨S50000, .f32⟩ : BufTy).Contents (Elt F) → (⟨S50000x1, .f32⟩ : BufTy).Contents (Elt F)),
    unary main_call5_v3 main_call5_v4 (broadcastInDim S50000x40 ![0, 1] bcast_S50000x1_S50000x40_0_1 : (⟨S50000x1, .f32⟩ : BufTy).Contents (Elt F) → (⟨S50000x40, .f32⟩ : BufTy).Contents (Elt F)),
    binary main_v110 main_call5_v4 main_call5_v5 ((subf) : (⟨S50000x40, .f32⟩ : BufTy).Contents (Elt F) → (⟨S50000x40, .f32⟩ : BufTy).Contents (Elt F) → (⟨S50000x40, .f32⟩ : BufTy).Contents (Elt F)),
    unary main_call5_v5 main_call5_v6 (Host.exp : (⟨S50000x40, .f32⟩ : BufTy).Contents (Elt F) → (⟨S50000x40, .f32⟩ : BufTy).Contents (Elt F)),
    nullary main_call5_cst_1 (constant S_ .f32 0x00000000#32),
    binary main_call5_v6 main_call5_cst_1 main_call5_v7 ((fun x v => Host.reduceAdd x v reducesTo_S50000x40_S50000_d1 h_S_) : (⟨S50000x40, .f32⟩ : BufTy).Contents (Elt F) → (⟨S_, .f32⟩ : BufTy).Contents (Elt F) → (⟨S50000, .f32⟩ : BufTy).Contents (Elt F)),
    unary main_call5_v7 main_call5_v8 (broadcastInDim S50000x1 ![0] bcast_S50000_S50000x1_0 : (⟨S50000, .f32⟩ : BufTy).Contents (Elt F) → (⟨S50000x1, .f32⟩ : BufTy).Contents (Elt F)),
    unary main_call5_v8 main_call5_v9 (Host.log : (⟨S50000x1, .f32⟩ : BufTy).Contents (Elt F) → (⟨S50000x1, .f32⟩ : BufTy).Contents (Elt F)),
    unary main_call5_v9 main_call5_v10 (broadcastInDim S50000x40 ![0, 1] bcast_S50000x1_S50000x40_0_1 : (⟨S50000x1, .f32⟩ : BufTy).Contents (Elt F) → (⟨S50000x40, .f32⟩ : BufTy).Contents (Elt F)),
    binary main_call5_v5 main_call5_v10 main_v111 ((subf) : (⟨S50000x40, .f32⟩ : BufTy).Contents (Elt F) → (⟨S50000x40, .f32⟩ : BufTy).Contents (Elt F) → (⟨S50000x40, .f32⟩ : BufTy).Contents (Elt F)) ]

end Cert.ReferenceIdeal.RefValue

end
-- ==== Proof.RefDense.lean ====
import proofs.«121452_j11587821765290_2_alg».proof.ReferenceIdeal
import proofs.«121452_j11587821765290_2_alg».proof.Proof.Gen.ReferenceIdeal
import proofs.«121452_j11587821765290_2_alg».proof.Proof.Spec
import Idealize.ShloMosaic.Lib.Pipeline.Value
import Idealize.ShloMosaic.Lib.ValueIdx
import Idealize.ShloMosaic.Lib.ValueLayout
import Idealize.ShloMosaic.Lib.IdealHost
import Idealize.ShloMosaic.PureOps.Ideal.Laws

noncomputable section

namespace Cert.ReferenceIdeal.RefDense

open Cert.ReferenceIdeal Cert.Sage Idealize.ShloMosaic Idealize.ShloMosaic.ValueIdx
open scoped BigOperators

variable [Facts]
open Facts₀

/-! ## A matrix product read at an entry -/

/-- In a product of an `M × K` matrix with a `K × N` one (rows against columns, no batch axis) the left operand is
    read on its first axis at the entry's row. -/
theorem plain_lhs0 {M K N : ℕ} (i : (⟨2, ![M, N]⟩ : Shape).Idx) (q : (DotDims.plain M K N).contr.Idx) :
    ((DotDims.plain M K N).lhsIdx i q 0).val = (i 0).val := by
  unfold DotDims.lhsIdx
  rw [dif_neg (by simp [DotDims.plain]), dif_pos (by simp [DotDims.plain])]
  rfl

/-- … and the right operand on its second axis at the entry's column. -/
theorem plain_rhs1 {M K N : ℕ} (i : (⟨2, ![M, N]⟩ : Shape).Idx) (q : (DotDims.plain M K N).contr.Idx) :
    ((DotDims.plain M K N).rhsIdx i q 1).val = (i 1).val := by
  unfold DotDims.rhsIdx
  rw [dif_neg (by simp [DotDims.plain]), dif_pos (by simp [DotDims.plain])]
  rfl

/-- Entry `(r, c)` of the product of an `M × K` matrix with a `K × N` one is the sum over `k` of the row's entry `k`
    times the column's entry `k`. -/
theorem plainDot_apply {M K N : ℕ} (D : DotDims ⟨2, ![M, K]⟩ ⟨2, ![K, N]⟩ ⟨2, ![M, N]⟩) (hD : D = DotDims.plain M K N)
    (x : FVec Ideal ⟨2, ![M, K]⟩ .f32) (w : FVec Ideal ⟨2, ![K, N]⟩ .f32) (r : Fin M) (c : Fin N) :
    Host.dotGeneral D none x w (ix2 r c) = ∑ k : Fin K, x (ix2 r k) * w (ix2 k c) := by
  subst hD
  simp only [Host.dotGeneral]
  rw [Ideal.dotGeneral_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 r c) ((contrEquiv1 (DotDims.plain M K N) K rfl rfl).symm k) = ix2 r k :=
    funext fun a => Fin.ext (by
      match a with
      | ⟨0, _⟩ => exact plain_lhs0 _ _
      | ⟨1, _⟩ => exact ((DotDims.plain M K N).lhsIdx_val_of_single rfl _ _).trans hk)
  have er : (DotDims.plain M K N).rhsIdx (ix2 r c) ((contrEquiv1 (DotDims.plain M K N) K rfl rfl).symm k) = ix2 k c :=
    funext fun a => Fin.ext (by
      match a with
      | ⟨0, _⟩ => exact ((DotDims.plain M K N).rhsIdx_val_of_single rfl _ _).trans hk
      | ⟨1, _⟩ => exact plain_rhs1 _ _)
  rw [el, er]

/-! ## Broadcasts read at an entry -/

/-- A vector of length `N` laid out as one row and repeated down `M` rows reads, at `(r, c)`, the vector at `c`. -/
theorem rowBias_apply {M N : ℕ} (hN : N ≠ 1) (h1 : (⟨1, ![N]⟩ : Shape).BroadcastsInDim ⟨2, ![1, N]⟩ ![1])
    (h2 : (⟨2, ![1, N]⟩ : Shape).BroadcastsInDim ⟨2, ![M, N]⟩ ![0, 1]) (b : FVec Ideal ⟨1, ![N]⟩ .f32) (r : Fin M) (c : Fin N) :
    broadcastInDim ⟨2, ![M, N]⟩ ![0, 1] h2 (broadcastInDim ⟨2, ![1, N]⟩ ![1] h1 b) (ix2 r c) = b (ix1 c) := by
  rw [broadcastInDim_apply _ h2 _ (ix2 r c) (ix2 (0 : Fin 1) c) (fun a => match a with
      | ⟨0, _⟩ => by show 0 = if (1 : ℕ) = 1 then 0 else r.val; rw [if_pos rfl]
      | ⟨1, _⟩ => by show c.val = if N = 1 then 0 else c.val; rw [if_neg hN]),
    broadcastInDim_apply _ h1 b (ix2 (0 : Fin 1) c) (ix1 c) (fun a => match a with
      | ⟨0, _⟩ => by show c.val = if N = 1 then 0 else c.val; rw [if_neg hN])]

/-- A column of `M` entries repeated along `N` columns reads, at `(r, c)`, the column at `r`. -/
theorem colRepeat_apply {M N : ℕ} (hM : M ≠ 1) (h : (⟨2, ![M, 1]⟩ : Shape).BroadcastsInDim ⟨2, ![M, N]⟩ ![0, 1])
    (y : FVec Ideal ⟨2, ![M, 1]⟩ .f32) (r : Fin M) (c : Fin N) :
    broadcastInDim ⟨2, ![M, N]⟩ ![0, 1] h y (ix2 r c) = y (ix2 r (0 : Fin 1)) :=
  broadcastInDim_apply _ h y (ix2 r c) (ix2 r (0 : Fin 1)) (fun a => match a with
    | ⟨0, _⟩ => by show r.val = if M = 1 then 0 else r.val; rw [if_neg hM]
    | ⟨1, _⟩ => by show 0 = if (1 : ℕ) = 1 then 0 else c.val; rw [if_pos rfl])

/-- A vector of length `M` laid out as a column reads, at `(r, 0)`, the vector at `r`. -/
theorem asColumn_apply {M : ℕ} (hM : M ≠ 1) (h : (⟨1, ![M]⟩ : Shape).BroadcastsInDim ⟨2, ![M, 1]⟩ ![0])
    (v : FVec Ideal ⟨1, ![M]⟩ .f32) (r : Fin M) :
    broadcastInDim ⟨2, ![M, 1]⟩ ![0] h v (ix2 r (0 : Fin 1)) = v (ix1 r) :=
  broadcastInDim_apply _ h v (ix2 r (0 : Fin 1)) (ix1 r) (fun a => match a with
    | ⟨0, _⟩ => by show r.val = if M = 1 then 0 else r.val; rw [if_neg hM])

/-! ## The host's one-operand operations read at an entry -/

theorem hostTanh_apply {s : Shape} (y : FVec Ideal s .f32) (i : s.Idx) : Host.tanh y i = Ideal.tanh (y i) := rfl
theorem hostExp_apply {s : Shape} (y : FVec Ideal s .f32) (i : s.Idx) : Host.exp y i = Ideal.exp (y i) := rfl
theorem hostLog_apply {s : Shape} (y : FVec Ideal s .f32) (i : s.Idx) : Host.log y i = Ideal.log (y i) := rfl

/-! ## The program's records are the plain ones -/

theorem dot16_plain : dot_S50000x16_S16x64_S50000x64_1_0_0_1_n_n = DotDims.plain 50000 16 64 := rfl
theorem dot128_plain : dot_S50000x128_S128x64_S50000x64_1_0_0_1_n_n = DotDims.plain 50000 128 64 := rfl
theorem dot64_plain : dot_S50000x64_S64x64_S50000x64_1_0_0_1_n_n = DotDims.plain 50000 64 64 := rfl
theorem dot40_plain : dot_S50000x64_S64x40_S50000x40_1_0_0_1_n_n = DotDims.plain 50000 64 40 := rfl

/-- Every index of a matrix is the pair of its coordinates. -/
theorem exists_ix2 {n0 n1 : ℕ} (i : (⟨2, ![n0, n1]⟩ : Shape).Idx) : ∃ (r : Fin n0) (c : Fin n1), i = ix2 r c :=
  ⟨i 0, i 1, eq_ix2 i⟩

/-! ## The dense stages -/

/-- The input projection: `x · w` plus the bias row repeated down the nodes. -/
theorem affine_128 (x : FVec Ideal S50000x128 .f32) (w : FVec Ideal S128x64 .f32) (b : FVec Ideal S64 .f32) :
    addf (Host.dotGeneral dot_S50000x128_S128x64_S50000x64_1_0_0_1_n_n none x w)
      (broadcastInDim S50000x64 ![0, 1] bcast_S1x64_S50000x64_0_1 (broadcastInDim S1x64 ![1] bcast_S64_S1x64_1 b))
      = affine x w b := by
  funext i
  obtain ⟨r, c, rfl⟩ := exists_ix2 i
  rw [addf_apply, plainDot_apply _ dot128_plain, rowBias_apply (by decide)]
  rfl

/-- The positional encoding: the hyperbolic tangent of `pos · w` plus the bias row. -/
theorem posEnc_16 (pos : FVec Ideal S50000x16 .f32) (w : FVec Ideal S16x64 .f32) (b : FVec Ideal S64 .f32) :
    Host.tanh (addf (Host.dotGeneral dot_S50000x16_S16x64_S50000x64_1_0_0_1_n_n none pos w)
      (broadcastInDim S50000x64 ![0, 1] bcast_S1x64_S50000x64_0_1 (broadcastInDim S1x64 ![1] bcast_S64_S1x64_1 b)))
      = posEnc pos w b := by
  funext i
  obtain ⟨r, c, rfl⟩ := exists_ix2 i
  rw [hostTanh_apply, addf_apply, plainDot_apply _ dot16_plain, rowBias_apply (by decide)]
  rfl

/-- The affine part of a layer at an entry: the two products and the bias row. -/
theorem conv_apply (a h : FVec Ideal S50000x64 .f32) (wl wr : FVec Ideal S64x64 .f32) (b : FVec Ideal S64 .f32)
    (r : Fin 50000) (c : Fin 64) :
    addf (addf (Host.dotGeneral dot_S50000x64_S64x64_S50000x64_1_0_0_1_n_n none a wl)
        (Host.dotGeneral dot_S50000x64_S64x64_S50000x64_1_0_0_1_n_n none h wr))
      (broadcastInDim S50000x64 ![0, 1] bcast_S1x64_S50000x64_0_1 (broadcastInDim S1x64 ![1] bcast_S64_S1x64_1 b)) (ix2 r c)
      = convAt a h wl wr b r c := by
  rw [addf_apply, addf_apply, plainDot_apply _ dot64_plain, plainDot_apply _ dot64_plain, rowBias_apply (by decide)]
  rfl

/-- A hidden layer: the affine part plus the positional encoding, clipped below at zero (the maximum with a zero
    repeated over the whole matrix). -/
theorem convRelu_eq (a h : FVec Ideal S50000x64 .f32) (wl wr : FVec Ideal S64x64 .f32) (b : FVec Ideal S64 .f32)
    (p : FVec Ideal S50000x64 .f32) :
    maximumf (addf (addf (addf (Host.dotGeneral dot_S50000x64_S64x64_S50000x64_1_0_0_1_n_n none a wl)
          (Host.dotGeneral dot_S50000x64_S64x64_S50000x64_1_0_0_1_n_n none h wr))
        (broadcastInDim S50000x64 ![0, 1] bcast_S1x64_S50000x64_0_1 (broadcastInDim S1x64 ![1] bcast_S64_S1x64_1 b))) p)
      (broadcastInDim S50000x64 ![] bcast_S_S50000x64 (constant S_ .f32 0x00000000#32))
      = convRelu a h wl wr b p := by
  funext i
  obtain ⟨r, c, rfl⟩ := exists_ix2 i
  rw [maximumf_apply, addf_apply, conv_apply, broadcastInDim_scalar_apply, constant_apply, Ideal.ofBits_zero_f32]
  rfl

/-- The last layer (no positional term, no clipping) followed by the classifier. -/
theorem emb_eq (a h : FVec Ideal S50000x64 .f32) (wl wr : FVec Ideal S64x64 .f32) (b : FVec Ideal S64 .f32)
    (wlast : FVec Ideal S64x40 .f32) (blast : FVec Ideal S40 .f32) :
    addf (Host.dotGeneral dot_S50000x64_S64x40_S50000x40_1_0_0_1_n_n none
        (addf (addf (Host.dotGeneral dot_S50000x64_S64x64_S50000x64_1_0_0_1_n_n none a wl)
            (Host.dotGeneral dot_S50000x64_S64x64_S50000x64_1_0_0_1_n_n none h wr))
          (broadcastInDim S50000x64 ![0, 1] bcast_S1x64_S50000x64_0_1 (broadcastInDim S1x64 ![1] bcast_S64_S1x64_1 b))) wlast)
      (broadcastInDim S50000x40 ![0, 1] bcast_S1x40_S50000x40_0_1 (broadcastInDim S1x40 ![1] bcast_S40_S1x40_1 blast))
      = emb a h wl wr b wlast blast := by
  funext i
  obtain ⟨r, c, rfl⟩ := exists_ix2 i
  rw [addf_apply, plainDot_apply _ dot40_plain, rowBias_apply (by decide)]
  show (∑ k : Fin 64, _ * _) + _ = (∑ k : Fin 64, _ * _) + _
  refine congrArg (· + blast (ix1 c)) (Finset.sum_congr rfl fun k _ => ?_)
  rw [conv_apply]

/-! ## The neighbourhood mean -/

/-- The neighbourhood sums divided by the clipped in-degrees, the degrees laid out as a column and repeated along
    the features. -/
theorem aggDiv_eq (s : FVec Ideal S50000x64 .f32) (d : FVec Ideal S50000 .f32) :
    Host.divf s (broadcastInDim S50000x64 ![0, 1] bcast_S50000x1_S50000x64_0_1
      (broadcastInDim S50000x1 ![0] bcast_S50000_S50000x1_0 d)) = aggDiv s d := by
  funext i
  obtain ⟨r, c, rfl⟩ := exists_ix2 i
  rw [hostDivf_apply, colRepeat_apply (by decide), asColumn_apply (by decide)]
  rfl

/-- An in-degree clipped below at one (the maximum with a one repeated over the nodes) is never zero. -/
theorem clippedDeg_ne_zero (cnt : FVec Ideal S50000 .f32) (j : S50000.Idx) :
    maximumf (broadcastInDim S50000 ![] bcast_S_S50000 (id (constant S_ .f32 0x3F800000#32))) cnt j ≠ 0 := by
  rw [maximumf_apply, broadcastInDim_scalar_apply, id, constant_apply, Ideal.ofBits_one_f32]
  exact max_one_ne_zero _

/-! ## The log-softmax -/

/-- Dropping the 40 columns of a score matrix is a reduction over one axis. -/
theorem reduces40 : S50000x40.Reduces [1] S50000 := by decide

/-- The score index over node `r` with column `k` put back is `(r, k)`. -/
theorem lift40 (r : Fin 50000) (k : Fin 40) : reduces40.lift (ix1 r) k = ix2 r k :=
  funext fun a => Fin.ext (by
    match a with
    | ⟨0, _⟩ => rfl
    | ⟨1, _⟩ => rfl)

/-- The f32 pattern of minus infinity is the least extended real. -/
theorem ofBits_negInf_f32 : Ideal.ofBits .f32 0xFF800000#32 = ⊥ := by simp [Ideal.ofBits, Ideal.ieee]

/-- The row maximum as the program spells it — the fold of the maximum over the columns from minus infinity, then once
    more the maximum with minus infinity — is the largest of the row's scores. -/
theorem rowMax_apply (e : FVec Ideal S50000x40 .f32) (r : Fin 50000) :
    maximumf (broadcastInDim S50000 ![] bcast_S_S50000 (constant S_ .f32 0xFF800000#32))
      (Host.reduce FloatOps.maximumf e (constant S_ .f32 0xFF800000#32) reducesTo_S50000x40_S50000_d1 h_S_) (ix1 r)
      = rowMax e r := by
  rw [maximumf_apply, broadcastInDim_scalar_apply, constant_apply,
    Host.reduce_eq_fold_single FloatOps.maximumf e _ reducesTo_S50000x40_S50000_d1 reduces40 h_S_ (ix1 r), constant_apply,
    ofBits_negInf_f32, max_bot_left]
  exact Finset.fold_congr fun k _ => congrArg e (lift40 r k)

/-- A score shifted by its row's maximum, the maxima laid out as a column and repeated along the classes. -/
theorem shifted_apply (e : FVec Ideal S50000x40 .f32) (r : Fin 50000) (c : Fin 40) :
    subf e (broadcastInDim S50000x40 ![0, 1] bcast_S50000x1_S50000x40_0_1 (broadcastInDim S50000x1 ![0] bcast_S50000_S50000x1_0
      (maximumf (broadcastInDim S50000 ![] bcast_S_S50000 (constant S_ .f32 0xFF800000#32))
        (Host.reduce FloatOps.maximumf e (constant S_ .f32 0xFF800000#32) reducesTo_S50000x40_S50000_d1 h_S_)))) (ix2 r c)
      = e (ix2 r c) - rowMax e r := by
  rw [subf_apply, colRepeat_apply (by decide), asColumn_apply (by decide), rowMax_apply]

/-- The row-wise log-softmax: each score shifted by its row's maximum, minus the logarithm of the row's sum (from
    zero) of the exponentials of the shifted scores. -/
theorem logSoftmax_eq (e : FVec Ideal S50000x40 .f32) :
    subf
      (subf e (broadcastInDim S50000x40 ![0, 1] bcast_S50000x1_S50000x40_0_1 (broadcastInDim S50000x1 ![0] bcast_S50000_S50000x1_0
        (maximumf (broadcastInDim S50000 ![] bcast_S_S50000 (constant S_ .f32 0xFF800000#32))
          (Host.reduce FloatOps.maximumf e (constant S_ .f32 0xFF800000#32) reducesTo_S50000x40_S50000_d1 h_S_)))))
      (broadcastInDim S50000x40 ![0, 1] bcast_S50000x1_S50000x40_0_1 (Host.log (broadcastInDim S50000x1 ![0] bcast_S50000_S50000x1_0
        (Host.reduceAdd (Host.exp
          (subf e (broadcastInDim S50000x40 ![0, 1] bcast_S50000x1_S50000x40_0_1 (broadcastInDim S50000x1 ![0] bcast_S50000_S50000x1_0
            (maximumf (broadcastInDim S50000 ![] bcast_S_S50000 (constant S_ .f32 0xFF800000#32))
              (Host.reduce FloatOps.maximumf e (constant S_ .f32 0xFF800000#32) reducesTo_S50000x40_S50000_d1 h_S_))))))
          (constant S_ .f32 0x00000000#32) reducesTo_S50000x40_S50000_d1 h_S_))))
      = logSoftmax e := by
  funext i
  obtain ⟨r, c, rfl⟩ := exists_ix2 i
  rw [subf_apply, shifted_apply, colRepeat_apply (by decide), hostLog_apply, asColumn_apply (by decide), hostReduceAdd_apply,
    Ideal.hostReduceAdd_single reducesTo_S50000x40_S50000_d1 reduces40, constant_apply, Ideal.ofBits_zero_f32, zero_add]
  show _ = (e (ix2 r c) - rowMax e r) - Ideal.log (∑ k : Fin 40, Ideal.exp (e (ix2 r k) - rowMax e r))
  refine congrArg (fun t => (e (ix2 r c) - rowMax e r) - Ideal.log t) (Finset.sum_congr rfl fun (k : Fin 40) _ => ?_)
  rw [lift40, hostExp_apply, shifted_apply]

end Cert.ReferenceIdeal.RefDense

end
-- ==== Proof.RefValue.lean ====
/-
  The reference program's two results as the specification's functions of its twelve arguments.

  The reference is a straight line of 154 host operations. Read as mathematics it is: the edge list's two rows (sources
  and destinations); the positional encoding `tanh (pos · W_pos + b_pos)`; the input projection `x · W_init + b_init`;
  three graph layers, each `mean · W_l + h · W_r + b` with `mean` the neighbourhood SUMS (the rows of `h` gathered at
  every edge's source and added up at its destination) DIVIDED by the in-degree clipped below at one, the first two
  layers followed by the positional term and the clip at zero, the last by the classifier; and the row-wise log-softmax.
  Here: the host terms the two programs share (`edgeSrc` … `bLayer2`); the operations cut into six stretches, each read
  over ANY contents at its start — what it leaves in the buffers later stretches read, as the specification's function
  of what it finds, and the buffers it leaves alone —; the stretches composed; and the run restated with the two
  results at `Cert.Sage.scores` over the reference's neighbourhood mean and its `Cert.Sage.logSoftmax`.
-/
import proofs.«121452_j11587821765290_2_alg».proof.Proof.RefRun
import proofs.«121452_j11587821765290_2_alg».proof.Proof.RefStretch
import proofs.«121452_j11587821765290_2_alg».proof.Proof.RefDense
import proofs.«121452_j11587821765290_2_alg».proof.Proof.Spec
import Idealize.ShloMosaic.Lib.StableHlo.Run
import Idealize.ShloMosaic.PureOps.Ideal

noncomputable section

namespace Cert.ReferenceIdeal.RefValue

open Cert.ReferenceIdeal Cert.ReferenceIdeal.Gen Idealize.ShloMosaic Idealize.ShloMosaic.TcCoe Idealize.SL.Sem Idealize.ShloMosaic.StableHlo

/-! ## The host terms -/

/-- Row `j` of the [2, 800000] edge list as a vector of 800000 node numbers (row 0: sources, row 1: destinations). -/
def edgeSrc (e : IVec S2x800000 32) : IVec S800000 32 :=
  shapeCast S800000 (extractStridedSlice S1x800000 ![0, 0] e slices_S2x800000_S1x800000_0_0) shapeCasts_S1x800000_S800000
def edgeDst (e : IVec S2x800000 32) : IVec S800000 32 :=
  shapeCast S800000 (extractStridedSlice S1x800000 ![1, 0] e slices_S2x800000_S1x800000_1_0) shapeCasts_S1x800000_S800000

/-- Each node's in-degree, clipped below at one: one is added at the destination of every edge, from zero. -/
def clippedDeg (d : IVec S800000 32) : FVec Ideal S50000 .f32 :=
  maximumf (broadcastInDim S50000 ![] bcast_S_S50000 (id (constant S_ .f32 0x3F800000#32)))
    (Host.scatterAdd scatter_S50000_S800000x1_S800000_n_0_0_1 (broadcastInDim S50000 ![] bcast_S_S50000 (constant S_ .f32 0x00000000#32))
      (broadcastInDim S800000x1 ![0] bcast_S800000_S800000x1_0 d) (broadcastInDim S800000 ![] bcast_S_S800000 (constant S_ .f32 0x3F800000#32)))

/-- The neighbourhood sums: the rows of `h` at the (wrapped) source of every edge, added up at the edge's
    destination, from zero. -/
def nbSum (s d : IVec S800000 32) (h : FVec Ideal S50000x64 .f32) :
    FVec Ideal S50000x64 .f32 :=
  Host.scatterAdd scatter_S50000x64_S800000x1_S800000x64_1_0_0_1
    (broadcastInDim S50000x64 ![] bcast_S_S50000x64 (constant S_ .f32 0x00000000#32))
    (broadcastInDim S800000x1 ![0] bcast_S800000_S800000x1_0 d)
    (Host.gather gather_S50000x64_S800000x1_S800000x64_1_0_n_n_0_1_164 h
      (broadcastInDim S800000x1 ![0] bcast_S800000_S800000x1_0
        (select (cmpi .slt s (broadcastInDim S800000 ![] bcast_S_S800000 (constantI S_ 32 0#32)))
          (addi s (broadcastInDim S800000 ![] bcast_S_S800000 (constantI S_ 32 50000#32))) s)))

/-- Layer 0's square weight matrix: slab 0 of a stack of three, its unit axis dropped. -/
def wLayer0 (w : FVec Ideal S3x64x64 .f32) : FVec Ideal S64x64 .f32 :=
  shapeCast S64x64 (extractStridedSlice S1x64x64 ![0, 0, 0] w slices_S3x64x64_S1x64x64_0_0_0) shapeCasts_S1x64x64_S64x64
/-- Layer 0's bias: row 0 of a stack of three, its unit axis dropped. -/
def bLayer0 (b : FVec Ideal S3x64 .f32) : FVec Ideal S64 .f32 :=
  shapeCast S64 (extractStridedSlice S1x64 ![0, 0] b slices_S3x64_S1x64_0_0) shapeCasts_S1x64_S64
/-- Layer 1's square weight matrix: slab 1 of a stack of three, its unit axis dropped. -/
def wLayer1 (w : FVec Ideal S3x64x64 .f32) : FVec Ideal S64x64 .f32 :=
  shapeCast S64x64 (extractStridedSlice S1x64x64 ![1, 0, 0] w slices_S3x64x64_S1x64x64_1_0_0) shapeCasts_S1x64x64_S64x64
/-- Layer 1's bias: row 1 of a stack of three, its unit axis dropped. -/
def bLayer1 (b : FVec Ideal S3x64 .f32) : FVec Ideal S64 .f32 :=
  shapeCast S64 (extractStridedSlice S1x64 ![1, 0] b slices_S3x64_S1x64_1_0) shapeCasts_S1x64_S64
/-- Layer 2's square weight matrix: slab 2 of a stack of three, its unit axis dropped. -/
def wLayer2 (w : FVec Ideal S3x64x64 .f32) : FVec Ideal S64x64 .f32 :=
  shapeCast S64x64 (extractStridedSlice S1x64x64 ![2, 0, 0] w slices_S3x64x64_S1x64x64_2_0_0) shapeCasts_S1x64x64_S64x64
/-- Layer 2's bias: row 2 of a stack of three, its unit axis dropped. -/
def bLayer2 (b : FVec Ideal S3x64 .f32) : FVec Ideal S64 .f32 :=
  shapeCast S64 (extractStridedSlice S1x64 ![2, 0] b slices_S3x64_S1x64_2_0) shapeCasts_S1x64_S64

open Cert.Sage

/-- Each row's largest score, folded from minus infinity. -/
def rowTop (e : FVec Ideal S50000x40 .f32) : FVec Ideal S50000 .f32 :=
  Host.reduce FloatOps.maximumf e (constant S_ .f32 0xFF800000#32) reducesTo_S50000x40_S50000_d1 h_S_

/-- The log-softmax's remaining operations, from the scores `e` and the rows' largest `t`: the scores shifted by the
    (clipped) largest, minus the logarithm of the row sums of the shifted scores' exponentials. -/
def lsTail (e : FVec Ideal S50000x40 .f32) (t : FVec Ideal S50000 .f32) : FVec Ideal S50000x40 .f32 :=
  subf
    (subf e (broadcastInDim S50000x40 ![0, 1] bcast_S50000x1_S50000x40_0_1 (broadcastInDim S50000x1 ![0] bcast_S50000_S50000x1_0
      (maximumf (broadcastInDim S50000 ![] bcast_S_S50000 (constant S_ .f32 0xFF800000#32)) t))))
    (broadcastInDim S50000x40 ![0, 1] bcast_S50000x1_S50000x40_0_1 (Host.log (broadcastInDim S50000x1 ![0] bcast_S50000_S50000x1_0
      (Host.reduceAdd (Host.exp
        (subf e (broadcastInDim S50000x40 ![0, 1] bcast_S50000x1_S50000x40_0_1 (broadcastInDim S50000x1 ![0] bcast_S50000_S50000x1_0
          (maximumf (broadcastInDim S50000 ![] bcast_S_S50000 (constant S_ .f32 0xFF800000#32)) t)))))
        (constant S_ .f32 0x00000000#32) reducesTo_S50000x40_S50000_d1 h_S_))))

/-- Together they are the row-wise log-softmax. -/
theorem lsTail_rowTop (e : FVec Ideal S50000x40 .f32) : lsTail e (rowTop e) = logSoftmax e :=
  RefDense.logSoftmax_eq e

/-- The class scores as the reference computes them: the network over the reference's neighbourhood means. -/
def rScores (m : (ℓ : Loc nD τ sig) → Buf (Elt Ideal) ℓ) (c : Dev nD) : Cert.Sage.Mat 50000 40 :=
  Cert.Sage.scores (fun h => Cert.Sage.aggDiv (nbSum (edgeSrc (m ((c.tc : Thread nD τ).loc main_arg2))) (edgeDst (m ((c.tc : Thread nD τ).loc main_arg2))) h) (clippedDeg (edgeDst (m ((c.tc : Thread nD τ).loc main_arg2)))))
    (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6))
    (wLayer0 (m ((c.tc : Thread nD τ).loc main_arg7))) (wLayer0 (m ((c.tc : Thread nD τ).loc main_arg8))) (bLayer0 (m ((c.tc : Thread nD τ).loc main_arg9))) (wLayer1 (m ((c.tc : Thread nD τ).loc main_arg7))) (wLayer1 (m ((c.tc : Thread nD τ).loc main_arg8))) (bLayer1 (m ((c.tc : Thread nD τ).loc main_arg9)))
    (wLayer2 (m ((c.tc : Thread nD τ).loc main_arg7))) (wLayer2 (m ((c.tc : Thread nD τ).loc main_arg8))) (bLayer2 (m ((c.tc : Thread nD τ).loc main_arg9))) (m ((c.tc : Thread nD τ).loc main_arg10)) (m ((c.tc : Thread nD τ).loc main_arg11))

/-! ## The operations cut into six stretches -/

theorem cons_congr {α : Type} {a b : α} {l l' : List α} (h1 : a = b) (h2 : l = l') : a :: l = b :: l' := h1 ▸ h2 ▸ rfl

set_option maxRecDepth 65536 in
set_option maxHeartbeats 4000000 in
/-- @main's operations are the six stretches in order: the same operations one by one (the operations of a called
    function are spelt over typed references in @main and, but for one, over the buffers themselves in the stretches). -/
theorem ops_split {F : FTy → Type} [FloatOps F] :
    (ValueP.ops (F := F)) = opsA ++ (opsL0 ++ (opsL1 ++ (opsL2 ++ (opsLSa ++ opsLSb)))) := by
  unfold opsA opsL0 opsL1 opsL2 opsLSa opsLSb
  simp only [List.cons_append, List.nil_append]
  unfold ValueP.ops
  repeat (refine cons_congr rfl ?_)
  rfl

/-- The contents after two stretches in a row. -/
theorem after_append {Val : EltTy → Type} (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-! ## The stretches, each read over ANY contents `W` at its start -/

section Stages
variable (W : Valuation τ sig (Elt Ideal))

set_option maxHeartbeats 400000 in
/-- The first stretch leaves the edge list's two rows, the positional encoding and the input projection. -/
theorem stageA_src : after (opsA (F := Ideal)) W (Proc.devRef .tc main_v1) = edgeSrc (W (Proc.devRef .tc main_arg2)) := by
  unfold opsA; after_results_simp; rfl
set_option maxHeartbeats 400000 in
theorem stageA_dst : after (opsA (F := Ideal)) W (Proc.devRef .tc main_v3) = edgeDst (W (Proc.devRef .tc main_arg2)) := by
  unfold opsA; after_results_simp; rfl
set_option maxHeartbeats 400000 in
theorem stageA_pos : after (opsA (F := Ideal)) W (Proc.devRef .tc main_v8)
    = posEnc (W (Proc.devRef .tc main_arg1)) (W (Proc.devRef .tc main_arg3)) (W (Proc.devRef .tc main_arg4)) := by
  unfold opsA; after_results_simp; exact RefDense.posEnc_16 _ _ _
set_option maxHeartbeats 400000 in
theorem stageA_h0 : after (opsA (F := Ideal)) W (Proc.devRef .tc main_v12)
    = affine (W (Proc.devRef .tc main_arg0)) (W (Proc.devRef .tc main_arg5)) (W (Proc.devRef .tc main_arg6)) := by
  unfold opsA; after_results_simp; exact RefDense.affine_128 _ _ _
set_option maxHeartbeats 400000 in
theorem keepA_arg7 : after (opsA (F := Ideal)) W (Proc.devRef .tc main_arg7) = W (Proc.devRef .tc main_arg7) := by
  unfold opsA; after_results_simp
set_option maxHeartbeats 400000 in
theorem keepA_arg8 : after (opsA (F := Ideal)) W (Proc.devRef .tc main_arg8) = W (Proc.devRef .tc main_arg8) := by
  unfold opsA; after_results_simp
set_option maxHeartbeats 400000 in
theorem keepA_arg9 : after (opsA (F := Ideal)) W (Proc.devRef .tc main_arg9) = W (Proc.devRef .tc main_arg9) := by
  unfold opsA; after_results_simp
set_option maxHeartbeats 400000 in
theorem keepA_arg10 : after (opsA (F := Ideal)) W (Proc.devRef .tc main_arg10) = W (Proc.devRef .tc main_arg10) := by
  unfold opsA; after_results_simp
set_option maxHeartbeats 400000 in
theorem keepA_arg11 : after (opsA (F := Ideal)) W (Proc.devRef .tc main_arg11) = W (Proc.devRef .tc main_arg11) := by
  unfold opsA; after_results_simp

set_option maxHeartbeats 400000 in
/-- The first hidden layer, from the rows `main_v12`. -/
theorem stageL0 : after (opsL0 (F := Ideal)) W (Proc.devRef .tc main_v44)
    = convRelu (aggDiv (nbSum (W (Proc.devRef .tc main_v1)) (W (Proc.devRef .tc main_v3)) (W (Proc.devRef .tc main_v12))) (clippedDeg (W (Proc.devRef .tc main_v3))))
        (W (Proc.devRef .tc main_v12)) (wLayer0 (W (Proc.devRef .tc main_arg7))) (wLayer0 (W (Proc.devRef .tc main_arg8))) (bLayer0 (W (Proc.devRef .tc main_arg9)))
        (W (Proc.devRef .tc main_v8)) := by
  unfold opsL0; after_results_simp
  exact (RefDense.convRelu_eq _ _ _ _ _ _).trans (congrArg (fun a => convRelu a _ _ _ _ _) (RefDense.aggDiv_eq _ _))
set_option maxHeartbeats 400000 in
theorem keepL0_v1 : after (opsL0 (F := Ideal)) W (Proc.devRef .tc main_v1) = W (Proc.devRef .tc main_v1) := by
  unfold opsL0; after_results_simp
set_option maxHeartbeats 400000 in
theorem keepL0_v3 : after (opsL0 (F := Ideal)) W (Proc.devRef .tc main_v3) = W (Proc.devRef .tc main_v3) := by
  unfold opsL0; after_results_simp
set_option maxHeartbeats 400000 in
theorem keepL0_v8 : after (opsL0 (F := Ideal)) W (Proc.devRef .tc main_v8) = W (Proc.devRef .tc main_v8) := by
  unfold opsL0; after_results_simp
set_option maxHeartbeats 400000 in
theorem keepL0_arg7 : after (opsL0 (F := Ideal)) W (Proc.devRef .tc main_arg7) = W (Proc.devRef .tc main_arg7) := by
  unfold opsL0; after_results_simp
set_option maxHeartbeats 400000 in
theorem keepL0_arg8 : after (opsL0 (F := Ideal)) W (Proc.devRef .tc main_arg8) = W (Proc.devRef .tc main_arg8) := by
  unfold opsL0; after_results_simp
set_option maxHeartbeats 400000 in
theorem keepL0_arg9 : after (opsL0 (F := Ideal)) W (Proc.devRef .tc main_arg9) = W (Proc.devRef .tc main_arg9) := by
  unfold opsL0; after_results_simp
set_option maxHeartbeats 400000 in
theorem keepL0_arg10 : after (opsL0 (F := Ideal)) W (Proc.devRef .tc main_arg10) = W (Proc.devRef .tc main_arg10) := by
  unfold opsL0; after_results_simp
set_option maxHeartbeats 400000 in
theorem keepL0_arg11 : after (opsL0 (F := Ideal)) W (Proc.devRef .tc main_arg11) = W (Proc.devRef .tc main_arg11) := by
  unfold opsL0; after_results_simp

set_option maxHeartbeats 400000 in
/-- The second hidden layer, from the rows `main_v44`. -/
theorem stageL1 : after (opsL1 (F := Ideal)) W (Proc.devRef .tc main_v76)
    = convRelu (aggDiv (nbSum (W (Proc.devRef .tc main_v1)) (W (Proc.devRef .tc main_v3)) (W (Proc.devRef .tc main_v44))) (clippedDeg (W (Proc.devRef .tc main_v3))))
        (W (Proc.devRef .tc main_v44)) (wLayer1 (W (Proc.devRef .tc main_arg7))) (wLayer1 (W (Proc.devRef .tc main_arg8))) (bLayer1 (W (Proc.devRef .tc main_arg9)))
        (W (Proc.devRef .tc main_v8)) := by
  unfold opsL1; after_results_simp
  exact (RefDense.convRelu_eq _ _ _ _ _ _).trans (congrArg (fun a => convRelu a _ _ _ _ _) (RefDense.aggDiv_eq _ _))
set_option maxHeartbeats 400000 in
theorem keepL1_v1 : after (opsL1 (F := Ideal)) W (Proc.devRef .tc main_v1) = W (Proc.devRef .tc main_v1) := by
  unfold opsL1; after_results_simp
set_option maxHeartbeats 400000 in
theorem keepL1_v3 : after (opsL1 (F := Ideal)) W (Proc.devRef .tc main_v3) = W (Proc.devRef .tc main_v3) := by
  unfold opsL1; after_results_simp
set_option maxHeartbeats 400000 in
theorem keepL1_arg7 : after (opsL1 (F := Ideal)) W (Proc.devRef .tc main_arg7) = W (Proc.devRef .tc main_arg7) := by
  unfold opsL1; after_results_simp
set_option maxHeartbeats 400000 in
theorem keepL1_arg8 : after (opsL1 (F := Ideal)) W (Proc.devRef .tc main_arg8) = W (Proc.devRef .tc main_arg8) := by
  unfold opsL1; after_results_simp
set_option maxHeartbeats 400000 in
theorem keepL1_arg9 : after (opsL1 (F := Ideal)) W (Proc.devRef .tc main_arg9) = W (Proc.devRef .tc main_arg9) := by
  unfold opsL1; after_results_simp
set_option maxHeartbeats 400000 in
theorem keepL1_arg10 : after (opsL1 (F := Ideal)) W (Proc.devRef .tc main_arg10) = W (Proc.devRef .tc main_arg10) := by
  unfold opsL1; after_results_simp
set_option maxHeartbeats 400000 in
theorem keepL1_arg11 : after (opsL1 (F := Ideal)) W (Proc.devRef .tc main_arg11) = W (Proc.devRef .tc main_arg11) := by
  unfold opsL1; after_results_simp

set_option maxHeartbeats 400000 in
/-- The last layer and the classifier, from the rows `main_v76`. -/
theorem stageL2 : after (opsL2 (F := Ideal)) W (Proc.devRef .tc main_v110)
    = emb (aggDiv (nbSum (W (Proc.devRef .tc main_v1)) (W (Proc.devRef .tc main_v3)) (W (Proc.devRef .tc main_v76))) (clippedDeg (W (Proc.devRef .tc main_v3))))
        (W (Proc.devRef .tc main_v76)) (wLayer2 (W (Proc.devRef .tc main_arg7))) (wLayer2 (W (Proc.devRef .tc main_arg8))) (bLayer2 (W (Proc.devRef .tc main_arg9)))
        (W (Proc.devRef .tc main_arg10)) (W (Proc.devRef .tc main_arg11)) := by
  unfold opsL2; after_results_simp
  exact (RefDense.emb_eq _ _ _ _ _ _ _).trans (congrArg (fun a => emb a _ _ _ _ _ _) (RefDense.aggDiv_eq _ _))

set_option maxHeartbeats 400000 in
/-- Each row's largest score (the one operation kept as the called function spells it: its transports along
    reflexive equations are the identity). -/
theorem stageLSa : after (opsLSa (F := Ideal)) W (Proc.devRef .tc main_call5_v0) = rowTop (W (Proc.devRef .tc main_v110)) := by
  unfold opsLSa; after_results_simp
  simp only [TRef.toBuf, TRef.ofBuf, cast_eq]
  rfl
set_option maxHeartbeats 400000 in
theorem keepLSa_v110 : after (opsLSa (F := Ideal)) W (Proc.devRef .tc main_v110) = W (Proc.devRef .tc main_v110) := by
  unfold opsLSa; after_results_simp

set_option maxHeartbeats 400000 in
/-- The rest of the row-wise log-softmax, from the class scores `main_v110` and the rows' largest `main_call5_v0`. -/
theorem stageLSb : after (opsLSb (F := Ideal)) W (Proc.devRef .tc main_v111)
    = lsTail (W (Proc.devRef .tc main_v110)) (W (Proc.devRef .tc main_call5_v0)) := by
  unfold opsLSb; after_results_simp; rfl
set_option maxHeartbeats 400000 in
theorem keepLSb_v110 : after (opsLSb (F := Ideal)) W (Proc.devRef .tc main_v110) = W (Proc.devRef .tc main_v110) := by
  unfold opsLSb; after_results_simp

end Stages

/-! ## The run's two results -/

section Results
variable (m : (ℓ : Loc nD τ sig) → Buf (Elt Ideal) ℓ) (c : Dev nD)

set_option maxHeartbeats 1000000 in
/-- After the first four stretches the class scores' buffer holds the network's scores. -/
theorem scores_eq :
    after (opsL2 (F := Ideal)) (after opsL1 (after opsL0 (after opsA (launchContents m c)))) (Proc.devRef .tc main_v110) = rScores m c := by
  rw [stageL2, keepL1_v1, keepL1_v3, keepL1_arg7, keepL1_arg8, keepL1_arg9, keepL1_arg10, keepL1_arg11, stageL1,
    keepL0_v1, keepL0_v3, keepL0_v8, keepL0_arg7, keepL0_arg8, keepL0_arg9, keepL0_arg10, keepL0_arg11, stageL0,
    stageA_src, stageA_dst, stageA_pos, stageA_h0, keepA_arg7, keepA_arg8, keepA_arg9, keepA_arg10, keepA_arg11]
  rfl

set_option maxHeartbeats 1000000 in
/-- The first result: the class scores. -/
theorem out0 : after (ValueP.ops (F := Ideal)) (launchContents m c) (Proc.devRef .tc main_v110) = rScores m c := by
  rw [ops_split, after_append, after_append, after_append, after_append, after_append, keepLSb_v110, keepLSa_v110]
  exact scores_eq m c

set_option maxHeartbeats 1000000 in
/-- The second result: their row-wise log-softmax. -/
theorem out1 : after (ValueP.ops (F := Ideal)) (launchContents m c) (Proc.devRef .tc main_v111) = logSoftmax (rScores m c) := by
  rw [ops_split, after_append, after_append, after_append, after_append, after_append, stageLSb, keepLSa_v110, stageLSa, lsTail_rowTop, scores_eq]

end Results

/-! ## The reference's run, read -/

section Kept
variable (m : (ℓ : Loc nD τ sig) → Buf (Elt Ideal) ℓ) (c : Dev nD)
set_option maxRecDepth 8192 in
set_option maxHeartbeats 4000000 in
theorem kept_arg0 : after (ValueP.ops (F := Ideal)) (launchContents m c) (Proc.devRef .tc main_arg0) = m ((c.tc : Thread nD τ).loc main_arg0) := by
  after_results_simp <;> rfl
set_option maxRecDepth 8192 in
set_option maxHeartbeats 4000000 in
theorem kept_arg1 : after (ValueP.ops (F := Ideal)) (launchContents m c) (Proc.devRef .tc main_arg1) = m ((c.tc : Thread nD τ).loc main_arg1) := by
  after_results_simp <;> rfl
set_option maxRecDepth 8192 in
set_option maxHeartbeats 4000000 in
theorem kept_arg2 : after (ValueP.ops (F := Ideal)) (launchContents m c) (Proc.devRef .tc main_arg2) = m ((c.tc : Thread nD τ).loc main_arg2) := by
  after_results_simp <;> rfl
set_option maxRecDepth 8192 in
set_option maxHeartbeats 4000000 in
theorem kept_arg3 : after (ValueP.ops (F := Ideal)) (launchContents m c) (Proc.devRef .tc main_arg3) = m ((c.tc : Thread nD τ).loc main_arg3) := by
  after_results_simp <;> rfl
set_option maxRecDepth 8192 in
set_option maxHeartbeats 4000000 in
theorem kept_arg4 : after (ValueP.ops (F := Ideal)) (launchContents m c) (Proc.devRef .tc main_arg4) = m ((c.tc : Thread nD τ).loc main_arg4) := by
  after_results_simp <;> rfl
set_option maxRecDepth 8192 in
set_option maxHeartbeats 4000000 in
theorem kept_arg5 : after (ValueP.ops (F := Ideal)) (launchContents m c) (Proc.devRef .tc main_arg5) = m ((c.tc : Thread nD τ).loc main_arg5) := by
  after_results_simp <;> rfl
set_option maxRecDepth 8192 in
set_option maxHeartbeats 4000000 in
theorem kept_arg6 : after (ValueP.ops (F := Ideal)) (launchContents m c) (Proc.devRef .tc main_arg6) = m ((c.tc : Thread nD τ).loc main_arg6) := by
  after_results_simp <;> rfl
set_option maxRecDepth 8192 in
set_option maxHeartbeats 4000000 in
theorem kept_arg7 : after (ValueP.ops (F := Ideal)) (launchContents m c) (Proc.devRef .tc main_arg7) = m ((c.tc : Thread nD τ).loc main_arg7) := by
  after_results_simp <;> rfl
set_option maxRecDepth 8192 in
set_option maxHeartbeats 4000000 in
theorem kept_arg8 : after (ValueP.ops (F := Ideal)) (launchContents m c) (Proc.devRef .tc main_arg8) = m ((c.tc : Thread nD τ).loc main_arg8) := by
  after_results_simp <;> rfl
set_option maxRecDepth 8192 in
set_option maxHeartbeats 4000000 in
theorem kept_arg9 : after (ValueP.ops (F := Ideal)) (launchContents m c) (Proc.devRef .tc main_arg9) = m ((c.tc : Thread nD τ).loc main_arg9) := by
  after_results_simp <;> rfl
set_option maxRecDepth 8192 in
set_option maxHeartbeats 4000000 in
theorem kept_arg10 : after (ValueP.ops (F := Ideal)) (launchContents m c) (Proc.devRef .tc main_arg10) = m ((c.tc : Thread nD τ).loc main_arg10) := by
  after_results_simp <;> rfl
set_option maxRecDepth 8192 in
set_option maxHeartbeats 4000000 in
theorem kept_arg11 : after (ValueP.ops (F := Ideal)) (launchContents m c) (Proc.devRef .tc main_arg11) = m ((c.tc : Thread nD τ).loc main_arg11) := by
  after_results_simp <;> rfl
end Kept

/-- On every device, from any memory with zero counters: every weakly fair execution of the reference's @main
    terminates with the class scores' buffer at the network's scores over the reference's neighbourhood means, the
    second result at their row-wise log-softmax, and the twelve arguments unchanged. -/
theorem ref_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v110) = rScores m c
      ∧ r.2.mem ((c.tc : Thread nD τ).loc main_v111) = Cert.Sage.logSoftmax (rScores m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  (θ_run defs _ _).mono (fun _ h c => ⟨(h c main_v110).trans (out0 m c), (h c main_v111).trans (out1 m c),
      (h c main_arg0).trans (kept_arg0 m c),
      (h c main_arg1).trans (kept_arg1 m c),
      (h c main_arg2).trans (kept_arg2 m c),
      (h c main_arg3).trans (kept_arg3 m c),
      (h c main_arg4).trans (kept_arg4 m c),
      (h c main_arg5).trans (kept_arg5 m c),
      (h c main_arg6).trans (kept_arg6 m c),
      (h c main_arg7).trans (kept_arg7 m c),
      (h c main_arg8).trans (kept_arg8 m c),
      (h c main_arg9).trans (kept_arg9 m c),
      (h c main_arg10).trans (kept_arg10 m c),
      (h c main_arg11).trans (kept_arg11 m c)⟩)
    (ValueP.run_fold m ρ)

end Cert.ReferenceIdeal.RefValue

end
-- ==== Proof.Bridge.lean ====
/-
  The two programs compute one function. Both are the same network over a neighbourhood mean; the kernel forms the
  mean as the neighbourhood sums times the reciprocal of the clipped in-degree, the reference as the sums divided by
  the clipped in-degree. A clipped degree is at least one, hence never zero, and off zero `x · (1 / y) = x / y` on
  the extended reals, infinite `x` included. The sums themselves, the degrees and the layers' weight slabs are the
  same host terms in the two programs (the kernel's detour of the gathered rows through a narrower float format and
  back is the identity on extended reals).
-/
import proofs.«121452_j11587821765290_2_alg».proof.Proof.KHost2
import proofs.«121452_j11587821765290_2_alg».proof.Proof.KAgg
import proofs.«121452_j11587821765290_2_alg».proof.Proof.RefValue

set_option maxRecDepth 16384

noncomputable section

namespace Cert.Proof.Bridge

open Idealize.ShloMosaic

/-- The kernel's neighbourhood mean is the reference's. -/
theorem mean_agree (e : IVec Cert.KernelIdeal.S2x800000 32) :
    Cert.KernelIdeal.HostValue.kMean e
      = fun h => Cert.Sage.aggDiv
          (Cert.ReferenceIdeal.RefValue.nbSum (Cert.ReferenceIdeal.RefValue.edgeSrc e) (Cert.ReferenceIdeal.RefValue.edgeDst e) h)
          (Cert.ReferenceIdeal.RefValue.clippedDeg (Cert.ReferenceIdeal.RefValue.edgeDst e)) := by
  funext h
  unfold Cert.KernelIdeal.HostValue.kMean Cert.KernelIdeal.HostValue.meanTerm Cert.KernelIdeal.HostValue.recipDeg
  have hne : ∀ j, Cert.KernelIdeal.HostValue.clippedDeg (Cert.KernelIdeal.HostValue.edgeDst e) j ≠ 0 :=
    fun j => Cert.KernelIdeal.Agg.clipped_ne_zero _ j
  rw [Cert.KernelIdeal.Agg.mean_eq_aggMul, Cert.Sage.aggMul_eq_aggDiv _ _ hne]
  have hs : Cert.KernelIdeal.HostValue.nbSum (Cert.KernelIdeal.HostValue.edgeSrc e) (Cert.KernelIdeal.HostValue.edgeDst e) h
      = Cert.ReferenceIdeal.RefValue.nbSum (Cert.ReferenceIdeal.RefValue.edgeSrc e) (Cert.ReferenceIdeal.RefValue.edgeDst e) h := by
    unfold Cert.KernelIdeal.HostValue.nbSum
    rw [Cert.KernelIdeal.Agg.gather_roundtrip]
    rfl
  have hd : Cert.KernelIdeal.HostValue.clippedDeg (Cert.KernelIdeal.HostValue.edgeDst e)
      = Cert.ReferenceIdeal.RefValue.clippedDeg (Cert.ReferenceIdeal.RefValue.edgeDst e) := rfl
  rw [hs, hd]

/-- From memories agreeing on the twelve arguments the two programs' class scores are one matrix. -/
theorem scores_agree (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) :
    Cert.ReferenceIdeal.RefValue.rScores m' c = Cert.KernelIdeal.HostValue.kScores m c := by
  obtain ⟨h0, h1, h2, h3, h4, h5, h6, h7, h8, h9, h10, h11⟩ := h
  unfold Cert.ReferenceIdeal.RefValue.rScores Cert.KernelIdeal.HostValue.kScores
  rw [h0, h1, h2, h3, h4, h5, h6, h7, h8, h9, h10, h11, mean_agree]
  rfl

end Cert.Proof.Bridge

end
-- ==== Proof.lean ====
/-
  The certificate of a three-layer graph network over 50000 nodes and 800000 edges: a kernel of four pipelined
  regions among host gathers and scatter-adds, against a plain reference.

  Each layer replaces a node's row by `mean_in · Wl + row · Wr + b`, with `mean_in` the mean of the rows of the node's
  in-neighbours (their sum over the in-degree clipped below at one); the two hidden layers add a positional encoding
  `tanh (pos · Wpos + bpos)` and clip at zero; the last layer feeds a classifier, whose scores and their row-wise
  log-softmax are the two results. Over the extended reals the kernel's 5000-row blocks are restrictions of these
  whole-array functions (every entry depends on one row only), its narrower-format round trips are identities, and its
  one arithmetic difference from the reference — multiplying the neighbourhood sums by the reciprocal of the clipped
  in-degree where the reference divides by it — is no difference, a clipped degree never being zero. No finiteness
  of the inputs is used. The idealized kernel is the kernel's own text read over the extended reals: the ideal pass
  rewrote nothing, so there is nothing to preserve.
-/
import proofs.«121452_j11587821765290_2_alg».proof.Defs
import proofs.«121452_j11587821765290_2_alg».proof.Proof.Gen.Kernel
import proofs.«121452_j11587821765290_2_alg».proof.Proof.Gen.Kernel.Skeleton
import proofs.«121452_j11587821765290_2_alg».proof.Proof.Gen.Kernel.Launch
import proofs.«121452_j11587821765290_2_alg».proof.Proof.Gen.Kernel.Points
import proofs.«121452_j11587821765290_2_alg».proof.Proof.Gen.Kernel.Frame
import proofs.«121452_j11587821765290_2_alg».proof.Proof.Gen.KernelIdeal
import proofs.«121452_j11587821765290_2_alg».proof.Proof.Gen.KernelIdeal.Skeleton
import proofs.«121452_j11587821765290_2_alg».proof.Proof.Gen.KernelIdeal.Launch
import proofs.«121452_j11587821765290_2_alg».proof.Proof.Gen.KernelIdeal.Points
import proofs.«121452_j11587821765290_2_alg».proof.Proof.Gen.KernelIdeal.Frame
import proofs.«121452_j11587821765290_2_alg».proof.Proof.Gen.ReferenceIdeal
import proofs.«121452_j11587821765290_2_alg».proof.Proof.Gen.Pre_finite_inputs
import proofs.«121452_j11587821765290_2_alg».proof.Proof.KRun
import proofs.«121452_j11587821765290_2_alg».proof.Proof.Bridge
import Idealize.ShloMosaic.Adequacy
import Idealize.ShloMosaic.Init

set_option maxRecDepth 16384

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2.2) (Cert.ReferenceIdeal.RefValue.ref_run m ρ)

/-- Both idealized programs end with the class scores and their row-wise log-softmax of one network over one
    neighbourhood mean of arguments that agree. -/
theorem algebraic : Cert.algebraic_KernelIdeal_ReferenceIdeal := by
  intro m ρ m' ρ' _ hagree
  refine ⟨fun c => Cert.KernelIdeal.HostValue.kScores m c, fun c => Cert.Sage.logSoftmax (Cert.KernelIdeal.HostValue.kScores m c), ?_, ?_⟩
  · exact (θ_run Cert.KernelIdeal.defs _ _).mono
      (fun r h c => ⟨(h c).1.trans (Cert.KernelIdeal.HostValue.result_scores m ρ c),
        (h c).2.1.trans (Cert.KernelIdeal.HostValue.result_logp m ρ c), (h c).2.2⟩)
      (Cert.KernelIdeal.RunValue.run_values m ρ)
  · refine (θ_run Cert.ReferenceIdeal.defs _ _).mono (fun r h c => ?_) (Cert.ReferenceIdeal.RefValue.ref_run m' ρ')
    have hs := Cert.Proof.Bridge.scores_agree m m' c (hagree c)
    refine ⟨(h c).1.trans hs, (h c).2.1.trans ?_, (h c).2.2⟩
    rw [hs]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
